-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x128 : Shape := ⟨2, ![8192, 128]⟩
abbrev S96x128 : Shape := ⟨2, ![96, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S128x8 : Shape := ⟨2, ![128, 8]⟩
abbrev S8 : Shape := ⟨1, ![8]⟩
abbrev S128x1 : Shape := ⟨2, ![128, 1]⟩
abbrev S1 : Shape := ⟨1, ![1]⟩
abbrev S128x3 : Shape := ⟨2, ![128, 3]⟩
abbrev S3 : Shape := ⟨1, ![3]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg14 : FVec F S128x3 .f32) (main_arg15 : FVec F S3 .f32) (main_v63 : IVec S_ 1) (main_v67 : IVec S_ 1) : IVec S_ 1 :=
  let main_v68 : IVec S_ 1 := andi main_v63 main_v67
  let main_v69 : FVec F S128x3 .f32 := Host.absf main_arg14
  let main_cst_26 : FVec F S_ .f32 := constant S_ .f32 0x7F800000#32
  let main_v70 : FVec F S128x3 .f32 := broadcastInDim S128x3 ![] bcast_S_S128x3 main_cst_26
  let main_v71 : IVec S128x3 1 := cmpf .olt main_v69 main_v70
  let main_c_27 : IVec S_ 1 := constantI S_ 1 1#1
  let main_v72 : IVec S_ 1 := (fun x v => Host.reduce IntOp.andi x v reducesTo_S128x3_S_d0_1 h_S_) main_v71 main_c_27
  let main_v73 : IVec S_ 1 := andi main_v68 main_v72
  let main_v74 : FVec F S3 .f32 := Host.absf main_arg15
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  main_v78

def fn_part3 {F : FTy → Type} [FloatOps F] (main_arg11 : FVec F S8 .f32) (main_arg12 : FVec F S128x1 .f32) (main_arg13 : FVec F S1 .f32) (main_arg14 : FVec F S128x3 .f32) (main_arg15 : FVec F S3 .f32) (main_v48 : IVec S_ 1) (main_v49 : FVec F S128x8 .f32) (main_v50 : FVec F S128x8 .f32) : IVec S_ 1 :=
  let main_v51 : IVec S128x8 1 := cmpf .olt main_v49 main_v50
  let main_c_19 : IVec S_ 1 := constantI S_ 1 1#1
  let main_v52 : IVec S_ 1 := (fun x v => Host.reduce IntOp.andi x v reducesTo_S128x8_S_d0_1 h_S_) main_v51 main_c_19
  let main_v53 : IVec S_ 1 := andi main_v48 main_v52
  let main_v54 : FVec F S8 .f32 := Host.absf main_arg11
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S128x1 .f32 := Host.absf main_arg12
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_v63 main_v67

def fn_part2 {F : FTy → Type} [FloatOps F] (main_arg7 : FVec F S32 .f32) (main_arg8 : FVec F S128x128 .f32) (main_arg9 : FVec F S128 .f32) (main_arg10 : FVec F S128x8 .f32) (main_arg11 : FVec F S8 .f32) (main_arg12 : FVec F S128x1 .f32) (main_arg13 : FVec F S1 .f32) (main_arg14 : FVec F S128x3 .f32) (main_arg15 : FVec F S3 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x8 .f32 := Host.absf main_arg10
  let main_cst_18 : FVec F S_ .f32 := constant S_ .f32 0x7F800000#32
  let main_v50 : FVec F S128x8 .f32 := broadcastInDim S128x8 ![] bcast_S_S128x8 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128x32 .f32) (main_arg7 : FVec F S32 .f32) (main_arg8 : FVec F S128x128 .f32) (main_arg9 : FVec F S128 .f32) (main_arg10 : FVec F S128x8 .f32) (main_arg11 : FVec F S8 .f32) (main_arg12 : FVec F S128x1 .f32) (main_arg13 : FVec F S1 .f32) (main_arg14 : FVec F S128x3 .f32) (main_arg15 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x64 .f32) (main_arg1 : FVec F S8192x128 .f32) (main_arg2 : FVec F S96x128 .f32) (main_arg3 : FVec F S128 .f32) (main_arg4 : FVec F S128x128 .f32) (main_arg5 : FVec F S128 .f32) (main_arg6 : FVec F S128x32 .f32) (main_arg7 : FVec F S32 .f32) (main_arg8 : FVec F S128x128 .f32) (main_arg9 : FVec F S128 .f32) (main_arg10 : FVec F S128x8 .f32) (main_arg11 : FVec F S8 .f32) (main_arg12 : FVec F S128x1 .f32) (main_arg13 : FVec F S1 .f32) (main_arg14 : FVec F S128x3 .f32) (main_arg15 : FVec F S3 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S96x128 .f32 := Host.absf main_arg2
  let main_cst_2 : FVec F S_ .f32 := constant S_ .f32 0x7F800000#32
  let main_v10 : FVec F S96x128 .f32 := broadcastInDim S96x128 ![] bcast_S_S96x128 main_cst_2
  let main_v11 : IVec S96x128 1 := cmpf .olt main_v9 main_v10
  let main_c_3 : IVec S_ 1 := constantI S_ 1 1#1
  let main_v12 : IVec S_ 1 := (fun x v => Host.reduce IntOp.andi x v reducesTo_S96x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x64 : Shape := ⟨2, ![8192, 64]⟩
abbrev S8192x128 : Shape := ⟨2, ![8192, 128]⟩
abbrev S96x128 : Shape := ⟨2, ![96, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S128x8 : Shape := ⟨2, ![128, 8]⟩
abbrev S8 : Shape := ⟨1, ![8]⟩
abbrev S128x1 : Shape := ⟨2, ![128, 1]⟩
abbrev S1 : Shape := ⟨1, ![1]⟩
abbrev S128x3 : Shape := ⟨2, ![128, 3]⟩
abbrev S3 : Shape := ⟨1, ![3]⟩
abbrev S64x128 : Shape := ⟨2, ![64, 128]⟩
abbrev S32x128 : Shape := ⟨2, ![32, 128]⟩
abbrev S1x128 : Shape := ⟨2, ![1, 128]⟩
abbrev S1x32 : Shape := ⟨2, ![1, 32]⟩
abbrev S2048x64 : Shape := ⟨2, ![2048, 64]⟩
abbrev S2048x128 : Shape := ⟨2, ![2048, 128]⟩
abbrev S2048x32 : Shape := ⟨2, ![2048, 32]⟩
abbrev S2048 : Shape := ⟨1, ![2048]⟩
abbrev S2048x1 : Shape := ⟨2, ![2048, 1]⟩
abbrev S128x12 : Shape := ⟨2, ![128, 12]⟩
abbrev S1x8 : Shape := ⟨2, ![1, 8]⟩
abbrev S1x1 : Shape := ⟨2, ![1, 1]⟩
abbrev S1x3 : Shape := ⟨2, ![1, 3]⟩
abbrev S1x12 : Shape := ⟨2, ![1, 12]⟩
abbrev S8192x8 : Shape := ⟨2, ![8192, 8]⟩
abbrev S8192x1 : Shape := ⟨2, ![8192, 1]⟩
abbrev S8192x3 : Shape := ⟨2, ![8192, 3]⟩
abbrev S2048x8 : Shape := ⟨2, ![2048, 8]⟩
abbrev S2048x3 : Shape := ⟨2, ![2048, 3]⟩
abbrev S2048x12 : Shape := ⟨2, ![2048, 12]⟩

abbrev nBuf : Space → Nat
  | .hbm => 32
  | .vmem => 28
  | .smem => 0
  | _ => 0

abbrev bufTy : (tb : Table) → Fin (tcTables nBuf tb) → BufTy
  | .hbm, ⟨0, _⟩ => ⟨S8192x64, .f32⟩
  | .hbm, ⟨1, _⟩ => ⟨S8192x128, .f32⟩
  | .hbm, ⟨2, _⟩ => ⟨S96x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S128x128, .f32⟩
  | .hbm, ⟨9, _⟩ => ⟨S128, .f32⟩
  | .hbm, ⟨10, _⟩ => ⟨S128x8, .f32⟩
  | .hbm, ⟨11, _⟩ => ⟨S8, .f32⟩
  | .hbm, ⟨12, _⟩ => ⟨S128x1, .f32⟩
  | .hbm, ⟨13, _⟩ => ⟨S1, .f32⟩
  | .hbm, ⟨14, _⟩ => ⟨S128x3, .f32⟩
  | .hbm, ⟨15, _⟩ => ⟨S3, .f32⟩
  | .hbm, ⟨16, _⟩ => ⟨S64x128, .f32⟩
  | .hbm, ⟨17, _⟩ => ⟨S32x128, .f32⟩
  | .hbm, ⟨18, _⟩ => ⟨S1x128, .f32⟩
  | .hbm, ⟨19, _⟩ => ⟨S1x128, .f32⟩
  | .hbm, ⟨20, _⟩ => ⟨S1x32, .f32⟩
  | .hbm, ⟨21, _⟩ => ⟨S1x128, .f32⟩
  | .hbm, ⟨22, _⟩ => ⟨S1x128, .f32⟩
  | .hbm, ⟨23, _⟩ => ⟨S128x12, .f32⟩
  | .hbm, ⟨24, _⟩ => ⟨S1x8, .f32⟩
  | .hbm, ⟨25, _⟩ => ⟨S1x1, .f32⟩
  | .hbm, ⟨26, _⟩ => ⟨S1x3, .f32⟩
  | .hbm, ⟨27, _⟩ => ⟨S1x12, .f32⟩
  | .hbm, ⟨28, _⟩ => ⟨S8192x128, .f32⟩
  | .hbm, ⟨29, _⟩ => ⟨S8192x8, .f32⟩
  | .hbm, ⟨30, _⟩ => ⟨S8192x1, .f32⟩
  | .hbm, ⟨31, _⟩ => ⟨S8192x3, .f32⟩
  | .local _ .vmem, ⟨0, _⟩ => ⟨S2048x64, .f32⟩
  | .local _ .vmem, ⟨1, _⟩ => ⟨S2048x64, .f32⟩
  | .local _ .vmem, ⟨2, _⟩ => ⟨S64x128, .f32⟩
  | .local _ .vmem, ⟨3, _⟩ => ⟨S32x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x32, .f32⟩
  | .local _ .vmem, ⟨8, _⟩ => ⟨S1x32, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S1x32, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2048x128, .f32⟩
  | .local _ .vmem, ⟨17, _⟩ => ⟨S2048x128, .f32⟩
  | .local _ .vmem, ⟨18, _⟩ => ⟨S128x12, .f32⟩
  | .local _ .vmem, ⟨19, _⟩ => ⟨S1x12, .f32⟩
  | .local _ .vmem, ⟨20, _⟩ => ⟨S2048x128, .f32⟩
  | .local _ .vmem, ⟨21, _⟩ => ⟨S2048x128, .f32⟩
  | .local _ .vmem, ⟨22, _⟩ => ⟨S2048x8, .f32⟩
  | .local _ .vmem, ⟨23, _⟩ => ⟨S2048x8, .f32⟩
  | .local _ .vmem, ⟨24, _⟩ => ⟨S2048x1, .f32⟩
  | .local _ .vmem, ⟨25, _⟩ => ⟨S2048x1, .f32⟩
  | .local _ .vmem, ⟨26, _⟩ => ⟨S2048x3, .f32⟩
  | .local _ .vmem, ⟨27, _⟩ => ⟨S2048x3, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v12_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨2, ![2, 4], ![false, false]⟩

def k0_cond5 (i : grid0.Coords) : BitVec 1 :=
  let arg0 : BitVec 32 := BitVec.ofNat 32 (i 0).val
  let c1_i32_8 : BitVec 32 := 1#32
  let v16 : BitVec 1 := Scalar.cmpi .eq arg0 c1_i32_8
  let arg1 : BitVec 32 := BitVec.ofNat 32 (i 1).val
  let c3_i32 : BitVec 32 := 3#32
  let v17 : BitVec 1 := Scalar.cmpi .eq arg1 c3_i32
  let v18 : BitVec 1 := Scalar.andi v16 v17
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x12 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x12 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S96x128_S64x128_0_0 : S96x128.Slices ![0, 0] S64x128
  slices_S96x128_S32x128_64_0 : S96x128.Slices ![64, 0] S32x128
  shapeCasts_S128_S1x128 : S128.ShapeCasts S1x128
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  inb_S128x32_S128x32_0_0 : ∀ a, (![0, 0] : Fin 2 → Nat) a + S128x32.size a ≤ S128x32.size a
  h_S128x32 : 0 < S128x32.numel
  broadcasts_S1x32_S2048x32 : S1x32.Broadcasts S2048x32
  reduces_S2048x32_S2048 : S2048x32.Reduces [1] S2048
  shapeCasts_S2048_S2048x1 : S2048.ShapeCasts S2048x1
  broadcasts_S2048x1_S2048x32 : S2048x1.Broadcasts S2048x32
  reduces_S2048x32_S32 : S2048x32.Reduces [0] S32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  reduces_S2048x128_S128 : S2048x128.Reduces [0] S128
  concatenates_S128x8_S128x1_S128x3_S128x12_d1 : Shape.Concatenates [S128x8, S128x1, S128x3] S128x12 1
  shapeCasts_S8_S1x8 : S8.ShapeCasts S1x8
  shapeCasts_S1_S1x1 : S1.ShapeCasts S1x1
  shapeCasts_S3_S1x3 : S3.ShapeCasts S1x3
  concatenates_S1x8_S1x1_S1x3_S1x12_d1 : Shape.Concatenates [S1x8, S1x1, S1x3] S1x12 1
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  broadcasts_S2048x1_S2048x128 : S2048x1.Broadcasts S2048x128
  inb_S128x12_S128x12_0_0 : ∀ a, (![0, 0] : Fin 2 → Nat) a + S128x12.size a ≤ S128x12.size a
  h_S128x12 : 0 < S128x12.numel
  shapeCasts_S128x12_S128x12 : S128x12.ShapeCasts S128x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S2048x12 : S1x12.Broadcasts S2048x12
  slices_S2048x12_o0_0_S2048x8 : S2048x12.Slices ![0, 0] S2048x8
  slices_S2048x12_o0_8_S2048x1 : S2048x12.Slices ![0, 8] S2048x1
  slices_S2048x12_o0_9_S2048x3 : S2048x12.Slices ![0, 9] S2048x3
  inb_S2048x8_S2048x8_0_0 : ∀ a, (![0, 0] : Fin 2 → Nat) a + S2048x8.size a ≤ S2048x8.size a
  h_S2048x8 : 0 < S2048x8.numel
  inb_S2048x1_S2048x1_0_0 : ∀ a, (![0, 0] : Fin 2 → Nat) a + S2048x1.size a ≤ S2048x1.size a
  h_S2048x1 : 0 < S2048x1.numel
  reduces_S2048x3_S2048 : S2048x3.Reduces [1] S2048
  broadcasts_S2048x1_S2048x3 : S2048x1.Broadcasts S2048x3
  inb_S2048x3_S2048x3_0_0 : ∀ a, (![0, 0] : Fin 2 → Nat) a + S2048x3.size a ≤ S2048x3.size a
  h_S2048x3 : 0 < S2048x3.numel
  dot_S2048x64_S64x128_S2048x128_1_0_0_1_n_n_wf : DotDims.WF S2048x64 S64x128 S2048x128 [1] [0] [0] [1] [] []
  dot_S2048x128_S128x128_S2048x128_1_0_0_1_n_n_wf : DotDims.WF S2048x128 S128x128 S2048x128 [1] [0] [0] [1] [] []
  dot_S2048x128_S128x32_S2048x32_1_0_0_1_n_n_wf : DotDims.WF S2048x128 S128x32 S2048x32 [1] [0] [0] [1] [] []
  dot_S1x32_S32x128_S1x128_1_0_0_1_n_n_wf : DotDims.WF S1x32 S32x128 S1x128 [1] [0] [0] [1] [] []
  dot_S1x128_S128x128_S1x128_1_0_0_1_n_n_wf : DotDims.WF S1x128 S128x128 S1x128 [1] [0] [0] [1] [] []
  dot_S2048x128_S128x12_S2048x12_1_0_0_1_n_n_wf : DotDims.WF S2048x128 S128x12 S2048x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x32.size a ≤ S128x32.size a
  hwx0_6 : ∀ i : grid0.Coords, EltTy.bits .f32 = 32 ∨ (Rect.block (s := S128x32) S128x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x128.size a ≤ S1x128.size a
  hwx1_0 : ∀ i : grid1.Coords, EltTy.bits .f32 = 32 ∨ (Rect.block (s := S1x128) S1x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x12.size a ≤ S128x12.size a
  hwx1_2 : ∀ i : grid1.Coords, EltTy.bits .f32 = 32 ∨ (Rect.block (s := S128x12) S128x12.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x12.size a ≤ S1x12.size a
  hwx1_3 : ∀ i : grid1.Coords, EltTy.bits .f32 = 32 ∨ (Rect.block (s := S1x12) S1x12.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S8192x128.size a
  hwx1_4 : ∀ i : grid1.Coords, EltTy.bits .f32 = 32 ∨ (Rect.block (s := S8192x128) S2048x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x8.size a ≤ S8192x8.size a
  hwx1_5 : ∀ i : grid1.Coords, EltTy.bits .f32 = 32 ∨ (Rect.block (s := S8192x8) S2048x8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x1.size a ≤ S8192x1.size a
  hwx1_6 : ∀ i : grid1.Coords, EltTy.bits .f32 = 32 ∨ (Rect.block (s := S8192x1) S2048x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x3.size a ≤ S8192x3.size a
  hwx1_7 : ∀ i : grid1.Coords, EltTy.bits .f32 = 32 ∨ (Rect.block (s := S8192x3) S2048x3.size (cc1_transform_7 i) (hinb1_7 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S1x32_S32x128_S1x128_1_0_0_1_n_n : DotDims S1x32 S32x128 S1x128 where
  lhsContracting := [1]
  rhsContracting := [0]
  lhsNonContracting := [0]
  rhsNonContracting := [1]
  lhsBatch := []
  rhsBatch := []
  wf := dot_S1x32_S32x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S2048x128_S128x12_S2048x12_1_0_0_1_n_n : DotDims S2048x128 S128x12 S2048x12 where
  lhsContracting := [1]
  rhsContracting := [0]
  lhsNonContracting := [0]
  rhsNonContracting := [1]
  lhsBatch := []
  rhsBatch := []
  wf := dot_S2048x128_S128x12_S2048x12_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond5 i == 1#1) | ⟨_ + 11, h⟩ => absurd h (Nat.not_lt.2 (Nat.le_add_left _ _))

abbrev win1_0 : Pipeline.Window sig grid1 :=
  Pipeline.Window.ofSpec (Memref.whole main_v6) S1x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x12.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x12.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12_0) S2048x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12_1) S2048x8.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v12_2) S2048x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v12_3) S2048x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x64 : Shape := ⟨2, ![8192, 64]⟩
abbrev S8192x128 : Shape := ⟨2, ![8192, 128]⟩
abbrev S96x128 : Shape := ⟨2, ![96, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S128x8 : Shape := ⟨2, ![128, 8]⟩
abbrev S8 : Shape := ⟨1, ![8]⟩
abbrev S128x1 : Shape := ⟨2, ![128, 1]⟩
abbrev S1 : Shape := ⟨1, ![1]⟩
abbrev S128x3 : Shape := ⟨2, ![128, 3]⟩
abbrev S3 : Shape := ⟨1, ![3]⟩
abbrev S_ : Shape := ⟨0, ![]⟩
abbrev S8192x32 : Shape := ⟨2, ![8192, 32]⟩
abbrev S8192x96 : Shape := ⟨2, ![8192, 96]⟩
abbrev S1x128 : Shape := ⟨2, ![1, 128]⟩
abbrev S1x32 : Shape := ⟨2, ![1, 32]⟩
abbrev S8192 : Shape := ⟨1, ![8192]⟩
abbrev S8192x1 : Shape := ⟨2, ![8192, 1]⟩
abbrev S8192x8192 : Shape := ⟨2, ![8192, 8192]⟩
abbrev S8192x8 : Shape := ⟨2, ![8192, 8]⟩
abbrev S1x8 : Shape := ⟨2, ![1, 8]⟩
abbrev S1x1 : Shape := ⟨2, ![1, 1]⟩
abbrev S8192x3 : Shape := ⟨2, ![8192, 3]⟩
abbrev S1x3 : Shape := ⟨2, ![1, 3]⟩

abbrev nBuf : Space → Nat
  | .hbm => 117
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x128, .f32⟩
  | .hbm, ⟨2, _⟩ => ⟨S96x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S128x128, .f32⟩
  | .hbm, ⟨9, _⟩ => ⟨S128, .f32⟩
  | .hbm, ⟨10, _⟩ => ⟨S128x8, .f32⟩
  | .hbm, ⟨11, _⟩ => ⟨S8, .f32⟩
  | .hbm, ⟨12, _⟩ => ⟨S128x1, .f32⟩
  | .hbm, ⟨13, _⟩ => ⟨S1, .f32⟩
  | .hbm, ⟨14, _⟩ => ⟨S128x3, .f32⟩
  | .hbm, ⟨15, _⟩ => ⟨S3, .f32⟩
  | .hbm, ⟨16, _⟩ => ⟨S_, .f32⟩
  | .hbm, ⟨17, _⟩ => ⟨S8192x32, .f32⟩
  | .hbm, ⟨18, _⟩ => ⟨S8192x96, .f32⟩
  | .hbm, ⟨19, _⟩ => ⟨S8192x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S1x128, .f32⟩
  | .hbm, ⟨28, _⟩ => ⟨S8192x128, .f32⟩
  | .hbm, ⟨29, _⟩ => ⟨S8192x128, .f32⟩
  | .hbm, ⟨30, _⟩ => ⟨S8192x32, .f32⟩
  | .hbm, ⟨31, _⟩ => ⟨S1x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x32, .f32⟩
  | .hbm, ⟨43, _⟩ => ⟨S8192x32, .f32⟩
  | .hbm, ⟨44, _⟩ => ⟨S_, .f32⟩
  | .hbm, ⟨45, _⟩ => ⟨S32, .f32⟩
  | .hbm, ⟨46, _⟩ => ⟨S1x32, .f32⟩
  | .hbm, ⟨47, _⟩ => ⟨S_, .f32⟩
  | .hbm, ⟨48, _⟩ => ⟨S1x32, .f32⟩
  | .hbm, ⟨49, _⟩ => ⟨S1x32, .f32⟩
  | .hbm, ⟨50, _⟩ => ⟨S8192x32, .f32⟩
  | .hbm, ⟨51, _⟩ => ⟨S8192x96, .f32⟩
  | .hbm, ⟨52, _⟩ => ⟨S8192x128, .f32⟩
  | .hbm, ⟨53, _⟩ => ⟨S1x128, .f32⟩
  | .hbm, ⟨54, _⟩ => ⟨S8192x128, .f32⟩
  | .hbm, ⟨55, _⟩ => ⟨S8192x128, .f32⟩
  | .hbm, ⟨56, _⟩ => ⟨S_, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S1x128, .f32⟩
  | .hbm, ⟨61, _⟩ => ⟨S8192x128, .f32⟩
  | .hbm, ⟨62, _⟩ => ⟨S8192x128, .f32⟩
  | .hbm, ⟨63, _⟩ => ⟨S_, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S8192x128, .f32⟩
  | .hbm, ⟨69, _⟩ => ⟨S8192x128, .f32⟩
  | .hbm, ⟨70, _⟩ => ⟨S1x128, .f32⟩
  | .hbm, ⟨71, _⟩ => ⟨S8192x128, .f32⟩
  | .hbm, ⟨72, _⟩ => ⟨S8192x128, .f32⟩
  | .hbm, ⟨73, _⟩ => ⟨S_, .f32⟩
  | .hbm, ⟨74, _⟩ => ⟨S8192x128, .f32⟩
  | .hbm, ⟨75, _⟩ => ⟨S8192x128, .f32⟩
  | .hbm, ⟨76, _⟩ => ⟨S_, .f32⟩
  | .hbm, ⟨77, _⟩ => ⟨S8192x128, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S8192x128, .f32⟩
  | .hbm, ⟨89, _⟩ => ⟨S8192x128, .f32⟩
  | .hbm, ⟨90, _⟩ => ⟨S8192x8, .f32⟩
  | .hbm, ⟨91, _⟩ => ⟨S1x8, .f32⟩
  | .hbm, ⟨92, _⟩ => ⟨S8192x8, .f32⟩
  | .hbm, ⟨93, _⟩ => ⟨S8192x8, .f32⟩
  | .hbm, ⟨94, _⟩ => ⟨S8192x8, .f32⟩
  | .hbm, ⟨95, _⟩ => ⟨S8192x1, .f32⟩
  | .hbm, ⟨96, _⟩ => ⟨S1x1, .f32⟩
  | .hbm, ⟨97, _⟩ => ⟨S8192x1, .f32⟩
  | .hbm, ⟨98, _⟩ => ⟨S8192x1, .f32⟩
  | .hbm, ⟨99, _⟩ => ⟨S8192x3, .f32⟩
  | .hbm, ⟨100, _⟩ => ⟨S1x3, .f32⟩
  | .hbm, ⟨101, _⟩ => ⟨S8192x3, .f32⟩
  | .hbm, ⟨102, _⟩ => ⟨S8192x3, .f32⟩
  | .hbm, ⟨103, _⟩ => ⟨S_, .f32⟩
  | .hbm, ⟨104, _⟩ => ⟨S8192, .f32⟩
  | .hbm, ⟨105, _⟩ => ⟨S_, .f32⟩
  | .hbm, ⟨106, _⟩ => ⟨S8192, .f32⟩
  | .hbm, ⟨107, _⟩ => ⟨S8192, .f32⟩
  | .hbm, ⟨108, _⟩ => ⟨S8192x1, .f32⟩
  | .hbm, ⟨109, _⟩ => ⟨S8192x3, .f32⟩
  | .hbm, ⟨110, _⟩ => ⟨S8192x3, .f32⟩
  | .hbm, ⟨111, _⟩ => ⟨S8192x3, .f32⟩
  | .hbm, ⟨112, _⟩ => ⟨S_, .f32⟩
  | .hbm, ⟨113, _⟩ => ⟨S8192, .f32⟩
  | .hbm, ⟨114, _⟩ => ⟨S8192x1, .f32⟩
  | .hbm, ⟨115, _⟩ => ⟨S8192x3, .f32⟩
  | .hbm, ⟨116, _⟩ => ⟨S8192x3, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_cst : Ref sig .tc := ⟨.hbm, 23, rfl⟩
abbrev main_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call1_v0 : Ref sig .tc := ⟨.hbm, 34, rfl⟩
abbrev main_call1_cst : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_cst_0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_1 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call2_cst : Ref sig .tc := ⟨.hbm, 56, rfl⟩
abbrev main_call2_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_cst_4 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_call3_cst : Ref sig .tc := ⟨.hbm, 73, rfl⟩
abbrev main_call3_v0 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call4_v0 : Ref sig .tc := ⟨.hbm, 80, rfl⟩
abbrev main_call4_cst : Ref sig .tc := ⟨.hbm, 81, rfl⟩
abbrev main_call4_v1 : Ref sig .tc := ⟨.hbm, 82, rfl⟩
abbrev main_call4_v2 : Ref sig .tc := ⟨.hbm, 83, rfl⟩
abbrev main_v47 : Ref sig .tc := ⟨.hbm, 84, rfl⟩
abbrev main_cst_6 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_7 : Ref sig .tc := ⟨.hbm, 103, rfl⟩
abbrev main_v65 : Ref sig .tc := ⟨.hbm, 104, rfl⟩
abbrev main_cst_8 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_9 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩

abbrev nD : Nat := 1
abbrev τ : Topo := Topo.v7x

variable {F : FTy → Type} [FloatOps F]

class Facts₀ : Prop where
  bcast_S_S8192x32 : S_.BroadcastsInDim S8192x32 (![] : Fin 0 → Fin S8192x32.rank)
  concatenates_S8192x64_S8192x32_S8192x96_d1 : Shape.Concatenates [S8192x64, S8192x32] S8192x96 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  reducesTo_S8192x32_S32_d0 : S8192x32.ReducesTo [0] S32
  bcast_S_S1x32 : S_.BroadcastsInDim S1x32 (![] : Fin 0 → Fin S1x32.rank)
  bcast_S_S8192x8192 : S_.BroadcastsInDim S8192x8192 (![] : Fin 0 → Fin S8192x8192.rank)
  reducesTo_S8192x128_S8192_d1 : S8192x128.ReducesTo [1] S8192
  bcast_S8192x1_S8192x128_0_1 : S8192x1.BroadcastsInDim S8192x128 (![0, 1] : Fin 2 → Fin S8192x128.rank)
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  reducesTo_S8192x3_S8192_d1 : S8192x3.ReducesTo [1] S8192
  bcast_S_S8192 : S_.BroadcastsInDim S8192 (![] : Fin 0 → Fin S8192.rank)
  bcast_S8192x1_S8192x3_0_1 : S8192x1.BroadcastsInDim S8192x3 (![0, 1] : Fin 2 → Fin S8192x3.rank)
  dot_S8192x96_S96x128_S8192x128_1_0_0_1_n_n_wf : DotDims.WF S8192x96 S96x128 S8192x128 [1] [0] [0] [1] [] []
  dot_S8192x128_S128x128_S8192x128_1_0_0_1_n_n_wf : DotDims.WF S8192x128 S128x128 S8192x128 [1] [0] [0] [1] [] []
  dot_S8192x128_S128x32_S8192x32_1_0_0_1_n_n_wf : DotDims.WF S8192x128 S128x32 S8192x32 [1] [0] [0] [1] [] []
  dot_S8192x8192_S8192x128_S8192x128_1_0_0_1_n_n_wf : DotDims.WF S8192x8192 S8192x128 S8192x128 [1] [0] [0] [1] [] []
  dot_S8192x128_S128x8_S8192x8_1_0_0_1_n_n_wf : DotDims.WF S8192x128 S128x8 S8192x8 [1] [0] [0] [1] [] []
  dot_S8192x128_S128x1_S8192x1_1_0_0_1_n_n_wf : DotDims.WF S8192x128 S128x1 S8192x1 [1] [0] [0] [1] [] []
  dot_S8192x128_S128x3_S8192x3_1_0_0_1_n_n_wf : DotDims.WF S8192x128 S128x3 S8192x3 [1] [0] [0] [1] [] []

variable [Facts₀]

def dot_S8192x96_S96x128_S8192x128_1_0_0_1_n_n : DotDims S8192x96 S96x128 S8192x128 where
  lhsContracting := [1]
  rhsContracting := [0]
  lhsNonContracting := [0]
  rhsNonContracting := [1]
  lhsBatch := []
  rhsBatch := []
  wf := dot_S8192x96_S96x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x128_S128x3_S8192x3_1_0_0_1_n_n : DotDims S8192x128 S128x3 S8192x3 where
  lhsContracting := [1]
  rhsContracting := [0]
  lhsNonContracting := [0]
  rhsNonContracting := [1]
  lhsBatch := []
  rhsBatch := []
  wf := dot_S8192x128_S128x3_S8192x3_1_0_0_1_n_n_wf

class Facts : Prop extends Facts₀ where

variable [Facts]
-- ==== Proof.BitsRegion0Conds.lean ====
import proofs.«104509_j22625887715845_2_alg».proof.Proof.Gen.Kernel.Launch
import proofs.«104509_j22625887715845_2_alg».proof.Proof.Gen.Kernel.Skeleton
import proofs.«104509_j22625887715845_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The fused reduction pass (first pallas_call) -/

/-- The five guards of the body, as the scalar chains the program computes from the grid point. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev condB (i : grid0.Coords) : Prop := (Scalar.cmpi .ne (Scalar.extui (Scalar.cmpi .eq (BitVec.ofNat 32 (i 0).val) 0#32)) 0#32) = 1#1
abbrev condC (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
abbrev condD (i : grid0.Coords) : Prop := (Scalar.cmpi .ne (Scalar.extui (Scalar.cmpi .eq (BitVec.ofNat 32 (i 0).val) 1#32)) 0#32) = 1#1
abbrev condE (i : grid0.Coords) : Prop := k0_cond5 i = 1#1

theorem hcondA : ∀ t : Fin cfg0.N, condA (grid0.coords t) ↔ t.val = 0 :=
  (by decide +kernel : ∀ t : Fin grid0.N, condA (grid0.coords t) ↔ t.val = 0)
theorem hcondB : ∀ t : Fin cfg0.N, condB (grid0.coords t) ↔ t.val < 4 :=
  (by decide +kernel : ∀ t : Fin grid0.N, condB (grid0.coords t) ↔ t.val < 4)
theorem hcondC : ∀ t : Fin cfg0.N, condC (grid0.coords t) ↔ t.val = 4 :=
  (by decide +kernel : ∀ t : Fin grid0.N, condC (grid0.coords t) ↔ t.val = 4)
theorem hcondD : ∀ t : Fin cfg0.N, condD (grid0.coords t) ↔ 4 ≤ t.val :=
  (by decide +kernel : ∀ t : Fin grid0.N, condD (grid0.coords t) ↔ 4 ≤ t.val)
theorem hcondE : ∀ t : Fin cfg0.N, condE (grid0.coords t) ↔ t.val = 7 :=
  (by decide +kernel : ∀ t : Fin grid0.N, condE (grid0.coords t) ↔ t.val = 7)

abbrev qS : Rect S2048x64 := Rect.unit (s := S2048x64) ![0, 0] S2048x64.size inb_S2048x64_S2048x64_0_0
abbrev qW1a : Rect S64x128 := Rect.unit (s := S64x128) ![0, 0] S64x128.size inb_S64x128_S64x128_0_0
abbrev qW1b : Rect S32x128 := Rect.unit (s := S32x128) ![0, 0] S32x128.size inb_S32x128_S32x128_0_0
abbrev qH : Rect S1x128 := Rect.unit (s := S1x128) ![0, 0] S1x128.size inb_S1x128_S1x128_0_0
abbrev qW : Rect S128x128 := Rect.unit (s := S128x128) ![0, 0] S128x128.size inb_S128x128_S128x128_0_0
abbrev qWc : Rect S128x32 := Rect.unit (s := S128x32) ![0, 0] S128x32.size inb_S128x32_S128x32_0_0
abbrev qC : Rect S1x32 := Rect.unit (s := S1x32) ![0, 0] S1x32.size inb_S1x32_S1x32_0_0

theorem hz2 : (![0, 0] : Fin 2 → Nat) = fun _ => 0 := by funext a; fin_cases a <;> rfl

theorem readCovC {κ : Kind} {sp : Space} (v : View sig κ sp S1x32 .f32) (w : S1x32.Idx → Elt F .f32) :
    v.readCov [(⟨Rect.unit ![0, 0] S1x32.size inb_S1x32_S1x32_0_0, w⟩ : View.Piece (Elt F) S1x32 .f32)] (Rect.unit ![0, 0] S1x32.size inb_S1x32_S1x32_0_0).toLoadRect = w :=
  View.readCov_unit_zero v hz2 _ w
theorem readCovH {κ : Kind} {sp : Space} (v : View sig κ sp S1x128 .f32) (w : S1x128.Idx → Elt F .f32) :
    v.readCov [(⟨Rect.unit ![0, 0] S1x128.size inb_S1x128_S1x128_0_0, w⟩ : View.Piece (Elt F) S1x128 .f32)] (Rect.unit ![0, 0] S1x128.size inb_S1x128_S1x128_0_0).toLoadRect = w :=
  View.readCov_unit_zero v hz2 _ w

theorem coverC (w : S1x32.Idx → Elt F .f32) (L : List (View.Piece (Elt F) S1x32 .f32)) (y : S1x32.Idx) :
    ∃ p ∈ ((⟨qC, w⟩ : View.Piece (Elt F) S1x32 .f32) :: L), y ∈ p.1.set :=
  ⟨_, List.mem_cons_self, View.mem_set_unit_zero hz2 inb_S1x32_S1x32_0_0 y⟩
theorem coverH (w : S1x128.Idx → Elt F .f32) (L : List (View.Piece (Elt F) S1x128 .f32)) (y : S1x128.Idx) :
    ∃ p ∈ ((⟨qH, w⟩ : View.Piece (Elt F) S1x128 .f32) :: L), y ∈ p.1.set :=
  ⟨_, List.mem_cons_self, View.mem_set_unit_zero hz2 inb_S1x128_S1x128_0_0 y⟩

end Cert.Kernel.Hand

end
-- ==== Proof.BitsRegion0Data.lean ====
import proofs.«104509_j22625887715845_2_alg».proof.Proof.Gen.Kernel.Launch
import proofs.«104509_j22625887715845_2_alg».proof.Proof.Gen.Kernel.Skeleton
import proofs.«104509_j22625887715845_2_alg».proof.Proof.Gen.Kernel.Points
import proofs.«104509_j22625887715845_2_alg».proof.Proof.BitsRegion0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The proof data of the reduction pass, at the buffer contents `V` the region is entered with -/

section Data0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ### What the three carried buffers hold from point to point

The first four points add each tile's normalised messages, summed over the tile's rows, to the message accumulator (zeroed
at the first).  The fifth turns the accumulated sum into the communication bias and zeroes the hidden accumulator; the last
four add each tile's hidden rows, summed over the tile, to it.  The last point turns that sum into the region's one output. -/

def msgAt (c : Dev nD) (t : Fin cfg0.N) : Vec F S2048x32 .f32 :=
  k0_pay7 (View.ld (iblk0 V c 0 t) qS) (View.ld (iblk0 V c 1 t) qW1a) (View.ld (iblk0 V c 3 t) qH) (View.ld (iblk0 V c 4 t) qW) (View.ld (iblk0 V c 5 t) qH) (View.ld (iblk0 V c 6 t) qWc) (View.ld (iblk0 V c 7 t) qC)
def accM1 (c : Dev nD) : Vec F S1x32 .f32 := k0_pay2 (msgAt V c t0_0) (k0_pay1 (F := F))
def accM2 (c : Dev nD) : Vec F S1x32 .f32 := k0_pay2 (msgAt V c t0_1) (View.ld (accM1 V c) qC)
def accM3 (c : Dev nD) : Vec F S1x32 .f32 := k0_pay2 (msgAt V c t0_2) (View.ld (accM2 V c) qC)
def accM4 (c : Dev nD) : Vec F S1x32 .f32 := k0_pay2 (msgAt V c t0_3) (View.ld (accM3 V c) qC)
def commB (c : Dev nD) : Vec F S1x128 .f32 := k0_pay3 (View.ld (accM4 V c) qC) (View.ld (iblk0 V c 2 t0_4) qW1b)
def hAt (c : Dev nD) (t : Fin cfg0.N) (cb acc : Vec F S1x128 .f32) : Vec F S1x128 .f32 :=
  k0_pay5 (View.ld (iblk0 V c 0 t) qS) (View.ld (iblk0 V c 1 t) qW1a) (View.ld (iblk0 V c 3 t) qH) cb (View.ld (iblk0 V c 4 t) qW) (View.ld (iblk0 V c 5 t) qH) acc
def accH1 (c : Dev nD) : Vec F S1x128 .f32 := hAt V c t0_4 (commB V c) (k0_pay4 (F := F))
def accH2 (c : Dev nD) : Vec F S1x128 .f32 := hAt V c t0_5 (View.ld (commB V c) qH) (View.ld (accH1 V c) qH)
def accH3 (c : Dev nD) : Vec F S1x128 .f32 := hAt V c t0_6 (View.ld (commB V c) qH) (View.ld (accH2 V c) qH)
def accH4 (c : Dev nD) : Vec F S1x128 .f32 := hAt V c t0_7 (View.ld (commB V c) qH) (View.ld (accH3 V c) qH)
/-- The region's output: the graph layer applied to the mean hidden row. -/
def gnnOut (c : Dev nD) : Vec F S1x128 .f32 := k0_pay6 (accH4 V c) (View.ld (iblk0 V c 8 t0_7) qW) (View.ld (iblk0 V c 9 t0_7) qH)

/-- What is known of the three carried buffers before point `n`. -/
def Inv (c : Dev nD) : ℕ → Vec F S1x32 .f32 → Vec F S1x128 .f32 → Vec F S1x128 .f32 → Prop
  | 1, a0, _, _ => a0 = accM1 V c
  | 2, a0, _, _ => a0 = accM2 V c
  | 3, a0, _, _ => a0 = accM3 V c
  | 4, a0, _, _ => a0 = accM4 V c
  | 5, _, a1, a2 => a1 = accH1 V c ∧ a2 = commB V c
  | 6, _, a1, a2 => a1 = accH2 V c ∧ a2 = commB V c
  | 7, _, a1, a2 => a1 = accH3 V c ∧ a2 = commB V c
  | 8, _, a1, a2 => a1 = accH4 V c ∧ a2 = commB V c
  | _, _, _, _ => True

abbrev scM0 : Memref sig .tc .vmem S1x32 .f32 := Memref.whole cc0_scratch0
abbrev scM1 : Memref sig .tc .vmem S1x128 .f32 := Memref.whole cc0_scratch1
abbrev scM2 : Memref sig .tc .vmem S1x128 .f32 := Memref.whole cc0_scratch2

/-- The other region's staging buffers, each whole at some contents: scoped buffers this region never touches. -/
def others0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region's invariant before point `n`: the carried buffers at contents of which `Inv` holds, the untouched scoped
    buffers, the generator register. -/
def Φ0 (c : Dev nD) (n : Fin (cfg0.N + 1)) : sProp 𝕄 :=
  iprop((∃ a0 a1 a2, ⌜Inv V c n.val a0 a1 a2⌝ ∗ owns (c : Thread nD τ) scM0 fullShare a0 ∗ owns (c : Thread nD τ) scM1 fullShare a1 ∗ owns (c : Thread nD τ) scM2 fullShare a2)
    ∗ others0 (F := F) c ∗ ∃ r, prngReg c r)

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => gnnOut V c
  Φ n := Φ0 V c n
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = gnnOut V c := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

end Data0

end Cert.Kernel.Hand

end
-- ==== Proof.BitsRegion0RunA.lean ====
import proofs.«104509_j22625887715845_2_alg».proof.Proof.Gen.Kernel.Launch
import proofs.«104509_j22625887715845_2_alg».proof.Proof.Gen.Kernel.Skeleton
import proofs.«104509_j22625887715845_2_alg».proof.Proof.Gen.Kernel.Points
import proofs.«104509_j22625887715845_2_alg».proof.Proof.BitsRegion0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem sound_kernel0_A (c : Dev nD) (E : Set ℕ) (i : grid0.Coords) (arg2 : Memref sig .tc .vmem S2048x64 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32 .f32) (harg13 : arg13.IsWhole) (arg14 : Memref sig .tc .vmem S1x128 .f32) (harg14 : arg14.IsWhole) (arg15 : Memref sig .tc .vmem S1x128 .f32) (harg15 : arg15.IsWhole)
    (hA : condA i) (hB : condB i) (hC : ¬ condC i) (hD : ¬ condD i) (hE : ¬ condE i)
    (x0 : Vec F S2048x64 .f32) (x1 : Vec F S64x128 .f32) (x2 : Vec F S32x128 .f32) (x3 : Vec F S1x128 .f32) (x4 : Vec F S128x128 .f32) (x5 : Vec F S1x128 .f32) (x6 : Vec F S128x32 .f32) (x7 : Vec F S1x32 .f32) (x8 : Vec F S128x128 .f32) (x9 : Vec F S1x128 .f32) (xo : Vec F S1x128 .f32) (a0 : Vec F S1x32 .f32) (a1 : Vec F S1x128 .f32) (a2 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare a0 ∗ owns (c : Thread nD τ) arg14 fullShare a1 ∗ owns (c : Thread nD τ) arg15 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xo ∗ owns (c : Thread nD τ) arg13 fullShare (k0_pay2 (k0_pay7 (View.ld x0 qS) (View.ld x1 qW1a) (View.ld x3 qH) (View.ld x4 qW) (View.ld x5 qH) (View.ld x6 qWc) (View.ld x7 qC)) (k0_pay1 (F := F))) ∗ owns (c : Thread nD τ) arg14 fullShare a1 ∗ owns (c : Thread nD τ) arg15 fullShare a2) -∗ K ⟨⟩))
      ⊢ wp frame (wpE (defs₀ (F := F)) Variants.none c none) E (cc0__pass12_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__pass12_kernel_eq_skeleton]; unfold cc0__pass12_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%g0, %hg0, G0⟩, ⟨%g1, %hg1, G1⟩, ⟨%g2, %hg2, G2⟩, Hk⟩
  subst hf0 hf1 hf2 hf3 hf4 hf5 hf6 hf7 hf8 hf9 hfo hg0 hg1 hg2
  sl_exec (disch := first | exact hA | exact hB | exact hC | exact hD | exact hE)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro; rfl
  isplitl [G0]
  · iexists _; isplitr
    swap; · iexact G0
    ipureintro; (sl_unfold_words; dsimp only; rw [View.read_writes_eq_canon _ _ _ (coverC _ _)]; rw [View.canon_cons_unit_zero hz2]; exact congrArg (k0_pay2 _) (readCovC _ _))
  isplitl [G1]
  · iexists _; isplitr
    swap; · iexact G1
    ipureintro; rfl
  iexists _; isplitr
  swap; · iexact G2
  ipureintro; rfl

end Cert.Kernel.Hand

end
-- ==== Proof.BitsRegion0RunB.lean ====
import proofs.«104509_j22625887715845_2_alg».proof.Proof.Gen.Kernel.Launch
import proofs.«104509_j22625887715845_2_alg».proof.Proof.Gen.Kernel.Skeleton
import proofs.«104509_j22625887715845_2_alg».proof.Proof.Gen.Kernel.Points
import proofs.«104509_j22625887715845_2_alg».proof.Proof.BitsRegion0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem sound_kernel0_B (c : Dev nD) (E : Set ℕ) (i : grid0.Coords) (arg2 : Memref sig .tc .vmem S2048x64 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32 .f32) (harg13 : arg13.IsWhole) (arg14 : Memref sig .tc .vmem S1x128 .f32) (harg14 : arg14.IsWhole) (arg15 : Memref sig .tc .vmem S1x128 .f32) (harg15 : arg15.IsWhole)
    (hA : ¬ condA i) (hB : condB i) (hC : ¬ condC i) (hD : ¬ condD i) (hE : ¬ condE i)
    (x0 : Vec F S2048x64 .f32) (x1 : Vec F S64x128 .f32) (x2 : Vec F S32x128 .f32) (x3 : Vec F S1x128 .f32) (x4 : Vec F S128x128 .f32) (x5 : Vec F S1x128 .f32) (x6 : Vec F S128x32 .f32) (x7 : Vec F S1x32 .f32) (x8 : Vec F S128x128 .f32) (x9 : Vec F S1x128 .f32) (xo : Vec F S1x128 .f32) (a0 : Vec F S1x32 .f32) (a1 : Vec F S1x128 .f32) (a2 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare a0 ∗ owns (c : Thread nD τ) arg14 fullShare a1 ∗ owns (c : Thread nD τ) arg15 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xo ∗ owns (c : Thread nD τ) arg13 fullShare (k0_pay2 (k0_pay7 (View.ld x0 qS) (View.ld x1 qW1a) (View.ld x3 qH) (View.ld x4 qW) (View.ld x5 qH) (View.ld x6 qWc) (View.ld x7 qC)) (View.ld a0 qC)) ∗ owns (c : Thread nD τ) arg14 fullShare a1 ∗ owns (c : Thread nD τ) arg15 fullShare a2) -∗ K ⟨⟩))
      ⊢ wp frame (wpE (defs₀ (F := F)) Variants.none c none) E (cc0__pass12_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__pass12_kernel_eq_skeleton]; unfold cc0__pass12_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%g0, %hg0, G0⟩, ⟨%g1, %hg1, G1⟩, ⟨%g2, %hg2, G2⟩, Hk⟩
  subst hf0 hf1 hf2 hf3 hf4 hf5 hf6 hf7 hf8 hf9 hfo hg0 hg1 hg2
  sl_exec (disch := first | exact hA | exact hB | exact hC | exact hD | exact hE)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro; rfl
  isplitl [G0]
  · iexists _; isplitr
    swap; · iexact G0
    ipureintro; (sl_unfold_words; dsimp only; rw [View.read_writes_eq_canon _ _ _ (coverC _ _)]; rw [View.canon_cons_unit_zero hz2]; rfl)
  isplitl [G1]
  · iexists _; isplitr
    swap; · iexact G1
    ipureintro; rfl
  iexists _; isplitr
  swap; · iexact G2
  ipureintro; rfl

end Cert.Kernel.Hand

end
-- ==== Proof.BitsRegion0RunC.lean ====
import proofs.«104509_j22625887715845_2_alg».proof.Proof.Gen.Kernel.Launch
import proofs.«104509_j22625887715845_2_alg».proof.Proof.Gen.Kernel.Skeleton
import proofs.«104509_j22625887715845_2_alg».proof.Proof.Gen.Kernel.Points
import proofs.«104509_j22625887715845_2_alg».proof.Proof.BitsRegion0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem sound_kernel0_C (c : Dev nD) (E : Set ℕ) (i : grid0.Coords) (arg2 : Memref sig .tc .vmem S2048x64 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32 .f32) (harg13 : arg13.IsWhole) (arg14 : Memref sig .tc .vmem S1x128 .f32) (harg14 : arg14.IsWhole) (arg15 : Memref sig .tc .vmem S1x128 .f32) (harg15 : arg15.IsWhole)
    (hA : ¬ condA i) (hB : ¬ condB i) (hC : condC i) (hD : condD i) (hE : ¬ condE i)
    (x0 : Vec F S2048x64 .f32) (x1 : Vec F S64x128 .f32) (x2 : Vec F S32x128 .f32) (x3 : Vec F S1x128 .f32) (x4 : Vec F S128x128 .f32) (x5 : Vec F S1x128 .f32) (x6 : Vec F S128x32 .f32) (x7 : Vec F S1x32 .f32) (x8 : Vec F S128x128 .f32) (x9 : Vec F S1x128 .f32) (xo : Vec F S1x128 .f32) (a0 : Vec F S1x32 .f32) (a1 : Vec F S1x128 .f32) (a2 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare a0 ∗ owns (c : Thread nD τ) arg14 fullShare a1 ∗ owns (c : Thread nD τ) arg15 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xo ∗ owns (c : Thread nD τ) arg13 fullShare a0 ∗ owns (c : Thread nD τ) arg14 fullShare (k0_pay5 (View.ld x0 qS) (View.ld x1 qW1a) (View.ld x3 qH) (k0_pay3 (View.ld a0 qC) (View.ld x2 qW1b)) (View.ld x4 qW) (View.ld x5 qH) (k0_pay4 (F := F))) ∗ owns (c : Thread nD τ) arg15 fullShare (k0_pay3 (View.ld a0 qC) (View.ld x2 qW1b))) -∗ K ⟨⟩))
      ⊢ wp frame (wpE (defs₀ (F := F)) Variants.none c none) E (cc0__pass12_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__pass12_kernel_eq_skeleton]; unfold cc0__pass12_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%g0, %hg0, G0⟩, ⟨%g1, %hg1, G1⟩, ⟨%g2, %hg2, G2⟩, Hk⟩
  subst hf0 hf1 hf2 hf3 hf4 hf5 hf6 hf7 hf8 hf9 hfo hg0 hg1 hg2
  sl_exec (disch := first | exact hA | exact hB | exact hC | exact hD | exact hE)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro; rfl
  isplitl [G0]
  · iexists _; isplitr
    swap; · iexact G0
    ipureintro; rfl
  isplitl [G1]
  · iexists _; isplitr
    swap; · iexact G1
    ipureintro; (sl_unfold_words; dsimp only; rw [View.read_writes_eq_canon _ _ _ (coverH _ _)]; rw [View.canon_cons_unit_zero hz2]; exact congrArg₂ (fun a b => k0_pay5 _ _ _ a _ _ b) (readCovH _ _) (readCovH _ _))
  iexists _; isplitr
  swap; · iexact G2
  ipureintro; (sl_unfold_words; dsimp only; rw [View.read_writes_eq_canon _ _ _ (coverH _ _)]; rw [View.canon_cons_unit_zero hz2]; rfl)

end Cert.Kernel.Hand

end
-- ==== Proof.BitsRegion0RunD.lean ====
import proofs.«104509_j22625887715845_2_alg».proof.Proof.Gen.Kernel.Launch
import proofs.«104509_j22625887715845_2_alg».proof.Proof.Gen.Kernel.Skeleton
import proofs.«104509_j22625887715845_2_alg».proof.Proof.Gen.Kernel.Points
import proofs.«104509_j22625887715845_2_alg».proof.Proof.BitsRegion0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem sound_kernel0_D (c : Dev nD) (E : Set ℕ) (i : grid0.Coords) (arg2 : Memref sig .tc .vmem S2048x64 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32 .f32) (harg13 : arg13.IsWhole) (arg14 : Memref sig .tc .vmem S1x128 .f32) (harg14 : arg14.IsWhole) (arg15 : Memref sig .tc .vmem S1x128 .f32) (harg15 : arg15.IsWhole)
    (hA : ¬ condA i) (hB : ¬ condB i) (hC : ¬ condC i) (hD : condD i) (hE : ¬ condE i)
    (x0 : Vec F S2048x64 .f32) (x1 : Vec F S64x128 .f32) (x2 : Vec F S32x128 .f32) (x3 : Vec F S1x128 .f32) (x4 : Vec F S128x128 .f32) (x5 : Vec F S1x128 .f32) (x6 : Vec F S128x32 .f32) (x7 : Vec F S1x32 .f32) (x8 : Vec F S128x128 .f32) (x9 : Vec F S1x128 .f32) (xo : Vec F S1x128 .f32) (a0 : Vec F S1x32 .f32) (a1 : Vec F S1x128 .f32) (a2 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare a0 ∗ owns (c : Thread nD τ) arg14 fullShare a1 ∗ owns (c : Thread nD τ) arg15 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xo ∗ owns (c : Thread nD τ) arg13 fullShare a0 ∗ owns (c : Thread nD τ) arg14 fullShare (k0_pay5 (View.ld x0 qS) (View.ld x1 qW1a) (View.ld x3 qH) (View.ld a2 qH) (View.ld x4 qW) (View.ld x5 qH) (View.ld a1 qH)) ∗ owns (c : Thread nD τ) arg15 fullShare a2) -∗ K ⟨⟩))
      ⊢ wp frame (wpE (defs₀ (F := F)) Variants.none c none) E (cc0__pass12_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__pass12_kernel_eq_skeleton]; unfold cc0__pass12_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%g0, %hg0, G0⟩, ⟨%g1, %hg1, G1⟩, ⟨%g2, %hg2, G2⟩, Hk⟩
  subst hf0 hf1 hf2 hf3 hf4 hf5 hf6 hf7 hf8 hf9 hfo hg0 hg1 hg2
  sl_exec (disch := first | exact hA | exact hB | exact hC | exact hD | exact hE)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro; rfl
  isplitl [G0]
  · iexists _; isplitr
    swap; · iexact G0
    ipureintro; rfl
  isplitl [G1]
  · iexists _; isplitr
    swap; · iexact G1
    ipureintro; (sl_unfold_words; dsimp only; rw [View.read_writes_eq_canon _ _ _ (coverH _ _)]; rw [View.canon_cons_unit_zero hz2]; rfl)
  iexists _; isplitr
  swap; · iexact G2
  ipureintro; rfl

end Cert.Kernel.Hand

end
-- ==== Proof.BitsRegion0RunE.lean ====
import proofs.«104509_j22625887715845_2_alg».proof.Proof.Gen.Kernel.Launch
import proofs.«104509_j22625887715845_2_alg».proof.Proof.Gen.Kernel.Skeleton
import proofs.«104509_j22625887715845_2_alg».proof.Proof.Gen.Kernel.Points
import proofs.«104509_j22625887715845_2_alg».proof.Proof.BitsRegion0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem sound_kernel0_E (c : Dev nD) (E : Set ℕ) (i : grid0.Coords) (arg2 : Memref sig .tc .vmem S2048x64 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32 .f32) (harg13 : arg13.IsWhole) (arg14 : Memref sig .tc .vmem S1x128 .f32) (harg14 : arg14.IsWhole) (arg15 : Memref sig .tc .vmem S1x128 .f32) (harg15 : arg15.IsWhole)
    (hA : ¬ condA i) (hB : ¬ condB i) (hC : ¬ condC i) (hD : condD i) (hE : condE i)
    (x0 : Vec F S2048x64 .f32) (x1 : Vec F S64x128 .f32) (x2 : Vec F S32x128 .f32) (x3 : Vec F S1x128 .f32) (x4 : Vec F S128x128 .f32) (x5 : Vec F S1x128 .f32) (x6 : Vec F S128x32 .f32) (x7 : Vec F S1x32 .f32) (x8 : Vec F S128x128 .f32) (x9 : Vec F S1x128 .f32) (xo : Vec F S1x128 .f32) (a0 : Vec F S1x32 .f32) (a1 : Vec F S1x128 .f32) (a2 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare a0 ∗ owns (c : Thread nD τ) arg14 fullShare a1 ∗ owns (c : Thread nD τ) arg15 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (k0_pay6 (k0_pay5 (View.ld x0 qS) (View.ld x1 qW1a) (View.ld x3 qH) (View.ld a2 qH) (View.ld x4 qW) (View.ld x5 qH) (View.ld a1 qH)) (View.ld x8 qW) (View.ld x9 qH)) ∗ owns (c : Thread nD τ) arg13 fullShare a0 ∗ owns (c : Thread nD τ) arg14 fullShare (k0_pay5 (View.ld x0 qS) (View.ld x1 qW1a) (View.ld x3 qH) (View.ld a2 qH) (View.ld x4 qW) (View.ld x5 qH) (View.ld a1 qH)) ∗ owns (c : Thread nD τ) arg15 fullShare a2) -∗ K ⟨⟩))
      ⊢ wp frame (wpE (defs₀ (F := F)) Variants.none c none) E (cc0__pass12_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__pass12_kernel_eq_skeleton]; unfold cc0__pass12_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%g0, %hg0, G0⟩, ⟨%g1, %hg1, G1⟩, ⟨%g2, %hg2, G2⟩, Hk⟩
  subst hf0 hf1 hf2 hf3 hf4 hf5 hf6 hf7 hf8 hf9 hfo hg0 hg1 hg2
  sl_exec (disch := first | exact hA | exact hB | exact hC | exact hD | exact hE)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro; (sl_unfold_words; dsimp only; rw [View.read_writes_eq_canon _ _ _ (coverH _ _)]; rw [View.canon_cons_unit_zero hz2]; exact congrArg (fun a => k0_pay6 a _ _) (readCovH _ _))
  isplitl [G0]
  · iexists _; isplitr
    swap; · iexact G0
    ipureintro; rfl
  isplitl [G1]
  · iexists _; isplitr
    swap; · iexact G1
    ipureintro; (sl_unfold_words; dsimp only; rw [View.read_writes_eq_canon _ _ _ (coverH _ _)]; rw [View.canon_cons_unit_zero hz2]; rfl)
  iexists _; isplitr
  swap; · iexact G2
  ipureintro; rfl

end Cert.Kernel.Hand

end
-- ==== Proof.BitsRegion0Body.lean ====
import proofs.«104509_j22625887715845_2_alg».proof.Proof.Gen.Kernel.Launch
import proofs.«104509_j22625887715845_2_alg».proof.Proof.Gen.Kernel.Skeleton
import proofs.«104509_j22625887715845_2_alg».proof.Proof.Gen.Kernel.Points
import proofs.«104509_j22625887715845_2_alg».proof.Proof.BitsRegion0Data
import proofs.«104509_j22625887715845_2_alg».proof.Proof.BitsRegion0RunA
import proofs.«104509_j22625887715845_2_alg».proof.Proof.BitsRegion0RunB
import proofs.«104509_j22625887715845_2_alg».proof.Proof.BitsRegion0RunC
import proofs.«104509_j22625887715845_2_alg».proof.Proof.BitsRegion0RunD
import proofs.«104509_j22625887715845_2_alg».proof.Proof.BitsRegion0RunE
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body0
variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns: the output's buffer is handed back as found wherever the point stores nothing into it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ (match cfg0.idle 10 (cfg0.grid.coords t) with
        | true =>
          match (cfg0.win 10).flush t with
          | false => iprop(∃ d, owns (c : Thread nD τ) (st0_10 t) fullShare ((dat0 V c).before 10 t d))
          | true => owns (c : Thread nD τ) (st0_10 t) fullShare ((dat0 V c).after 10 t)
        | false => owns (c : Thread nD τ) (st0_10 t) fullShare ((dat0 V c).after 10 t)))

set_option maxHeartbeats 4000000 in
/-- The body at each of the eight points: the guards select one of five paths; the carried buffers go in at what the points
    before left and come out at what this point leaves. -/
theorem sound_body0 (c : Dev nD) (t : Fin cfg0.N) :
    bodyPre0 V c t ⊢ wp frame (wpE (defs₀ (F := F)) Variants.none c none) Set.univ (bodyAt0 t) (fun _ => bodyPost0 V c t) := by
  rcases fin_N0 t with rfl | rfl | rfl | rfl | rfl | rfl | rfl | rfl
  · -- point 0
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_0).succ = (dat0 V c).owesAt () (t0_0).castSucc from rfl,
      show (dat0 V c).Φ (t0_0).castSucc = Φ0 V c (t0_0).castSucc from rfl, show (dat0 V c).Φ (t0_0).succ = Φ0 V c (t0_0).succ from rfl]
    unfold Φ0
    have hi : idle0 10 (grid0.coords t0_0) = true := by decide +kernel
    have hf : (cfg0.win 10).flush t0_0 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_A c Set.univ (grid0.coords t0_0) _ _ _ _ _ _ _ _ _ _ _ _ _ _ _ _ _ _ _ _ _ _ _ _ _ _ _ _ ((hcondA t0_0).mpr (by decide +kernel)) ((hcondB t0_0).mpr (by decide +kernel)) (fun h => absurd ((hcondC t0_0).mp h) (by decide +kernel)) (fun h => absurd ((hcondD t0_0).mp h) (by decide +kernel)) (fun h => absurd ((hcondE t0_0).mp h) (by decide +kernel)) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0) (iblk0 V c 9 t0_0) ((dat0 V c).before 10 t0_0 d10) a0 a1 a2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists (accM1 V c), a1, a2
        isplitr; · ipureintro; exact rfl
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 1
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_1).succ = (dat0 V c).owesAt () (t0_1).castSucc from rfl,
      show (dat0 V c).Φ (t0_1).castSucc = Φ0 V c (t0_1).castSucc from rfl, show (dat0 V c).Φ (t0_1).succ = Φ0 V c (t0_1).succ from rfl]
    unfold Φ0
    have hi : idle0 10 (grid0.coords t0_1) = true := by decide +kernel
    have hf : (cfg0.win 10).flush t0_1 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a0 = accM1 V c := hI
    subst hI'
    iapply (sound_kernel0_B c Set.univ (grid0.coords t0_1) _ _ _ _ _ _ _ _ _ _ _ _ _ _ _ _ _ _ _ _ _ _ _ _ _ _ _ _ (fun h => absurd ((hcondA t0_1).mp h) (by decide +kernel)) ((hcondB t0_1).mpr (by decide +kernel)) (fun h => absurd ((hcondC t0_1).mp h) (by decide +kernel)) (fun h => absurd ((hcondD t0_1).mp h) (by decide +kernel)) (fun h => absurd ((hcondE t0_1).mp h) (by decide +kernel)) (iblk0 V c 0 t0_1) (iblk0 V c 1 t0_1) (iblk0 V c 2 t0_1) (iblk0 V c 3 t0_1) (iblk0 V c 4 t0_1) (iblk0 V c 5 t0_1) (iblk0 V c 6 t0_1) (iblk0 V c 7 t0_1) (iblk0 V c 8 t0_1) (iblk0 V c 9 t0_1) ((dat0 V c).before 10 t0_1 d10) (accM1 V c) a1 a2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists (accM2 V c), a1, a2
        isplitr; · ipureintro; exact rfl
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 2
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_2).succ = (dat0 V c).owesAt () (t0_2).castSucc from rfl,
      show (dat0 V c).Φ (t0_2).castSucc = Φ0 V c (t0_2).castSucc from rfl, show (dat0 V c).Φ (t0_2).succ = Φ0 V c (t0_2).succ from rfl]
    unfold Φ0
    have hi : idle0 10 (grid0.coords t0_2) = true := by decide +kernel
    have hf : (cfg0.win 10).flush t0_2 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a0 = accM2 V c := hI
    subst hI'
    iapply (sound_kernel0_B c Set.univ (grid0.coords t0_2) _ _ _ _ _ _ _ _ _ _ _ _ _ _ _ _ _ _ _ _ _ _ _ _ _ _ _ _ (fun h => absurd ((hcondA t0_2).mp h) (by decide +kernel)) ((hcondB t0_2).mpr (by decide +kernel)) (fun h => absurd ((hcondC t0_2).mp h) (by decide +kernel)) (fun h => absurd ((hcondD t0_2).mp h) (by decide +kernel)) (fun h => absurd ((hcondE t0_2).mp h) (by decide +kernel)) (iblk0 V c 0 t0_2) (iblk0 V c 1 t0_2) (iblk0 V c 2 t0_2) (iblk0 V c 3 t0_2) (iblk0 V c 4 t0_2) (iblk0 V c 5 t0_2) (iblk0 V c 6 t0_2) (iblk0 V c 7 t0_2) (iblk0 V c 8 t0_2) (iblk0 V c 9 t0_2) ((dat0 V c).before 10 t0_2 d10) (accM2 V c) a1 a2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists (accM3 V c), a1, a2
        isplitr; · ipureintro; exact rfl
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 3
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_3).succ = (dat0 V c).owesAt () (t0_3).castSucc from rfl,
      show (dat0 V c).Φ (t0_3).castSucc = Φ0 V c (t0_3).castSucc from rfl, show (dat0 V c).Φ (t0_3).succ = Φ0 V c (t0_3).succ from rfl]
    unfold Φ0
    have hi : idle0 10 (grid0.coords t0_3) = true := by decide +kernel
    have hf : (cfg0.win 10).flush t0_3 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a0 = accM3 V c := hI
    subst hI'
    iapply (sound_kernel0_B c Set.univ (grid0.coords t0_3) _ _ _ _ _ _ _ _ _ _ _ _ _ _ _ _ _ _ _ _ _ _ _ _ _ _ _ _ (fun h => absurd ((hcondA t0_3).mp h) (by decide +kernel)) ((hcondB t0_3).mpr (by decide +kernel)) (fun h => absurd ((hcondC t0_3).mp h) (by decide +kernel)) (fun h => absurd ((hcondD t0_3).mp h) (by decide +kernel)) (fun h => absurd ((hcondE t0_3).mp h) (by decide +kernel)) (iblk0 V c 0 t0_3) (iblk0 V c 1 t0_3) (iblk0 V c 2 t0_3) (iblk0 V c 3 t0_3) (iblk0 V c 4 t0_3) (iblk0 V c 5 t0_3) (iblk0 V c 6 t0_3) (iblk0 V c 7 t0_3) (iblk0 V c 8 t0_3) (iblk0 V c 9 t0_3) ((dat0 V c).before 10 t0_3 d10) (accM3 V c) a1 a2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists (accM4 V c), a1, a2
        isplitr; · ipureintro; exact rfl
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 4
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_4).succ = (dat0 V c).owesAt () (t0_4).castSucc from rfl,
      show (dat0 V c).Φ (t0_4).castSucc = Φ0 V c (t0_4).castSucc from rfl, show (dat0 V c).Φ (t0_4).succ = Φ0 V c (t0_4).succ from rfl]
    unfold Φ0
    have hi : idle0 10 (grid0.coords t0_4) = true := by decide +kernel
    have hf : (cfg0.win 10).flush t0_4 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a0 = accM4 V c := hI
    subst hI'
    iapply (sound_kernel0_C c Set.univ (grid0.coords t0_4) _ _ _ _ _ _ _ _ _ _ _ _ _ _ _ _ _ _ _ _ _ _ _ _ _ _ _ _ (fun h => absurd ((hcondA t0_4).mp h) (by decide +kernel)) (fun h => absurd ((hcondB t0_4).mp h) (by decide +kernel)) ((hcondC t0_4).mpr (by decide +kernel)) ((hcondD t0_4).mpr (by decide +kernel)) (fun h => absurd ((hcondE t0_4).mp h) (by decide +kernel)) (iblk0 V c 0 t0_4) (iblk0 V c 1 t0_4) (iblk0 V c 2 t0_4) (iblk0 V c 3 t0_4) (iblk0 V c 4 t0_4) (iblk0 V c 5 t0_4) (iblk0 V c 6 t0_4) (iblk0 V c 7 t0_4) (iblk0 V c 8 t0_4) (iblk0 V c 9 t0_4) ((dat0 V c).before 10 t0_4 d10) (accM4 V c) a1 a2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists (accM4 V c), (accH1 V c), (commB V c)
        isplitr; · ipureintro; exact ⟨rfl, rfl⟩
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 5
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_5).succ = (dat0 V c).owesAt () (t0_5).castSucc from rfl,
      show (dat0 V c).Φ (t0_5).castSucc = Φ0 V c (t0_5).castSucc from rfl, show (dat0 V c).Φ (t0_5).succ = Φ0 V c (t0_5).succ from rfl]
    unfold Φ0
    have hi : idle0 10 (grid0.coords t0_5) = true := by decide +kernel
    have hf : (cfg0.win 10).flush t0_5 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a1 = accH1 V c ∧ a2 = commB V c := hI
    obtain ⟨rfl, rfl⟩ := hI'
    iapply (sound_kernel0_D c Set.univ (grid0.coords t0_5) _ _ _ _ _ _ _ _ _ _ _ _ _ _ _ _ _ _ _ _ _ _ _ _ _ _ _ _ (fun h => absurd ((hcondA t0_5).mp h) (by decide +kernel)) (fun h => absurd ((hcondB t0_5).mp h) (by decide +kernel)) (fun h => absurd ((hcondC t0_5).mp h) (by decide +kernel)) ((hcondD t0_5).mpr (by decide +kernel)) (fun h => absurd ((hcondE t0_5).mp h) (by decide +kernel)) (iblk0 V c 0 t0_5) (iblk0 V c 1 t0_5) (iblk0 V c 2 t0_5) (iblk0 V c 3 t0_5) (iblk0 V c 4 t0_5) (iblk0 V c 5 t0_5) (iblk0 V c 6 t0_5) (iblk0 V c 7 t0_5) (iblk0 V c 8 t0_5) (iblk0 V c 9 t0_5) ((dat0 V c).before 10 t0_5 d10) a0 (accH1 V c) (commB V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists a0, (accH2 V c), (commB V c)
        isplitr; · ipureintro; exact ⟨rfl, rfl⟩
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 6
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_6).succ = (dat0 V c).owesAt () (t0_6).castSucc from rfl,
      show (dat0 V c).Φ (t0_6).castSucc = Φ0 V c (t0_6).castSucc from rfl, show (dat0 V c).Φ (t0_6).succ = Φ0 V c (t0_6).succ from rfl]
    unfold Φ0
    have hi : idle0 10 (grid0.coords t0_6) = true := by decide +kernel
    have hf : (cfg0.win 10).flush t0_6 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a1 = accH2 V c ∧ a2 = commB V c := hI
    obtain ⟨rfl, rfl⟩ := hI'
    iapply (sound_kernel0_D c Set.univ (grid0.coords t0_6) _ _ _ _ _ _ _ _ _ _ _ _ _ _ _ _ _ _ _ _ _ _ _ _ _ _ _ _ (fun h => absurd ((hcondA t0_6).mp h) (by decide +kernel)) (fun h => absurd ((hcondB t0_6).mp h) (by decide +kernel)) (fun h => absurd ((hcondC t0_6).mp h) (by decide +kernel)) ((hcondD t0_6).mpr (by decide +kernel)) (fun h => absurd ((hcondE t0_6).mp h) (by decide +kernel)) (iblk0 V c 0 t0_6) (iblk0 V c 1 t0_6) (iblk0 V c 2 t0_6) (iblk0 V c 3 t0_6) (iblk0 V c 4 t0_6) (iblk0 V c 5 t0_6) (iblk0 V c 6 t0_6) (iblk0 V c 7 t0_6) (iblk0 V c 8 t0_6) (iblk0 V c 9 t0_6) ((dat0 V c).before 10 t0_6 d10) a0 (accH2 V c) (commB V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists a0, (accH3 V c), (commB V c)
        isplitr; · ipureintro; exact ⟨rfl, rfl⟩
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 7
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_7).succ = (dat0 V c).owesAt () (t0_7).castSucc from rfl,
      show (dat0 V c).Φ (t0_7).castSucc = Φ0 V c (t0_7).castSucc from rfl, show (dat0 V c).Φ (t0_7).succ = Φ0 V c (t0_7).succ from rfl]
    unfold Φ0
    have hi : idle0 10 (grid0.coords t0_7) = false := by decide +kernel
    rw [after0_10]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a1 = accH3 V c ∧ a2 = commB V c := hI
    obtain ⟨rfl, rfl⟩ := hI'
    iapply (sound_kernel0_E c Set.univ (grid0.coords t0_7) _ _ _ _ _ _ _ _ _ _ _ _ _ _ _ _ _ _ _ _ _ _ _ _ _ _ _ _ (fun h => absurd ((hcondA t0_7).mp h) (by decide +kernel)) (fun h => absurd ((hcondB t0_7).mp h) (by decide +kernel)) (fun h => absurd ((hcondC t0_7).mp h) (by decide +kernel)) ((hcondD t0_7).mpr (by decide +kernel)) ((hcondE t0_7).mpr (by decide +kernel)) (iblk0 V c 0 t0_7) (iblk0 V c 1 t0_7) (iblk0 V c 2 t0_7) (iblk0 V c 3 t0_7) (iblk0 V c 4 t0_7) (iblk0 V c 5 t0_7) (iblk0 V c 6 t0_7) (iblk0 V c 7 t0_7) (iblk0 V c 8 t0_7) (iblk0 V c 9 t0_7) ((dat0 V c).before 10 t0_7 d10) a0 (accH3 V c) (commB V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists a0, (accH4 V c), (commB V c)
        isplitr; · ipureintro; exact ⟨rfl, rfl⟩
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · rename_i h; exact absurd (h.symm.trans hi) (by decide)
    · iexact H10

theorem body_obligation0 (c : Dev nD) : BodyObligation (dat0 (F := F) V c) (defs₀ (F := F)) Variants.none () Set.univ := fun t => by
  rw [bigSep_W0, bigSep_W0]
  exact sound_body0 V c t

end Body0

end Cert.Kernel.Hand

end
-- ==== Proof.BitsRegion1.lean ====
import proofs.«104509_j22625887715845_2_alg».proof.Proof.Gen.Kernel.Launch
import proofs.«104509_j22625887715845_2_alg».proof.Proof.Gen.Kernel.Skeleton
import proofs.«104509_j22625887715845_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The head pass (second pallas_call): what each output block holds after the body -/

abbrev rA : Rect S2048x128 := Rect.unit (s := S2048x128) ![0, 0] S2048x128.size inb_S2048x128_S2048x128_0_0
abbrev rH : Rect S1x128 := Rect.unit (s := S1x128) ![0, 0] S1x128.size inb_S1x128_S1x128_0_0
abbrev rW : Rect S128x12 := Rect.unit (s := S128x12) ![0, 0] S128x12.size inb_S128x12_S128x12_0_0
abbrev rB : Rect S1x12 := Rect.unit (s := S1x12) ![0, 0] S1x12.size inb_S1x12_S1x12_0_0
abbrev rP : Rect S2048x8 := Rect.unit (s := S2048x8) ![0, 0] S2048x8.size inb_S2048x8_S2048x8_0_0
abbrev rV : Rect S2048x1 := Rect.unit (s := S2048x1) ![0, 0] S2048x1.size inb_S2048x1_S2048x1_0_0
abbrev rR : Rect S2048x3 := Rect.unit (s := S2048x3) ![0, 0] S2048x3.size inb_S2048x3_S2048x3_0_0

/-- The normalised rows: the block the body stores into the first output. -/
def headH (x0 : Vec F S1x128 .f32) (x1 : Vec F S2048x128 .f32) : Vec F S2048x128 .f32 :=
  View.canon [⟨rA, k1_pay2 (View.ld x1 rA) (View.ld x0 rH)⟩]
/-- The policy block. -/
def headP (x0 : Vec F S1x128 .f32) (x1 : Vec F S2048x128 .f32) (x2 : Vec F S128x12 .f32) (x3 : Vec F S1x12 .f32) : Vec F S2048x8 .f32 :=
  View.canon [⟨rP, k1_pay4 (View.ld x1 rA) (View.ld x0 rH) (View.ld x2 rW) (View.ld x3 rB)⟩]
/-- The value block. -/
def headV (x0 : Vec F S1x128 .f32) (x1 : Vec F S2048x128 .f32) (x2 : Vec F S128x12 .f32) (x3 : Vec F S1x12 .f32) : Vec F S2048x1 .f32 :=
  View.canon [⟨rV, k1_pay5 (View.ld x1 rA) (View.ld x0 rH) (View.ld x2 rW) (View.ld x3 rB)⟩]
/-- The role-probability block. -/
def headR (x0 : Vec F S1x128 .f32) (x1 : Vec F S2048x128 .f32) (x2 : Vec F S128x12 .f32) (x3 : Vec F S1x12 .f32) : Vec F S2048x3 .f32 :=
  View.canon [⟨rR, k1_pay1 (k1_pay6 (View.ld x1 rA) (View.ld x0 rH) (View.ld x2 rW) (View.ld x3 rB)) (k1_pay7 (View.ld x1 rA) (View.ld x0 rH) (View.ld x2 rW) (View.ld x3 rB))⟩]

theorem coverA (p0 : Vec F S2048x128 .f32) (y : S2048x128.Idx) :
    ∃ pc ∈ ([⟨rA, p0⟩] : List (View.Piece (Elt F) S2048x128 .f32)), y ∈ pc.1.set :=
  View.cover_of_tiled [⟨rA, p0⟩] S2048x128.size (by rfl) y
theorem coverP (p0 : Vec F S2048x8 .f32) (y : S2048x8.Idx) :
    ∃ pc ∈ ([⟨rP, p0⟩] : List (View.Piece (Elt F) S2048x8 .f32)), y ∈ pc.1.set :=
  View.cover_of_tiled [⟨rP, p0⟩] S2048x8.size (by rfl) y
theorem coverV (p0 : Vec F S2048x1 .f32) (y : S2048x1.Idx) :
    ∃ pc ∈ ([⟨rV, p0⟩] : List (View.Piece (Elt F) S2048x1 .f32)), y ∈ pc.1.set :=
  View.cover_of_tiled [⟨rV, p0⟩] S2048x1.size (by rfl) y
theorem coverR (p0 : Vec F S2048x3 .f32) (y : S2048x3.Idx) :
    ∃ pc ∈ ([⟨rR, p0⟩] : List (View.Piece (Elt F) S2048x3 .f32)), y ∈ pc.1.set :=
  View.cover_of_tiled [⟨rR, p0⟩] S2048x3.size (by rfl) y

set_option maxHeartbeats 1000000 in
/-- The head body on whole staging memrefs: the inputs stay, each output's buffer ends at its block. -/
theorem sound_kernel1 (c : Dev nD) (E : Set ℕ) (i : grid1.Coords)
    (arg1 : Memref sig .tc .vmem S1x128 .f32) (harg1 : arg1.IsWhole) (arg2 : Memref sig .tc .vmem S2048x128 .f32) (harg2 : arg2.IsWhole)
    (arg3 : Memref sig .tc .vmem S128x12 .f32) (harg3 : arg3.IsWhole) (arg4 : Memref sig .tc .vmem S1x12 .f32) (harg4 : arg4.IsWhole)
    (arg5 : Memref sig .tc .vmem S2048x128 .f32) (harg5 : arg5.IsWhole) (arg6 : Memref sig .tc .vmem S2048x8 .f32) (harg6 : arg6.IsWhole)
    (arg7 : Memref sig .tc .vmem S2048x1 .f32) (harg7 : arg7.IsWhole) (arg8 : Memref sig .tc .vmem S2048x3 .f32) (harg8 : arg8.IsWhole)
    (x0 : Vec F S1x128 .f32) (x1 : Vec F S2048x128 .f32) (x2 : Vec F S128x12 .f32) (x3 : Vec F S1x12 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (headH x0 x1) ∗ owns (c : Thread nD τ) arg6 fullShare (headP x0 x1 x2 x3)
            ∗ owns (c : Thread nD τ) arg7 fullShare (headV x0 x1 x2 x3) ∗ owns (c : Thread nD τ) arg8 fullShare (headR x0 x1 x2 x3)) -∗ K ⟨⟩))
      ⊢ wp frame (wpE (defs₀ (F := F)) Variants.none c none) E (cc1__pass3_kernel i arg1 harg1 arg2 harg2 arg3 harg3 arg4 harg4 arg5 harg5 arg6 harg6 arg7 harg7 arg8 harg8) K := by
  simp only [cc1__pass3_kernel_eq_skeleton]; unfold cc1__pass3_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverA _)
  isplitl [H5]
  · iexists _; isplitr
    swap; · iexact H5
    ipureintro
    exact View.read_writes_eq_canon _ _ _ (coverP _)
  isplitl [H6]
  · iexists _; isplitr
    swap; · iexact H6
    ipureintro
    exact View.read_writes_eq_canon _ _ _ (coverV _)
  iexists _; isplitr
  swap; · iexact H7
  ipureintro
  exact View.read_writes_eq_canon _ _ _ (coverR _)

/-! ## The proof data of the head pass, at the buffer contents `V` the region is entered with -/

section Data
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of the head pass on core `c`: inputs stay at their blocks, each output's buffer ends at its block of the
    input blocks; the invariant is the scoped rest and the generator register, untouched. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => headH (iblk1 V c 0 t) (iblk1 V c 1 t)
    | ⟨5, _⟩ => headP (iblk1 V c 0 t) (iblk1 V c 1 t) (iblk1 V c 2 t) (iblk1 V c 3 t)
    | ⟨6, _⟩ => headV (iblk1 V c 0 t) (iblk1 V c 1 t) (iblk1 V c 2 t) (iblk1 V c 3 t)
    | ⟨7, _⟩ => headR (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = headH (iblk1 V c 0 t) (iblk1 V c 1 t) := by dsimp only [dat1]
theorem after1_5 (c : Dev nD) (t : Fin cfg1.N) : (dat1 V c).after 5 t = headP (iblk1 V c 0 t) (iblk1 V c 1 t) (iblk1 V c 2 t) (iblk1 V c 3 t) := by dsimp only [dat1]
theorem after1_6 (c : Dev nD) (t : Fin cfg1.N) : (dat1 V c).after 6 t = headV (iblk1 V c 0 t) (iblk1 V c 1 t) (iblk1 V c 2 t) (iblk1 V c 3 t) := by dsimp only [dat1]
theorem after1_7 (c : Dev nD) (t : Fin cfg1.N) : (dat1 V c).after 7 t = headR (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Data

end Cert.Kernel.Hand

end
-- ==== Proof.BitsKernelRun.lean ====
import proofs.«104509_j22625887715845_2_alg».proof.Proof.Gen.Kernel.Launch
import proofs.«104509_j22625887715845_2_alg».proof.Proof.Gen.Kernel.Skeleton
import proofs.«104509_j22625887715845_2_alg».proof.Proof.Gen.Kernel.Points
import proofs.«104509_j22625887715845_2_alg».proof.Proof.Gen.Kernel.Regions
import proofs.«104509_j22625887715845_2_alg».proof.Proof.BitsRegion0Body
import proofs.«104509_j22625887715845_2_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The whole program as four segments: host operations, the reduction pass, host operations, the head pass -/

variable (m : (ℓ : Loc nD τ sig) → Buf (Elt F) ℓ) (ρ : Dev nD → PrngReg)

/-- The buffer contents at launch, -/
abbrev B0 : Dev nD → Valuation τ sig (Elt F) := fun c b => m (c, b)
/-- after the first stretch of host operations (the two slices of the first weight and the bias rows), -/
abbrev B1 : Dev nD → Valuation τ sig (Elt F) := fun c => StableHlo.after hostOps0 (B0 m c)
abbrev U1 : (c : Dev nD) → (b : Ref sig .tc) → Buf (Elt F) ((c : Thread nD τ).loc b) := fun c b => B1 m c b
/-- after the reduction pass: its arrays at what its write-backs leave, every other buffer as entered, -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)
/-- after the second stretch of host operations (the three head weights and biases joined), -/
abbrev B3 : Dev nD → Valuation τ sig (Elt F) := fun c => StableHlo.after hostOps1 (B2 m c)
abbrev U3 : (c : Dev nD) → (b : Ref sig .tc) → Buf (Elt F) ((c : Thread nD τ).loc b) := fun c b => B3 m c b
/-- and after the head pass. -/
def B4 (c : Dev nD) : Valuation τ sig (Elt F) :=
  Pipeline.withArrays spec1 c (B3 m c) fun w => (dat1 (U3 m) c).arrAt w cfg1.N
theorem B4_arr (c : Dev nD) (w : Fin cfg1.W) :
    B4 m c (Proc.devRef .tc (Pipeline.arrRef spec1 w)) = (dat1 (U3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev U4 : (c : Dev nD) → (b : Ref sig .tc) → Buf (Elt F) ((c : Thread nD τ).loc b) := fun c b => B4 m c b
theorem hF1 (c : Dev nD) (w : Fin cfg1.W) : (dat1 (U3 m) c).arrAt w cfg1.N = U4 m c (Pipeline.arrRef spec1 w) :=
  (B4_arr m c w).symm
theorem hrest1 (c : Dev nD) : ∀ b, b ∉ Finset.univ.image (Pipeline.arrRef spec1) → U4 m c b = U3 m c b :=
  fun b hb => B4_of_ne m c b fun w e => hb (Finset.mem_image.mpr ⟨w, Finset.mem_univ _, e⟩)

/-! ### Every argument array ends as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_of_ne m c main_arg0 (by decide)
    _ = B2 m c (Proc.devRef .tc main_arg0) := StableHlo.after_of_writes_sub hostOps1 _ hostOps1_writes (by decide)
    _ = B1 m c (Proc.devRef .tc main_arg0) := (B2_arr m c 0).trans (((dat0 (U1 m) c).arrAt_in 0 rfl _).trans (A_eq0 (U1 m) c 0))
    _ = B0 m c (Proc.devRef .tc main_arg0) := StableHlo.after_of_writes_sub hostOps0 _ hostOps0_writes (by decide)
    _ = m ((c : Thread nD τ).loc main_arg0) := rfl
theorem B4_main_arg1 (c : Dev nD) : B4 m c (Proc.devRef .tc main_arg1) = m ((c : Thread nD τ).loc main_arg1) :=
  calc B4 m c (Proc.devRef .tc main_arg1)
    _ = B3 m c (Proc.devRef .tc main_arg1) := (B4_arr m c 1).trans (((dat1 (U3 m) c).arrAt_in 1 rfl _).trans (A_eq1 (U3 m) c 1))
    _ = B2 m c (Proc.devRef .tc main_arg1) := StableHlo.after_of_writes_sub hostOps1 _ hostOps1_writes (by decide)
    _ = B1 m c (Proc.devRef .tc main_arg1) := B2_of_ne m c main_arg1 (by decide)
    _ = B0 m c (Proc.devRef .tc main_arg1) := StableHlo.after_of_writes_sub hostOps0 _ hostOps0_writes (by decide)
    _ = m ((c : Thread nD τ).loc main_arg1) := rfl
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := StableHlo.after_of_writes_sub hostOps1 _ hostOps1_writes (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl
theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_of_ne m c main_arg4 (by decide)
    _ = B2 m c (Proc.devRef .tc main_arg4) := StableHlo.after_of_writes_sub hostOps1 _ hostOps1_writes (by decide)
    _ = B1 m c (Proc.devRef .tc main_arg4) := (B2_arr m c 4).trans (((dat0 (U1 m) c).arrAt_in 4 rfl _).trans (A_eq0 (U1 m) c 4))
    _ = B0 m c (Proc.devRef .tc main_arg4) := StableHlo.after_of_writes_sub hostOps0 _ hostOps0_writes (by decide)
    _ = m ((c : Thread nD τ).loc main_arg4) := rfl
theorem B4_main_arg5 (c : Dev nD) : B4 m c (Proc.devRef .tc main_arg5) = m ((c : Thread nD τ).loc main_arg5) :=
  calc B4 m c (Proc.devRef .tc main_arg5)
    _ = B3 m c (Proc.devRef .tc main_arg5) := B4_of_ne m c main_arg5 (by decide)
    _ = B2 m c (Proc.devRef .tc main_arg5) := StableHlo.after_of_writes_sub hostOps1 _ hostOps1_writes (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl
theorem B4_main_arg6 (c : Dev nD) : B4 m c (Proc.devRef .tc main_arg6) = m ((c : Thread nD τ).loc main_arg6) :=
  calc B4 m c (Proc.devRef .tc main_arg6)
    _ = B3 m c (Proc.devRef .tc main_arg6) := B4_of_ne m c main_arg6 (by decide)
    _ = B2 m c (Proc.devRef .tc main_arg6) := StableHlo.after_of_writes_sub hostOps1 _ hostOps1_writes (by decide)
    _ = B1 m c (Proc.devRef .tc main_arg6) := (B2_arr m c 6).trans (((dat0 (U1 m) c).arrAt_in 6 rfl _).trans (A_eq0 (U1 m) c 6))
    _ = B0 m c (Proc.devRef .tc main_arg6) := StableHlo.after_of_writes_sub hostOps0 _ hostOps0_writes (by decide)
    _ = m ((c : Thread nD τ).loc main_arg6) := rfl
theorem B4_main_arg7 (c : Dev nD) : B4 m c (Proc.devRef .tc main_arg7) = m ((c : Thread nD τ).loc main_arg7) :=
  calc B4 m c (Proc.devRef .tc main_arg7)
    _ = B3 m c (Proc.devRef .tc main_arg7) := B4_of_ne m c main_arg7 (by decide)
    _ = B2 m c (Proc.devRef .tc main_arg7) := StableHlo.after_of_writes_sub hostOps1 _ hostOps1_writes (by decide)
    _ = B1 m c (Proc.devRef .tc main_arg7) := B2_of_ne m c main_arg7 (by decide)
    _ = B0 m c (Proc.devRef .tc main_arg7) := StableHlo.after_of_writes_sub hostOps0 _ hostOps0_writes (by decide)
    _ = m ((c : Thread nD τ).loc main_arg7) := rfl
theorem B4_main_arg8 (c : Dev nD) : B4 m c (Proc.devRef .tc main_arg8) = m ((c : Thread nD τ).loc main_arg8) :=
  calc B4 m c (Proc.devRef .tc main_arg8)
    _ = B3 m c (Proc.devRef .tc main_arg8) := B4_of_ne m c main_arg8 (by decide)
    _ = B2 m c (Proc.devRef .tc main_arg8) := StableHlo.after_of_writes_sub hostOps1 _ hostOps1_writes (by decide)
    _ = B1 m c (Proc.devRef .tc main_arg8) := (B2_arr m c 8).trans (((dat0 (U1 m) c).arrAt_in 8 rfl _).trans (A_eq0 (U1 m) c 8))
    _ = B0 m c (Proc.devRef .tc main_arg8) := StableHlo.after_of_writes_sub hostOps0 _ hostOps0_writes (by decide)
    _ = m ((c : Thread nD τ).loc main_arg8) := rfl
theorem B4_main_arg9 (c : Dev nD) : B4 m c (Proc.devRef .tc main_arg9) = m ((c : Thread nD τ).loc main_arg9) :=
  calc B4 m c (Proc.devRef .tc main_arg9)
    _ = B3 m c (Proc.devRef .tc main_arg9) := B4_of_ne m c main_arg9 (by decide)
    _ = B2 m c (Proc.devRef .tc main_arg9) := StableHlo.after_of_writes_sub hostOps1 _ hostOps1_writes (by decide)
    _ = B1 m c (Proc.devRef .tc main_arg9) := B2_of_ne m c main_arg9 (by decide)
    _ = B0 m c (Proc.devRef .tc main_arg9) := StableHlo.after_of_writes_sub hostOps0 _ hostOps0_writes (by decide)
    _ = m ((c : Thread nD τ).loc main_arg9) := rfl
theorem B4_main_arg10 (c : Dev nD) : B4 m c (Proc.devRef .tc main_arg10) = m ((c : Thread nD τ).loc main_arg10) :=
  calc B4 m c (Proc.devRef .tc main_arg10)
    _ = B3 m c (Proc.devRef .tc main_arg10) := B4_of_ne m c main_arg10 (by decide)
    _ = B2 m c (Proc.devRef .tc main_arg10) := StableHlo.after_of_writes_sub hostOps1 _ hostOps1_writes (by decide)
    _ = B1 m c (Proc.devRef .tc main_arg10) := B2_of_ne m c main_arg10 (by decide)
    _ = B0 m c (Proc.devRef .tc main_arg10) := StableHlo.after_of_writes_sub hostOps0 _ hostOps0_writes (by decide)
    _ = m ((c : Thread nD τ).loc main_arg10) := rfl
theorem B4_main_arg11 (c : Dev nD) : B4 m c (Proc.devRef .tc main_arg11) = m ((c : Thread nD τ).loc main_arg11) :=
  calc B4 m c (Proc.devRef .tc main_arg11)
    _ = B3 m c (Proc.devRef .tc main_arg11) := B4_of_ne m c main_arg11 (by decide)
    _ = B2 m c (Proc.devRef .tc main_arg11) := StableHlo.after_of_writes_sub hostOps1 _ hostOps1_writes (by decide)
    _ = B1 m c (Proc.devRef .tc main_arg11) := B2_of_ne m c main_arg11 (by decide)
    _ = B0 m c (Proc.devRef .tc main_arg11) := StableHlo.after_of_writes_sub hostOps0 _ hostOps0_writes (by decide)
    _ = m ((c : Thread nD τ).loc main_arg11) := rfl
theorem B4_main_arg12 (c : Dev nD) : B4 m c (Proc.devRef .tc main_arg12) = m ((c : Thread nD τ).loc main_arg12) :=
  calc B4 m c (Proc.devRef .tc main_arg12)
    _ = B3 m c (Proc.devRef .tc main_arg12) := B4_of_ne m c main_arg12 (by decide)
    _ = B2 m c (Proc.devRef .tc main_arg12) := StableHlo.after_of_writes_sub hostOps1 _ hostOps1_writes (by decide)
    _ = B1 m c (Proc.devRef .tc main_arg12) := B2_of_ne m c main_arg12 (by decide)
    _ = B0 m c (Proc.devRef .tc main_arg12) := StableHlo.after_of_writes_sub hostOps0 _ hostOps0_writes (by decide)
    _ = m ((c : Thread nD τ).loc main_arg12) := rfl
theorem B4_main_arg13 (c : Dev nD) : B4 m c (Proc.devRef .tc main_arg13) = m ((c : Thread nD τ).loc main_arg13) :=
  calc B4 m c (Proc.devRef .tc main_arg13)
    _ = B3 m c (Proc.devRef .tc main_arg13) := B4_of_ne m c main_arg13 (by decide)
    _ = B2 m c (Proc.devRef .tc main_arg13) := StableHlo.after_of_writes_sub hostOps1 _ hostOps1_writes (by decide)
    _ = B1 m c (Proc.devRef .tc main_arg13) := B2_of_ne m c main_arg13 (by decide)
    _ = B0 m c (Proc.devRef .tc main_arg13) := StableHlo.after_of_writes_sub hostOps0 _ hostOps0_writes (by decide)
    _ = m ((c : Thread nD τ).loc main_arg13) := rfl
theorem B4_main_arg14 (c : Dev nD) : B4 m c (Proc.devRef .tc main_arg14) = m ((c : Thread nD τ).loc main_arg14) :=
  calc B4 m c (Proc.devRef .tc main_arg14)
    _ = B3 m c (Proc.devRef .tc main_arg14) := B4_of_ne m c main_arg14 (by decide)
    _ = B2 m c (Proc.devRef .tc main_arg14) := StableHlo.after_of_writes_sub hostOps1 _ hostOps1_writes (by decide)
    _ = B1 m c (Proc.devRef .tc main_arg14) := B2_of_ne m c main_arg14 (by decide)
    _ = B0 m c (Proc.devRef .tc main_arg14) := StableHlo.after_of_writes_sub hostOps0 _ hostOps0_writes (by decide)
    _ = m ((c : Thread nD τ).loc main_arg14) := rfl
theorem B4_main_arg15 (c : Dev nD) : B4 m c (Proc.devRef .tc main_arg15) = m ((c : Thread nD τ).loc main_arg15) :=
  calc B4 m c (Proc.devRef .tc main_arg15)
    _ = B3 m c (Proc.devRef .tc main_arg15) := B4_of_ne m c main_arg15 (by decide)
    _ = B2 m c (Proc.devRef .tc main_arg15) := StableHlo.after_of_writes_sub hostOps1 _ hostOps1_writes (by decide)
    _ = B1 m c (Proc.devRef .tc main_arg15) := B2_of_ne m c main_arg15 (by decide)
    _ = B0 m c (Proc.devRef .tc main_arg15) := StableHlo.after_of_writes_sub hostOps0 _ hostOps0_writes (by decide)
    _ = m ((c : Thread nD τ).loc main_arg15) := rfl

/-! ## The proof data family and the thread state -/

abbrev padm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) padm p) c
  | ⟨0, _⟩ => fun c => dat0 (U1 m) c
  | ⟨1, _⟩ => fun c => dat1 (U3 m) c
abbrev 𝒱₀ : Variants := Variants.none
abbrev LL : GSem nD τ sig → Finset Unit := fun _ => ∅
abbrev lvl : GSem nD τ sig → Unit → ℕ := fun _ _ => 0
/-- What rides beside the buffers through every segment: the generator register at some state, and nothing owed. -/
abbrev RR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ LL lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m c) ∗ ∃ r, prngReg c r)

/-! ## The regions as segments -/

set_option backward.isDefEq.respectTransparency.types false in
/-- The reduction pass: its arrays split out of the unscoped buffers and put back at the exit contents; the generator
    register and the scoped buffers no window stages (the three carried buffers among them, at any contents) into its
    invariant and out. -/
def reg0 : Pipeline.RegionSeg (pcfgs (F := F)) padm (pdats m) () defs₀ 𝒱₀ LL lvl 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LL lvl 0 fun _ _ => rfl
  pre c := iprop(StableHlo.held (c : Thread nD τ) (Pipeline.ucRefs τ sig) (B1 m c) ∗ RR c)
  post c := iprop(StableHlo.held (c : Thread nD τ) (Pipeline.ucRefs τ sig) (B2 m c) ∗ RR c)
  X c := iprop(∃ r, prngReg c r)
  Y c := iprop(∃ r, prngReg c r)
  Z c := Pipeline.unscopedRest (Ix := Unit) (Name := ℕ) (U := Pipeline.UD sig nD τ) (Lvl := ℕ) spec0 c (U1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest0_eq (Ix := Unit) (Val := Elt F) (Name := ℕ) (U := Pipeline.UD sig nD τ) (Lvl := ℕ) c
    rw [show (pdats m 0 c).Φ 0 = Φ0 (U1 m) c 0 from rfl]; unfold Φ0 others0
    simp only [scM0, scM1, scM2, owns_whole]
    iintro ⟨Hp, -, Hr⟩
    ihave Hr' := (Entails.of_eq hs) $$ Hr
    icases Hr' with ⟨⟨%f0, S0⟩, ⟨%f1, S1⟩, ⟨%f2, S2⟩, HR⟩
    isplitl [S0 S1 S2]
    · iexists f0, f1, f2
      isplitr; · ipureintro; trivial
      isplitl [S0]; · iexact S0
      isplitl [S1]; · iexact S1
      iexact S2
    isplitl [HR]; · iexact HR
    iexact Hp
  hout c := by
    have hs := scopedRest0_eq (Ix := Unit) (Val := Elt F) (Name := ℕ) (U := Pipeline.UD sig nD τ) (Lvl := ℕ) c
    rw [Pipeline.ownSems0_none, show (pdats m 0 c).Φ (Fin.last _) = Φ0 (U1 m) c (Fin.last _) from rfl]; unfold Φ0 others0
    simp only [scM0, scM1, scM2, owns_whole]
    iintro ⟨⟨%a0, %a1, %a2, -, S0, S1, S2⟩, HR, Hp⟩
    isplitl [Hp]; · iexact Hp
    isplitr; · iempintro
    iapply (Entails.of_eq hs.symm)
    isplitl [S0]; · iexists a0; iexact S0
    isplitl [S1]; · iexists a1; iexact S1
    isplitl [S2]; · iexists a2; iexact S2
    iexact HR
  hexit c := by
    have hjoin := Pipeline.unscopedBufs_of_arrays (p := 0) (pcfgs (F := F)) padm (Ix := Unit) (Name := ℕ) (U := Pipeline.UD sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head pass, likewise; its invariant is the scoped rest and the generator register. -/
def reg1 : Pipeline.RegionSeg (pcfgs (F := F)) padm (pdats m) () defs₀ 𝒱₀ LL lvl 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LL lvl 1 fun _ _ => rfl
  pre c := iprop(StableHlo.held (c : Thread nD τ) (Pipeline.ucRefs τ sig) (B3 m c) ∗ RR c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (U3 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := Pipeline.UD sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

abbrev psegs : List (Pipeline.Seg (pcfgs (F := F)) padm (pdats m) () defs₀ 𝒱₀ LL lvl) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (psegs m) := (main_chain c).trans (by chain_rfl)

set_option backward.isDefEq.respectTransparency.types false in
/-- Every weakly fair execution of the program terminates, nothing faulting, and every unscoped buffer ends at what the
    four segments, folded over the launch memory, leave in it. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = B4 m c (Proc.devRef .tc b)) :=
  Pipeline.θ_run_regions_kit (pcfgs (F := F)) padm (pdats m) () cellOf_inj embL defs₀ 𝒱₀ LL lvl m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RR c)) (Tₙ := Tend m)
    (hch := ⟨fun _ => .rfl, fun _ => .rfl, fun _ => .rfl, fun _ => .rfl, fun _ => .rfl⟩)
    (hinit := by
      refine Pipeline.initEach LL lvl fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c b hb => h c _ (mem_uc b hb))

end Cert.Kernel.Hand

end
-- ==== Proof.Region0Conds.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The fused reduction pass (first pallas_call) -/

/-- The five guards of the body, as the scalar chains the program computes from the grid point. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev condB (i : grid0.Coords) : Prop := (Scalar.cmpi .ne (Scalar.extui (Scalar.cmpi .eq (BitVec.ofNat 32 (i 0).val) 0#32)) 0#32) = 1#1
abbrev condC (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
abbrev condD (i : grid0.Coords) : Prop := (Scalar.cmpi .ne (Scalar.extui (Scalar.cmpi .eq (BitVec.ofNat 32 (i 0).val) 1#32)) 0#32) = 1#1
abbrev condE (i : grid0.Coords) : Prop := k0_cond5 i = 1#1

theorem hcondA : ∀ t : Fin cfg0.N, condA (grid0.coords t) ↔ t.val = 0 :=
  (by decide +kernel : ∀ t : Fin grid0.N, condA (grid0.coords t) ↔ t.val = 0)
theorem hcondB : ∀ t : Fin cfg0.N, condB (grid0.coords t) ↔ t.val < 4 :=
  (by decide +kernel : ∀ t : Fin grid0.N, condB (grid0.coords t) ↔ t.val < 4)
theorem hcondC : ∀ t : Fin cfg0.N, condC (grid0.coords t) ↔ t.val = 4 :=
  (by decide +kernel : ∀ t : Fin grid0.N, condC (grid0.coords t) ↔ t.val = 4)
theorem hcondD : ∀ t : Fin cfg0.N, condD (grid0.coords t) ↔ 4 ≤ t.val :=
  (by decide +kernel : ∀ t : Fin grid0.N, condD (grid0.coords t) ↔ 4 ≤ t.val)
theorem hcondE : ∀ t : Fin cfg0.N, condE (grid0.coords t) ↔ t.val = 7 :=
  (by decide +kernel : ∀ t : Fin grid0.N, condE (grid0.coords t) ↔ t.val = 7)

abbrev qS : Rect S2048x64 := Rect.unit (s := S2048x64) ![0, 0] S2048x64.size inb_S2048x64_S2048x64_0_0
abbrev qW1a : Rect S64x128 := Rect.unit (s := S64x128) ![0, 0] S64x128.size inb_S64x128_S64x128_0_0
abbrev qW1b : Rect S32x128 := Rect.unit (s := S32x128) ![0, 0] S32x128.size inb_S32x128_S32x128_0_0
abbrev qH : Rect S1x128 := Rect.unit (s := S1x128) ![0, 0] S1x128.size inb_S1x128_S1x128_0_0
abbrev qW : Rect S128x128 := Rect.unit (s := S128x128) ![0, 0] S128x128.size inb_S128x128_S128x128_0_0
abbrev qWc : Rect S128x32 := Rect.unit (s := S128x32) ![0, 0] S128x32.size inb_S128x32_S128x32_0_0
abbrev qC : Rect S1x32 := Rect.unit (s := S1x32) ![0, 0] S1x32.size inb_S1x32_S1x32_0_0

theorem hz2 : (![0, 0] : Fin 2 → Nat) = fun _ => 0 := by funext a; fin_cases a <;> rfl

theorem readCovC {κ : Kind} {sp : Space} (v : View sig κ sp S1x32 .f32) (w : S1x32.Idx → Elt F .f32) :
    v.readCov [(⟨Rect.unit ![0, 0] S1x32.size inb_S1x32_S1x32_0_0, w⟩ : View.Piece (Elt F) S1x32 .f32)] (Rect.unit ![0, 0] S1x32.size inb_S1x32_S1x32_0_0).toLoadRect = w :=
  View.readCov_unit_zero v hz2 _ w
theorem readCovH {κ : Kind} {sp : Space} (v : View sig κ sp S1x128 .f32) (w : S1x128.Idx → Elt F .f32) :
    v.readCov [(⟨Rect.unit ![0, 0] S1x128.size inb_S1x128_S1x128_0_0, w⟩ : View.Piece (Elt F) S1x128 .f32)] (Rect.unit ![0, 0] S1x128.size inb_S1x128_S1x128_0_0).toLoadRect = w :=
  View.readCov_unit_zero v hz2 _ w

theorem coverC (w : S1x32.Idx → Elt F .f32) (L : List (View.Piece (Elt F) S1x32 .f32)) (y : S1x32.Idx) :
    ∃ p ∈ ((⟨qC, w⟩ : View.Piece (Elt F) S1x32 .f32) :: L), y ∈ p.1.set :=
  ⟨_, List.mem_cons_self, View.mem_set_unit_zero hz2 inb_S1x32_S1x32_0_0 y⟩
theorem coverH (w : S1x128.Idx → Elt F .f32) (L : List (View.Piece (Elt F) S1x128 .f32)) (y : S1x128.Idx) :
    ∃ p ∈ ((⟨qH, w⟩ : View.Piece (Elt F) S1x128 .f32) :: L), y ∈ p.1.set :=
  ⟨_, List.mem_cons_self, View.mem_set_unit_zero hz2 inb_S1x128_S1x128_0_0 y⟩

end Cert.KernelIdeal.Hand

end
-- ==== Proof.Region0Data.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.Region0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The proof data of the reduction pass, at the buffer contents `V` the region is entered with -/

section Data0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ### What the three carried buffers hold from point to point

The first four points add each tile's normalised messages, summed over the tile's rows, to the message accumulator (zeroed
at the first).  The fifth turns the accumulated sum into the communication bias and zeroes the hidden accumulator; the last
four add each tile's hidden rows, summed over the tile, to it.  The last point turns that sum into the region's one output. -/

def msgAt (c : Dev nD) (t : Fin cfg0.N) : Vec F S2048x32 .f32 :=
  k0_pay7 (View.ld (iblk0 V c 0 t) qS) (View.ld (iblk0 V c 1 t) qW1a) (View.ld (iblk0 V c 3 t) qH) (View.ld (iblk0 V c 4 t) qW) (View.ld (iblk0 V c 5 t) qH) (View.ld (iblk0 V c 6 t) qWc) (View.ld (iblk0 V c 7 t) qC)
def accM1 (c : Dev nD) : Vec F S1x32 .f32 := k0_pay2 (msgAt V c t0_0) (k0_pay1 (F := F))
def accM2 (c : Dev nD) : Vec F S1x32 .f32 := k0_pay2 (msgAt V c t0_1) (View.ld (accM1 V c) qC)
def accM3 (c : Dev nD) : Vec F S1x32 .f32 := k0_pay2 (msgAt V c t0_2) (View.ld (accM2 V c) qC)
def accM4 (c : Dev nD) : Vec F S1x32 .f32 := k0_pay2 (msgAt V c t0_3) (View.ld (accM3 V c) qC)
def commB (c : Dev nD) : Vec F S1x128 .f32 := k0_pay3 (View.ld (accM4 V c) qC) (View.ld (iblk0 V c 2 t0_4) qW1b)
def hAt (c : Dev nD) (t : Fin cfg0.N) (cb acc : Vec F S1x128 .f32) : Vec F S1x128 .f32 :=
  k0_pay5 (View.ld (iblk0 V c 0 t) qS) (View.ld (iblk0 V c 1 t) qW1a) (View.ld (iblk0 V c 3 t) qH) cb (View.ld (iblk0 V c 4 t) qW) (View.ld (iblk0 V c 5 t) qH) acc
def accH1 (c : Dev nD) : Vec F S1x128 .f32 := hAt V c t0_4 (commB V c) (k0_pay4 (F := F))
def accH2 (c : Dev nD) : Vec F S1x128 .f32 := hAt V c t0_5 (View.ld (commB V c) qH) (View.ld (accH1 V c) qH)
def accH3 (c : Dev nD) : Vec F S1x128 .f32 := hAt V c t0_6 (View.ld (commB V c) qH) (View.ld (accH2 V c) qH)
def accH4 (c : Dev nD) : Vec F S1x128 .f32 := hAt V c t0_7 (View.ld (commB V c) qH) (View.ld (accH3 V c) qH)
/-- The region's output: the graph layer applied to the mean hidden row. -/
def gnnOut (c : Dev nD) : Vec F S1x128 .f32 := k0_pay6 (accH4 V c) (View.ld (iblk0 V c 8 t0_7) qW) (View.ld (iblk0 V c 9 t0_7) qH)

/-- What is known of the three carried buffers before point `n`. -/
def Inv (c : Dev nD) : ℕ → Vec F S1x32 .f32 → Vec F S1x128 .f32 → Vec F S1x128 .f32 → Prop
  | 1, a0, _, _ => a0 = accM1 V c
  | 2, a0, _, _ => a0 = accM2 V c
  | 3, a0, _, _ => a0 = accM3 V c
  | 4, a0, _, _ => a0 = accM4 V c
  | 5, _, a1, a2 => a1 = accH1 V c ∧ a2 = commB V c
  | 6, _, a1, a2 => a1 = accH2 V c ∧ a2 = commB V c
  | 7, _, a1, a2 => a1 = accH3 V c ∧ a2 = commB V c
  | 8, _, a1, a2 => a1 = accH4 V c ∧ a2 = commB V c
  | _, _, _, _ => True

abbrev scM0 : Memref sig .tc .vmem S1x32 .f32 := Memref.whole cc0_scratch0
abbrev scM1 : Memref sig .tc .vmem S1x128 .f32 := Memref.whole cc0_scratch1
abbrev scM2 : Memref sig .tc .vmem S1x128 .f32 := Memref.whole cc0_scratch2

/-- The other region's staging buffers, each whole at some contents: scoped buffers this region never touches. -/
def others0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region's invariant before point `n`: the carried buffers at contents of which `Inv` holds, the untouched scoped
    buffers, the generator register. -/
def Φ0 (c : Dev nD) (n : Fin (cfg0.N + 1)) : sProp 𝕄 :=
  iprop((∃ a0 a1 a2, ⌜Inv V c n.val a0 a1 a2⌝ ∗ owns (c : Thread nD τ) scM0 fullShare a0 ∗ owns (c : Thread nD τ) scM1 fullShare a1 ∗ owns (c : Thread nD τ) scM2 fullShare a2)
    ∗ others0 (F := F) c ∗ ∃ r, prngReg c r)

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => gnnOut V c
  Φ n := Φ0 V c n
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = gnnOut V c := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

end Data0

end Cert.KernelIdeal.Hand

end
-- ==== Proof.Region0RunA.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.Region0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem sound_kernel0_A (c : Dev nD) (E : Set ℕ) (i : grid0.Coords) (arg2 : Memref sig .tc .vmem S2048x64 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32 .f32) (harg13 : arg13.IsWhole) (arg14 : Memref sig .tc .vmem S1x128 .f32) (harg14 : arg14.IsWhole) (arg15 : Memref sig .tc .vmem S1x128 .f32) (harg15 : arg15.IsWhole)
    (hA : condA i) (hB : condB i) (hC : ¬ condC i) (hD : ¬ condD i) (hE : ¬ condE i)
    (x0 : Vec F S2048x64 .f32) (x1 : Vec F S64x128 .f32) (x2 : Vec F S32x128 .f32) (x3 : Vec F S1x128 .f32) (x4 : Vec F S128x128 .f32) (x5 : Vec F S1x128 .f32) (x6 : Vec F S128x32 .f32) (x7 : Vec F S1x32 .f32) (x8 : Vec F S128x128 .f32) (x9 : Vec F S1x128 .f32) (xo : Vec F S1x128 .f32) (a0 : Vec F S1x32 .f32) (a1 : Vec F S1x128 .f32) (a2 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare a0 ∗ owns (c : Thread nD τ) arg14 fullShare a1 ∗ owns (c : Thread nD τ) arg15 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xo ∗ owns (c : Thread nD τ) arg13 fullShare (k0_pay2 (k0_pay7 (View.ld x0 qS) (View.ld x1 qW1a) (View.ld x3 qH) (View.ld x4 qW) (View.ld x5 qH) (View.ld x6 qWc) (View.ld x7 qC)) (k0_pay1 (F := F))) ∗ owns (c : Thread nD τ) arg14 fullShare a1 ∗ owns (c : Thread nD τ) arg15 fullShare a2) -∗ K ⟨⟩))
      ⊢ wp frame (wpE (defs₀ (F := F)) Variants.none c none) E (cc0__pass12_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__pass12_kernel_eq_skeleton]; unfold cc0__pass12_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%g0, %hg0, G0⟩, ⟨%g1, %hg1, G1⟩, ⟨%g2, %hg2, G2⟩, Hk⟩
  subst hf0 hf1 hf2 hf3 hf4 hf5 hf6 hf7 hf8 hf9 hfo hg0 hg1 hg2
  sl_exec (disch := first | exact hA | exact hB | exact hC | exact hD | exact hE)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro; rfl
  isplitl [G0]
  · iexists _; isplitr
    swap; · iexact G0
    ipureintro; (sl_unfold_words; dsimp only; rw [View.read_writes_eq_canon _ _ _ (coverC _ _)]; rw [View.canon_cons_unit_zero hz2]; exact congrArg (k0_pay2 _) (readCovC _ _))
  isplitl [G1]
  · iexists _; isplitr
    swap; · iexact G1
    ipureintro; rfl
  iexists _; isplitr
  swap; · iexact G2
  ipureintro; rfl

end Cert.KernelIdeal.Hand

end
-- ==== Proof.Region0RunB.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.Region0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem sound_kernel0_B (c : Dev nD) (E : Set ℕ) (i : grid0.Coords) (arg2 : Memref sig .tc .vmem S2048x64 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32 .f32) (harg13 : arg13.IsWhole) (arg14 : Memref sig .tc .vmem S1x128 .f32) (harg14 : arg14.IsWhole) (arg15 : Memref sig .tc .vmem S1x128 .f32) (harg15 : arg15.IsWhole)
    (hA : ¬ condA i) (hB : condB i) (hC : ¬ condC i) (hD : ¬ condD i) (hE : ¬ condE i)
    (x0 : Vec F S2048x64 .f32) (x1 : Vec F S64x128 .f32) (x2 : Vec F S32x128 .f32) (x3 : Vec F S1x128 .f32) (x4 : Vec F S128x128 .f32) (x5 : Vec F S1x128 .f32) (x6 : Vec F S128x32 .f32) (x7 : Vec F S1x32 .f32) (x8 : Vec F S128x128 .f32) (x9 : Vec F S1x128 .f32) (xo : Vec F S1x128 .f32) (a0 : Vec F S1x32 .f32) (a1 : Vec F S1x128 .f32) (a2 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare a0 ∗ owns (c : Thread nD τ) arg14 fullShare a1 ∗ owns (c : Thread nD τ) arg15 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xo ∗ owns (c : Thread nD τ) arg13 fullShare (k0_pay2 (k0_pay7 (View.ld x0 qS) (View.ld x1 qW1a) (View.ld x3 qH) (View.ld x4 qW) (View.ld x5 qH) (View.ld x6 qWc) (View.ld x7 qC)) (View.ld a0 qC)) ∗ owns (c : Thread nD τ) arg14 fullShare a1 ∗ owns (c : Thread nD τ) arg15 fullShare a2) -∗ K ⟨⟩))
      ⊢ wp frame (wpE (defs₀ (F := F)) Variants.none c none) E (cc0__pass12_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__pass12_kernel_eq_skeleton]; unfold cc0__pass12_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%g0, %hg0, G0⟩, ⟨%g1, %hg1, G1⟩, ⟨%g2, %hg2, G2⟩, Hk⟩
  subst hf0 hf1 hf2 hf3 hf4 hf5 hf6 hf7 hf8 hf9 hfo hg0 hg1 hg2
  sl_exec (disch := first | exact hA | exact hB | exact hC | exact hD | exact hE)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro; rfl
  isplitl [G0]
  · iexists _; isplitr
    swap; · iexact G0
    ipureintro; (sl_unfold_words; dsimp only; rw [View.read_writes_eq_canon _ _ _ (coverC _ _)]; rw [View.canon_cons_unit_zero hz2]; rfl)
  isplitl [G1]
  · iexists _; isplitr
    swap; · iexact G1
    ipureintro; rfl
  iexists _; isplitr
  swap; · iexact G2
  ipureintro; rfl

end Cert.KernelIdeal.Hand

end
-- ==== Proof.Region0RunC.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.Region0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem sound_kernel0_C (c : Dev nD) (E : Set ℕ) (i : grid0.Coords) (arg2 : Memref sig .tc .vmem S2048x64 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32 .f32) (harg13 : arg13.IsWhole) (arg14 : Memref sig .tc .vmem S1x128 .f32) (harg14 : arg14.IsWhole) (arg15 : Memref sig .tc .vmem S1x128 .f32) (harg15 : arg15.IsWhole)
    (hA : ¬ condA i) (hB : ¬ condB i) (hC : condC i) (hD : condD i) (hE : ¬ condE i)
    (x0 : Vec F S2048x64 .f32) (x1 : Vec F S64x128 .f32) (x2 : Vec F S32x128 .f32) (x3 : Vec F S1x128 .f32) (x4 : Vec F S128x128 .f32) (x5 : Vec F S1x128 .f32) (x6 : Vec F S128x32 .f32) (x7 : Vec F S1x32 .f32) (x8 : Vec F S128x128 .f32) (x9 : Vec F S1x128 .f32) (xo : Vec F S1x128 .f32) (a0 : Vec F S1x32 .f32) (a1 : Vec F S1x128 .f32) (a2 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare a0 ∗ owns (c : Thread nD τ) arg14 fullShare a1 ∗ owns (c : Thread nD τ) arg15 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xo ∗ owns (c : Thread nD τ) arg13 fullShare a0 ∗ owns (c : Thread nD τ) arg14 fullShare (k0_pay5 (View.ld x0 qS) (View.ld x1 qW1a) (View.ld x3 qH) (k0_pay3 (View.ld a0 qC) (View.ld x2 qW1b)) (View.ld x4 qW) (View.ld x5 qH) (k0_pay4 (F := F))) ∗ owns (c : Thread nD τ) arg15 fullShare (k0_pay3 (View.ld a0 qC) (View.ld x2 qW1b))) -∗ K ⟨⟩))
      ⊢ wp frame (wpE (defs₀ (F := F)) Variants.none c none) E (cc0__pass12_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__pass12_kernel_eq_skeleton]; unfold cc0__pass12_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%g0, %hg0, G0⟩, ⟨%g1, %hg1, G1⟩, ⟨%g2, %hg2, G2⟩, Hk⟩
  subst hf0 hf1 hf2 hf3 hf4 hf5 hf6 hf7 hf8 hf9 hfo hg0 hg1 hg2
  sl_exec (disch := first | exact hA | exact hB | exact hC | exact hD | exact hE)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro; rfl
  isplitl [G0]
  · iexists _; isplitr
    swap; · iexact G0
    ipureintro; rfl
  isplitl [G1]
  · iexists _; isplitr
    swap; · iexact G1
    ipureintro; (sl_unfold_words; dsimp only; rw [View.read_writes_eq_canon _ _ _ (coverH _ _)]; rw [View.canon_cons_unit_zero hz2]; exact congrArg₂ (fun a b => k0_pay5 _ _ _ a _ _ b) (readCovH _ _) (readCovH _ _))
  iexists _; isplitr
  swap; · iexact G2
  ipureintro; (sl_unfold_words; dsimp only; rw [View.read_writes_eq_canon _ _ _ (coverH _ _)]; rw [View.canon_cons_unit_zero hz2]; rfl)

end Cert.KernelIdeal.Hand

end
-- ==== Proof.Region0RunD.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.Region0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem sound_kernel0_D (c : Dev nD) (E : Set ℕ) (i : grid0.Coords) (arg2 : Memref sig .tc .vmem S2048x64 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32 .f32) (harg13 : arg13.IsWhole) (arg14 : Memref sig .tc .vmem S1x128 .f32) (harg14 : arg14.IsWhole) (arg15 : Memref sig .tc .vmem S1x128 .f32) (harg15 : arg15.IsWhole)
    (hA : ¬ condA i) (hB : ¬ condB i) (hC : ¬ condC i) (hD : condD i) (hE : ¬ condE i)
    (x0 : Vec F S2048x64 .f32) (x1 : Vec F S64x128 .f32) (x2 : Vec F S32x128 .f32) (x3 : Vec F S1x128 .f32) (x4 : Vec F S128x128 .f32) (x5 : Vec F S1x128 .f32) (x6 : Vec F S128x32 .f32) (x7 : Vec F S1x32 .f32) (x8 : Vec F S128x128 .f32) (x9 : Vec F S1x128 .f32) (xo : Vec F S1x128 .f32) (a0 : Vec F S1x32 .f32) (a1 : Vec F S1x128 .f32) (a2 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare a0 ∗ owns (c : Thread nD τ) arg14 fullShare a1 ∗ owns (c : Thread nD τ) arg15 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xo ∗ owns (c : Thread nD τ) arg13 fullShare a0 ∗ owns (c : Thread nD τ) arg14 fullShare (k0_pay5 (View.ld x0 qS) (View.ld x1 qW1a) (View.ld x3 qH) (View.ld a2 qH) (View.ld x4 qW) (View.ld x5 qH) (View.ld a1 qH)) ∗ owns (c : Thread nD τ) arg15 fullShare a2) -∗ K ⟨⟩))
      ⊢ wp frame (wpE (defs₀ (F := F)) Variants.none c none) E (cc0__pass12_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__pass12_kernel_eq_skeleton]; unfold cc0__pass12_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%g0, %hg0, G0⟩, ⟨%g1, %hg1, G1⟩, ⟨%g2, %hg2, G2⟩, Hk⟩
  subst hf0 hf1 hf2 hf3 hf4 hf5 hf6 hf7 hf8 hf9 hfo hg0 hg1 hg2
  sl_exec (disch := first | exact hA | exact hB | exact hC | exact hD | exact hE)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro; rfl
  isplitl [G0]
  · iexists _; isplitr
    swap; · iexact G0
    ipureintro; rfl
  isplitl [G1]
  · iexists _; isplitr
    swap; · iexact G1
    ipureintro; (sl_unfold_words; dsimp only; rw [View.read_writes_eq_canon _ _ _ (coverH _ _)]; rw [View.canon_cons_unit_zero hz2]; rfl)
  iexists _; isplitr
  swap; · iexact G2
  ipureintro; rfl

end Cert.KernelIdeal.Hand

end
-- ==== Proof.Region0RunE.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.Region0Conds
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem sound_kernel0_E (c : Dev nD) (E : Set ℕ) (i : grid0.Coords) (arg2 : Memref sig .tc .vmem S2048x64 .f32) (harg2 : arg2.IsWhole) (arg3 : Memref sig .tc .vmem S64x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x32 .f32) (harg13 : arg13.IsWhole) (arg14 : Memref sig .tc .vmem S1x128 .f32) (harg14 : arg14.IsWhole) (arg15 : Memref sig .tc .vmem S1x128 .f32) (harg15 : arg15.IsWhole)
    (hA : ¬ condA i) (hB : ¬ condB i) (hC : ¬ condC i) (hD : condD i) (hE : condE i)
    (x0 : Vec F S2048x64 .f32) (x1 : Vec F S64x128 .f32) (x2 : Vec F S32x128 .f32) (x3 : Vec F S1x128 .f32) (x4 : Vec F S128x128 .f32) (x5 : Vec F S1x128 .f32) (x6 : Vec F S128x32 .f32) (x7 : Vec F S1x32 .f32) (x8 : Vec F S128x128 .f32) (x9 : Vec F S1x128 .f32) (xo : Vec F S1x128 .f32) (a0 : Vec F S1x32 .f32) (a1 : Vec F S1x128 .f32) (a2 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare xo ∗ owns (c : Thread nD τ) arg13 fullShare a0 ∗ owns (c : Thread nD τ) arg14 fullShare a1 ∗ owns (c : Thread nD τ) arg15 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (k0_pay6 (k0_pay5 (View.ld x0 qS) (View.ld x1 qW1a) (View.ld x3 qH) (View.ld a2 qH) (View.ld x4 qW) (View.ld x5 qH) (View.ld a1 qH)) (View.ld x8 qW) (View.ld x9 qH)) ∗ owns (c : Thread nD τ) arg13 fullShare a0 ∗ owns (c : Thread nD τ) arg14 fullShare (k0_pay5 (View.ld x0 qS) (View.ld x1 qW1a) (View.ld x3 qH) (View.ld a2 qH) (View.ld x4 qW) (View.ld x5 qH) (View.ld a1 qH)) ∗ owns (c : Thread nD τ) arg15 fullShare a2) -∗ K ⟨⟩))
      ⊢ wp frame (wpE (defs₀ (F := F)) Variants.none c none) E (cc0__pass12_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__pass12_kernel_eq_skeleton]; unfold cc0__pass12_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%g0, %hg0, G0⟩, ⟨%g1, %hg1, G1⟩, ⟨%g2, %hg2, G2⟩, Hk⟩
  subst hf0 hf1 hf2 hf3 hf4 hf5 hf6 hf7 hf8 hf9 hfo hg0 hg1 hg2
  sl_exec (disch := first | exact hA | exact hB | exact hC | exact hD | exact hE)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr
    swap; · iexact Ho
    ipureintro; (sl_unfold_words; dsimp only; rw [View.read_writes_eq_canon _ _ _ (coverH _ _)]; rw [View.canon_cons_unit_zero hz2]; exact congrArg (fun a => k0_pay6 a _ _) (readCovH _ _))
  isplitl [G0]
  · iexists _; isplitr
    swap; · iexact G0
    ipureintro; rfl
  isplitl [G1]
  · iexists _; isplitr
    swap; · iexact G1
    ipureintro; (sl_unfold_words; dsimp only; rw [View.read_writes_eq_canon _ _ _ (coverH _ _)]; rw [View.canon_cons_unit_zero hz2]; rfl)
  iexists _; isplitr
  swap; · iexact G2
  ipureintro; rfl

end Cert.KernelIdeal.Hand

end
-- ==== Proof.Region0Body.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.Region0Data
import proofs.«104509_j22625887715845_2_alg».proof.Proof.Region0RunA
import proofs.«104509_j22625887715845_2_alg».proof.Proof.Region0RunB
import proofs.«104509_j22625887715845_2_alg».proof.Proof.Region0RunC
import proofs.«104509_j22625887715845_2_alg».proof.Proof.Region0RunD
import proofs.«104509_j22625887715845_2_alg».proof.Proof.Region0RunE
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body0
variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns: the output's buffer is handed back as found wherever the point stores nothing into it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ (match cfg0.idle 10 (cfg0.grid.coords t) with
        | true =>
          match (cfg0.win 10).flush t with
          | false => iprop(∃ d, owns (c : Thread nD τ) (st0_10 t) fullShare ((dat0 V c).before 10 t d))
          | true => owns (c : Thread nD τ) (st0_10 t) fullShare ((dat0 V c).after 10 t)
        | false => owns (c : Thread nD τ) (st0_10 t) fullShare ((dat0 V c).after 10 t)))

set_option maxHeartbeats 4000000 in
/-- The body at each of the eight points: the guards select one of five paths; the carried buffers go in at what the points
    before left and come out at what this point leaves. -/
theorem sound_body0 (c : Dev nD) (t : Fin cfg0.N) :
    bodyPre0 V c t ⊢ wp frame (wpE (defs₀ (F := F)) Variants.none c none) Set.univ (bodyAt0 t) (fun _ => bodyPost0 V c t) := by
  rcases fin_N0 t with rfl | rfl | rfl | rfl | rfl | rfl | rfl | rfl
  · -- point 0
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_0).succ = (dat0 V c).owesAt () (t0_0).castSucc from rfl,
      show (dat0 V c).Φ (t0_0).castSucc = Φ0 V c (t0_0).castSucc from rfl, show (dat0 V c).Φ (t0_0).succ = Φ0 V c (t0_0).succ from rfl]
    unfold Φ0
    have hi : idle0 10 (grid0.coords t0_0) = true := by decide +kernel
    have hf : (cfg0.win 10).flush t0_0 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_A c Set.univ (grid0.coords t0_0) _ _ _ _ _ _ _ _ _ _ _ _ _ _ _ _ _ _ _ _ _ _ _ _ _ _ _ _ ((hcondA t0_0).mpr (by decide +kernel)) ((hcondB t0_0).mpr (by decide +kernel)) (fun h => absurd ((hcondC t0_0).mp h) (by decide +kernel)) (fun h => absurd ((hcondD t0_0).mp h) (by decide +kernel)) (fun h => absurd ((hcondE t0_0).mp h) (by decide +kernel)) (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0) (iblk0 V c 9 t0_0) ((dat0 V c).before 10 t0_0 d10) a0 a1 a2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists (accM1 V c), a1, a2
        isplitr; · ipureintro; exact rfl
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 1
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_1).succ = (dat0 V c).owesAt () (t0_1).castSucc from rfl,
      show (dat0 V c).Φ (t0_1).castSucc = Φ0 V c (t0_1).castSucc from rfl, show (dat0 V c).Φ (t0_1).succ = Φ0 V c (t0_1).succ from rfl]
    unfold Φ0
    have hi : idle0 10 (grid0.coords t0_1) = true := by decide +kernel
    have hf : (cfg0.win 10).flush t0_1 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a0 = accM1 V c := hI
    subst hI'
    iapply (sound_kernel0_B c Set.univ (grid0.coords t0_1) _ _ _ _ _ _ _ _ _ _ _ _ _ _ _ _ _ _ _ _ _ _ _ _ _ _ _ _ (fun h => absurd ((hcondA t0_1).mp h) (by decide +kernel)) ((hcondB t0_1).mpr (by decide +kernel)) (fun h => absurd ((hcondC t0_1).mp h) (by decide +kernel)) (fun h => absurd ((hcondD t0_1).mp h) (by decide +kernel)) (fun h => absurd ((hcondE t0_1).mp h) (by decide +kernel)) (iblk0 V c 0 t0_1) (iblk0 V c 1 t0_1) (iblk0 V c 2 t0_1) (iblk0 V c 3 t0_1) (iblk0 V c 4 t0_1) (iblk0 V c 5 t0_1) (iblk0 V c 6 t0_1) (iblk0 V c 7 t0_1) (iblk0 V c 8 t0_1) (iblk0 V c 9 t0_1) ((dat0 V c).before 10 t0_1 d10) (accM1 V c) a1 a2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists (accM2 V c), a1, a2
        isplitr; · ipureintro; exact rfl
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 2
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_2).succ = (dat0 V c).owesAt () (t0_2).castSucc from rfl,
      show (dat0 V c).Φ (t0_2).castSucc = Φ0 V c (t0_2).castSucc from rfl, show (dat0 V c).Φ (t0_2).succ = Φ0 V c (t0_2).succ from rfl]
    unfold Φ0
    have hi : idle0 10 (grid0.coords t0_2) = true := by decide +kernel
    have hf : (cfg0.win 10).flush t0_2 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a0 = accM2 V c := hI
    subst hI'
    iapply (sound_kernel0_B c Set.univ (grid0.coords t0_2) _ _ _ _ _ _ _ _ _ _ _ _ _ _ _ _ _ _ _ _ _ _ _ _ _ _ _ _ (fun h => absurd ((hcondA t0_2).mp h) (by decide +kernel)) ((hcondB t0_2).mpr (by decide +kernel)) (fun h => absurd ((hcondC t0_2).mp h) (by decide +kernel)) (fun h => absurd ((hcondD t0_2).mp h) (by decide +kernel)) (fun h => absurd ((hcondE t0_2).mp h) (by decide +kernel)) (iblk0 V c 0 t0_2) (iblk0 V c 1 t0_2) (iblk0 V c 2 t0_2) (iblk0 V c 3 t0_2) (iblk0 V c 4 t0_2) (iblk0 V c 5 t0_2) (iblk0 V c 6 t0_2) (iblk0 V c 7 t0_2) (iblk0 V c 8 t0_2) (iblk0 V c 9 t0_2) ((dat0 V c).before 10 t0_2 d10) (accM2 V c) a1 a2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists (accM3 V c), a1, a2
        isplitr; · ipureintro; exact rfl
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 3
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_3).succ = (dat0 V c).owesAt () (t0_3).castSucc from rfl,
      show (dat0 V c).Φ (t0_3).castSucc = Φ0 V c (t0_3).castSucc from rfl, show (dat0 V c).Φ (t0_3).succ = Φ0 V c (t0_3).succ from rfl]
    unfold Φ0
    have hi : idle0 10 (grid0.coords t0_3) = true := by decide +kernel
    have hf : (cfg0.win 10).flush t0_3 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a0 = accM3 V c := hI
    subst hI'
    iapply (sound_kernel0_B c Set.univ (grid0.coords t0_3) _ _ _ _ _ _ _ _ _ _ _ _ _ _ _ _ _ _ _ _ _ _ _ _ _ _ _ _ (fun h => absurd ((hcondA t0_3).mp h) (by decide +kernel)) ((hcondB t0_3).mpr (by decide +kernel)) (fun h => absurd ((hcondC t0_3).mp h) (by decide +kernel)) (fun h => absurd ((hcondD t0_3).mp h) (by decide +kernel)) (fun h => absurd ((hcondE t0_3).mp h) (by decide +kernel)) (iblk0 V c 0 t0_3) (iblk0 V c 1 t0_3) (iblk0 V c 2 t0_3) (iblk0 V c 3 t0_3) (iblk0 V c 4 t0_3) (iblk0 V c 5 t0_3) (iblk0 V c 6 t0_3) (iblk0 V c 7 t0_3) (iblk0 V c 8 t0_3) (iblk0 V c 9 t0_3) ((dat0 V c).before 10 t0_3 d10) (accM3 V c) a1 a2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists (accM4 V c), a1, a2
        isplitr; · ipureintro; exact rfl
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 4
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_4).succ = (dat0 V c).owesAt () (t0_4).castSucc from rfl,
      show (dat0 V c).Φ (t0_4).castSucc = Φ0 V c (t0_4).castSucc from rfl, show (dat0 V c).Φ (t0_4).succ = Φ0 V c (t0_4).succ from rfl]
    unfold Φ0
    have hi : idle0 10 (grid0.coords t0_4) = true := by decide +kernel
    have hf : (cfg0.win 10).flush t0_4 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a0 = accM4 V c := hI
    subst hI'
    iapply (sound_kernel0_C c Set.univ (grid0.coords t0_4) _ _ _ _ _ _ _ _ _ _ _ _ _ _ _ _ _ _ _ _ _ _ _ _ _ _ _ _ (fun h => absurd ((hcondA t0_4).mp h) (by decide +kernel)) (fun h => absurd ((hcondB t0_4).mp h) (by decide +kernel)) ((hcondC t0_4).mpr (by decide +kernel)) ((hcondD t0_4).mpr (by decide +kernel)) (fun h => absurd ((hcondE t0_4).mp h) (by decide +kernel)) (iblk0 V c 0 t0_4) (iblk0 V c 1 t0_4) (iblk0 V c 2 t0_4) (iblk0 V c 3 t0_4) (iblk0 V c 4 t0_4) (iblk0 V c 5 t0_4) (iblk0 V c 6 t0_4) (iblk0 V c 7 t0_4) (iblk0 V c 8 t0_4) (iblk0 V c 9 t0_4) ((dat0 V c).before 10 t0_4 d10) (accM4 V c) a1 a2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists (accM4 V c), (accH1 V c), (commB V c)
        isplitr; · ipureintro; exact ⟨rfl, rfl⟩
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 5
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_5).succ = (dat0 V c).owesAt () (t0_5).castSucc from rfl,
      show (dat0 V c).Φ (t0_5).castSucc = Φ0 V c (t0_5).castSucc from rfl, show (dat0 V c).Φ (t0_5).succ = Φ0 V c (t0_5).succ from rfl]
    unfold Φ0
    have hi : idle0 10 (grid0.coords t0_5) = true := by decide +kernel
    have hf : (cfg0.win 10).flush t0_5 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a1 = accH1 V c ∧ a2 = commB V c := hI
    obtain ⟨rfl, rfl⟩ := hI'
    iapply (sound_kernel0_D c Set.univ (grid0.coords t0_5) _ _ _ _ _ _ _ _ _ _ _ _ _ _ _ _ _ _ _ _ _ _ _ _ _ _ _ _ (fun h => absurd ((hcondA t0_5).mp h) (by decide +kernel)) (fun h => absurd ((hcondB t0_5).mp h) (by decide +kernel)) (fun h => absurd ((hcondC t0_5).mp h) (by decide +kernel)) ((hcondD t0_5).mpr (by decide +kernel)) (fun h => absurd ((hcondE t0_5).mp h) (by decide +kernel)) (iblk0 V c 0 t0_5) (iblk0 V c 1 t0_5) (iblk0 V c 2 t0_5) (iblk0 V c 3 t0_5) (iblk0 V c 4 t0_5) (iblk0 V c 5 t0_5) (iblk0 V c 6 t0_5) (iblk0 V c 7 t0_5) (iblk0 V c 8 t0_5) (iblk0 V c 9 t0_5) ((dat0 V c).before 10 t0_5 d10) a0 (accH1 V c) (commB V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists a0, (accH2 V c), (commB V c)
        isplitr; · ipureintro; exact ⟨rfl, rfl⟩
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 6
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_6).succ = (dat0 V c).owesAt () (t0_6).castSucc from rfl,
      show (dat0 V c).Φ (t0_6).castSucc = Φ0 V c (t0_6).castSucc from rfl, show (dat0 V c).Φ (t0_6).succ = Φ0 V c (t0_6).succ from rfl]
    unfold Φ0
    have hi : idle0 10 (grid0.coords t0_6) = true := by decide +kernel
    have hf : (cfg0.win 10).flush t0_6 = false := by decide +kernel
    simp only [hf]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a1 = accH2 V c ∧ a2 = commB V c := hI
    obtain ⟨rfl, rfl⟩ := hI'
    iapply (sound_kernel0_D c Set.univ (grid0.coords t0_6) _ _ _ _ _ _ _ _ _ _ _ _ _ _ _ _ _ _ _ _ _ _ _ _ _ _ _ _ (fun h => absurd ((hcondA t0_6).mp h) (by decide +kernel)) (fun h => absurd ((hcondB t0_6).mp h) (by decide +kernel)) (fun h => absurd ((hcondC t0_6).mp h) (by decide +kernel)) ((hcondD t0_6).mpr (by decide +kernel)) (fun h => absurd ((hcondE t0_6).mp h) (by decide +kernel)) (iblk0 V c 0 t0_6) (iblk0 V c 1 t0_6) (iblk0 V c 2 t0_6) (iblk0 V c 3 t0_6) (iblk0 V c 4 t0_6) (iblk0 V c 5 t0_6) (iblk0 V c 6 t0_6) (iblk0 V c 7 t0_6) (iblk0 V c 8 t0_6) (iblk0 V c 9 t0_6) ((dat0 V c).before 10 t0_6 d10) a0 (accH2 V c) (commB V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists a0, (accH3 V c), (commB V c)
        isplitr; · ipureintro; exact ⟨rfl, rfl⟩
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · iexists _; iexact H10
    · rename_i h; exact absurd (h.symm.trans hi) (by decide)
  · -- point 7
    unfold bodyPre0 bodyPost0 bodyAt0
    simp only [before0_0, before0_1, before0_2, before0_3, before0_4, before0_5, before0_6, before0_7, before0_8, before0_9]
    rw [after0_0, after0_1, after0_2, after0_3, after0_4, after0_5, after0_6, after0_7, after0_8, after0_9]
    rw [show (dat0 V c).owesAt () (t0_7).succ = (dat0 V c).owesAt () (t0_7).castSucc from rfl,
      show (dat0 V c).Φ (t0_7).castSucc = Φ0 V c (t0_7).castSucc from rfl, show (dat0 V c).Φ (t0_7).succ = Φ0 V c (t0_7).succ from rfl]
    unfold Φ0
    have hi : idle0 10 (grid0.coords t0_7) = false := by decide +kernel
    rw [after0_10]
    iintro ⟨⟨⟨%a0, %a1, %a2, %hI, S0, S1, S2⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hI' : a1 = accH3 V c ∧ a2 = commB V c := hI
    obtain ⟨rfl, rfl⟩ := hI'
    iapply (sound_kernel0_E c Set.univ (grid0.coords t0_7) _ _ _ _ _ _ _ _ _ _ _ _ _ _ _ _ _ _ _ _ _ _ _ _ _ _ _ _ (fun h => absurd ((hcondA t0_7).mp h) (by decide +kernel)) (fun h => absurd ((hcondB t0_7).mp h) (by decide +kernel)) (fun h => absurd ((hcondC t0_7).mp h) (by decide +kernel)) ((hcondD t0_7).mpr (by decide +kernel)) ((hcondE t0_7).mpr (by decide +kernel)) (iblk0 V c 0 t0_7) (iblk0 V c 1 t0_7) (iblk0 V c 2 t0_7) (iblk0 V c 3 t0_7) (iblk0 V c 4 t0_7) (iblk0 V c 5 t0_7) (iblk0 V c 6 t0_7) (iblk0 V c 7 t0_7) (iblk0 V c 8 t0_7) (iblk0 V c 9 t0_7) ((dat0 V c).before 10 t0_7 d10) a0 (accH3 V c) (commB V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [S0 S1 S2 HR Hg]
    · isplitl [S0 S1 S2]
      · iexists a0, (accH4 V c), (commB V c)
        isplitr; · ipureintro; exact ⟨rfl, rfl⟩
        isplitl [S0]; · iexact S0
        isplitl [S1]; · iexact S1
        iexact S2
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    split
    · rename_i h; exact absurd (h.symm.trans hi) (by decide)
    · iexact H10

theorem body_obligation0 (c : Dev nD) : BodyObligation (dat0 (F := F) V c) (defs₀ (F := F)) Variants.none () Set.univ := fun t => by
  rw [bigSep_W0, bigSep_W0]
  exact sound_body0 V c t

end Body0

end Cert.KernelIdeal.Hand

end
-- ==== Proof.Region1.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The head pass (second pallas_call): what each output block holds after the body -/

abbrev rA : Rect S2048x128 := Rect.unit (s := S2048x128) ![0, 0] S2048x128.size inb_S2048x128_S2048x128_0_0
abbrev rH : Rect S1x128 := Rect.unit (s := S1x128) ![0, 0] S1x128.size inb_S1x128_S1x128_0_0
abbrev rW : Rect S128x12 := Rect.unit (s := S128x12) ![0, 0] S128x12.size inb_S128x12_S128x12_0_0
abbrev rB : Rect S1x12 := Rect.unit (s := S1x12) ![0, 0] S1x12.size inb_S1x12_S1x12_0_0
abbrev rP : Rect S2048x8 := Rect.unit (s := S2048x8) ![0, 0] S2048x8.size inb_S2048x8_S2048x8_0_0
abbrev rV : Rect S2048x1 := Rect.unit (s := S2048x1) ![0, 0] S2048x1.size inb_S2048x1_S2048x1_0_0
abbrev rR : Rect S2048x3 := Rect.unit (s := S2048x3) ![0, 0] S2048x3.size inb_S2048x3_S2048x3_0_0

/-- The normalised rows: the block the body stores into the first output. -/
def headH (x0 : Vec F S1x128 .f32) (x1 : Vec F S2048x128 .f32) : Vec F S2048x128 .f32 :=
  View.canon [⟨rA, k1_pay2 (View.ld x1 rA) (View.ld x0 rH)⟩]
/-- The policy block. -/
def headP (x0 : Vec F S1x128 .f32) (x1 : Vec F S2048x128 .f32) (x2 : Vec F S128x12 .f32) (x3 : Vec F S1x12 .f32) : Vec F S2048x8 .f32 :=
  View.canon [⟨rP, k1_pay4 (View.ld x1 rA) (View.ld x0 rH) (View.ld x2 rW) (View.ld x3 rB)⟩]
/-- The value block. -/
def headV (x0 : Vec F S1x128 .f32) (x1 : Vec F S2048x128 .f32) (x2 : Vec F S128x12 .f32) (x3 : Vec F S1x12 .f32) : Vec F S2048x1 .f32 :=
  View.canon [⟨rV, k1_pay5 (View.ld x1 rA) (View.ld x0 rH) (View.ld x2 rW) (View.ld x3 rB)⟩]
/-- The role-probability block. -/
def headR (x0 : Vec F S1x128 .f32) (x1 : Vec F S2048x128 .f32) (x2 : Vec F S128x12 .f32) (x3 : Vec F S1x12 .f32) : Vec F S2048x3 .f32 :=
  View.canon [⟨rR, k1_pay1 (k1_pay6 (View.ld x1 rA) (View.ld x0 rH) (View.ld x2 rW) (View.ld x3 rB)) (k1_pay7 (View.ld x1 rA) (View.ld x0 rH) (View.ld x2 rW) (View.ld x3 rB))⟩]

theorem coverA (p0 : Vec F S2048x128 .f32) (y : S2048x128.Idx) :
    ∃ pc ∈ ([⟨rA, p0⟩] : List (View.Piece (Elt F) S2048x128 .f32)), y ∈ pc.1.set :=
  View.cover_of_tiled [⟨rA, p0⟩] S2048x128.size (by rfl) y
theorem coverP (p0 : Vec F S2048x8 .f32) (y : S2048x8.Idx) :
    ∃ pc ∈ ([⟨rP, p0⟩] : List (View.Piece (Elt F) S2048x8 .f32)), y ∈ pc.1.set :=
  View.cover_of_tiled [⟨rP, p0⟩] S2048x8.size (by rfl) y
theorem coverV (p0 : Vec F S2048x1 .f32) (y : S2048x1.Idx) :
    ∃ pc ∈ ([⟨rV, p0⟩] : List (View.Piece (Elt F) S2048x1 .f32)), y ∈ pc.1.set :=
  View.cover_of_tiled [⟨rV, p0⟩] S2048x1.size (by rfl) y
theorem coverR (p0 : Vec F S2048x3 .f32) (y : S2048x3.Idx) :
    ∃ pc ∈ ([⟨rR, p0⟩] : List (View.Piece (Elt F) S2048x3 .f32)), y ∈ pc.1.set :=
  View.cover_of_tiled [⟨rR, p0⟩] S2048x3.size (by rfl) y

set_option maxHeartbeats 1000000 in
/-- The head body on whole staging memrefs: the inputs stay, each output's buffer ends at its block. -/
theorem sound_kernel1 (c : Dev nD) (E : Set ℕ) (i : grid1.Coords)
    (arg1 : Memref sig .tc .vmem S1x128 .f32) (harg1 : arg1.IsWhole) (arg2 : Memref sig .tc .vmem S2048x128 .f32) (harg2 : arg2.IsWhole)
    (arg3 : Memref sig .tc .vmem S128x12 .f32) (harg3 : arg3.IsWhole) (arg4 : Memref sig .tc .vmem S1x12 .f32) (harg4 : arg4.IsWhole)
    (arg5 : Memref sig .tc .vmem S2048x128 .f32) (harg5 : arg5.IsWhole) (arg6 : Memref sig .tc .vmem S2048x8 .f32) (harg6 : arg6.IsWhole)
    (arg7 : Memref sig .tc .vmem S2048x1 .f32) (harg7 : arg7.IsWhole) (arg8 : Memref sig .tc .vmem S2048x3 .f32) (harg8 : arg8.IsWhole)
    (x0 : Vec F S1x128 .f32) (x1 : Vec F S2048x128 .f32) (x2 : Vec F S128x12 .f32) (x3 : Vec F S1x12 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (headH x0 x1) ∗ owns (c : Thread nD τ) arg6 fullShare (headP x0 x1 x2 x3)
            ∗ owns (c : Thread nD τ) arg7 fullShare (headV x0 x1 x2 x3) ∗ owns (c : Thread nD τ) arg8 fullShare (headR x0 x1 x2 x3)) -∗ K ⟨⟩))
      ⊢ wp frame (wpE (defs₀ (F := F)) Variants.none c none) E (cc1__pass3_kernel i arg1 harg1 arg2 harg2 arg3 harg3 arg4 harg4 arg5 harg5 arg6 harg6 arg7 harg7 arg8 harg8) K := by
  simp only [cc1__pass3_kernel_eq_skeleton]; unfold cc1__pass3_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverA _)
  isplitl [H5]
  · iexists _; isplitr
    swap; · iexact H5
    ipureintro
    exact View.read_writes_eq_canon _ _ _ (coverP _)
  isplitl [H6]
  · iexists _; isplitr
    swap; · iexact H6
    ipureintro
    exact View.read_writes_eq_canon _ _ _ (coverV _)
  iexists _; isplitr
  swap; · iexact H7
  ipureintro
  exact View.read_writes_eq_canon _ _ _ (coverR _)

/-! ## The proof data of the head pass, at the buffer contents `V` the region is entered with -/

section Data
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of the head pass on core `c`: inputs stay at their blocks, each output's buffer ends at its block of the
    input blocks; the invariant is the scoped rest and the generator register, untouched. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => headH (iblk1 V c 0 t) (iblk1 V c 1 t)
    | ⟨5, _⟩ => headP (iblk1 V c 0 t) (iblk1 V c 1 t) (iblk1 V c 2 t) (iblk1 V c 3 t)
    | ⟨6, _⟩ => headV (iblk1 V c 0 t) (iblk1 V c 1 t) (iblk1 V c 2 t) (iblk1 V c 3 t)
    | ⟨7, _⟩ => headR (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = headH (iblk1 V c 0 t) (iblk1 V c 1 t) := by dsimp only [dat1]
theorem after1_5 (c : Dev nD) (t : Fin cfg1.N) : (dat1 V c).after 5 t = headP (iblk1 V c 0 t) (iblk1 V c 1 t) (iblk1 V c 2 t) (iblk1 V c 3 t) := by dsimp only [dat1]
theorem after1_6 (c : Dev nD) (t : Fin cfg1.N) : (dat1 V c).after 6 t = headV (iblk1 V c 0 t) (iblk1 V c 1 t) (iblk1 V c 2 t) (iblk1 V c 3 t) := by dsimp only [dat1]
theorem after1_7 (c : Dev nD) (t : Fin cfg1.N) : (dat1 V c).after 7 t = headR (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Data

end Cert.KernelIdeal.Hand

end
-- ==== Proof.KernelRun.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.Gen.KernelIdeal.Regions
import proofs.«104509_j22625887715845_2_alg».proof.Proof.Region0Body
import proofs.«104509_j22625887715845_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The whole program as four segments: host operations, the reduction pass, host operations, the head pass -/

variable (m : (ℓ : Loc nD τ sig) → Buf (Elt F) ℓ) (ρ : Dev nD → PrngReg)

/-- The buffer contents at launch, -/
abbrev B0 : Dev nD → Valuation τ sig (Elt F) := fun c b => m (c, b)
/-- after the first stretch of host operations (the two slices of the first weight and the bias rows), -/
abbrev B1 : Dev nD → Valuation τ sig (Elt F) := fun c => StableHlo.after hostOps0 (B0 m c)
abbrev U1 : (c : Dev nD) → (b : Ref sig .tc) → Buf (Elt F) ((c : Thread nD τ).loc b) := fun c b => B1 m c b
/-- after the reduction pass: its arrays at what its write-backs leave, every other buffer as entered, -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)
/-- after the second stretch of host operations (the three head weights and biases joined), -/
abbrev B3 : Dev nD → Valuation τ sig (Elt F) := fun c => StableHlo.after hostOps1 (B2 m c)
abbrev U3 : (c : Dev nD) → (b : Ref sig .tc) → Buf (Elt F) ((c : Thread nD τ).loc b) := fun c b => B3 m c b
/-- and after the head pass. -/
def B4 (c : Dev nD) : Valuation τ sig (Elt F) :=
  Pipeline.withArrays spec1 c (B3 m c) fun w => (dat1 (U3 m) c).arrAt w cfg1.N
theorem B4_arr (c : Dev nD) (w : Fin cfg1.W) :
    B4 m c (Proc.devRef .tc (Pipeline.arrRef spec1 w)) = (dat1 (U3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev U4 : (c : Dev nD) → (b : Ref sig .tc) → Buf (Elt F) ((c : Thread nD τ).loc b) := fun c b => B4 m c b
theorem hF1 (c : Dev nD) (w : Fin cfg1.W) : (dat1 (U3 m) c).arrAt w cfg1.N = U4 m c (Pipeline.arrRef spec1 w) :=
  (B4_arr m c w).symm
theorem hrest1 (c : Dev nD) : ∀ b, b ∉ Finset.univ.image (Pipeline.arrRef spec1) → U4 m c b = U3 m c b :=
  fun b hb => B4_of_ne m c b fun w e => hb (Finset.mem_image.mpr ⟨w, Finset.mem_univ _, e⟩)

/-! ### Every argument array ends as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_of_ne m c main_arg0 (by decide)
    _ = B2 m c (Proc.devRef .tc main_arg0) := StableHlo.after_of_writes_sub hostOps1 _ hostOps1_writes (by decide)
    _ = B1 m c (Proc.devRef .tc main_arg0) := (B2_arr m c 0).trans (((dat0 (U1 m) c).arrAt_in 0 rfl _).trans (A_eq0 (U1 m) c 0))
    _ = B0 m c (Proc.devRef .tc main_arg0) := StableHlo.after_of_writes_sub hostOps0 _ hostOps0_writes (by decide)
    _ = m ((c : Thread nD τ).loc main_arg0) := rfl
theorem B4_main_arg1 (c : Dev nD) : B4 m c (Proc.devRef .tc main_arg1) = m ((c : Thread nD τ).loc main_arg1) :=
  calc B4 m c (Proc.devRef .tc main_arg1)
    _ = B3 m c (Proc.devRef .tc main_arg1) := (B4_arr m c 1).trans (((dat1 (U3 m) c).arrAt_in 1 rfl _).trans (A_eq1 (U3 m) c 1))
    _ = B2 m c (Proc.devRef .tc main_arg1) := StableHlo.after_of_writes_sub hostOps1 _ hostOps1_writes (by decide)
    _ = B1 m c (Proc.devRef .tc main_arg1) := B2_of_ne m c main_arg1 (by decide)
    _ = B0 m c (Proc.devRef .tc main_arg1) := StableHlo.after_of_writes_sub hostOps0 _ hostOps0_writes (by decide)
    _ = m ((c : Thread nD τ).loc main_arg1) := rfl
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := StableHlo.after_of_writes_sub hostOps1 _ hostOps1_writes (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := StableHlo.after_of_writes_sub hostOps1 _ hostOps1_writes (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl
theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_of_ne m c main_arg4 (by decide)
    _ = B2 m c (Proc.devRef .tc main_arg4) := StableHlo.after_of_writes_sub hostOps1 _ hostOps1_writes (by decide)
    _ = B1 m c (Proc.devRef .tc main_arg4) := (B2_arr m c 4).trans (((dat0 (U1 m) c).arrAt_in 4 rfl _).trans (A_eq0 (U1 m) c 4))
    _ = B0 m c (Proc.devRef .tc main_arg4) := StableHlo.after_of_writes_sub hostOps0 _ hostOps0_writes (by decide)
    _ = m ((c : Thread nD τ).loc main_arg4) := rfl
theorem B4_main_arg5 (c : Dev nD) : B4 m c (Proc.devRef .tc main_arg5) = m ((c : Thread nD τ).loc main_arg5) :=
  calc B4 m c (Proc.devRef .tc main_arg5)
    _ = B3 m c (Proc.devRef .tc main_arg5) := B4_of_ne m c main_arg5 (by decide)
    _ = B2 m c (Proc.devRef .tc main_arg5) := StableHlo.after_of_writes_sub hostOps1 _ hostOps1_writes (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl
theorem B4_main_arg6 (c : Dev nD) : B4 m c (Proc.devRef .tc main_arg6) = m ((c : Thread nD τ).loc main_arg6) :=
  calc B4 m c (Proc.devRef .tc main_arg6)
    _ = B3 m c (Proc.devRef .tc main_arg6) := B4_of_ne m c main_arg6 (by decide)
    _ = B2 m c (Proc.devRef .tc main_arg6) := StableHlo.after_of_writes_sub hostOps1 _ hostOps1_writes (by decide)
    _ = B1 m c (Proc.devRef .tc main_arg6) := (B2_arr m c 6).trans (((dat0 (U1 m) c).arrAt_in 6 rfl _).trans (A_eq0 (U1 m) c 6))
    _ = B0 m c (Proc.devRef .tc main_arg6) := StableHlo.after_of_writes_sub hostOps0 _ hostOps0_writes (by decide)
    _ = m ((c : Thread nD τ).loc main_arg6) := rfl
theorem B4_main_arg7 (c : Dev nD) : B4 m c (Proc.devRef .tc main_arg7) = m ((c : Thread nD τ).loc main_arg7) :=
  calc B4 m c (Proc.devRef .tc main_arg7)
    _ = B3 m c (Proc.devRef .tc main_arg7) := B4_of_ne m c main_arg7 (by decide)
    _ = B2 m c (Proc.devRef .tc main_arg7) := StableHlo.after_of_writes_sub hostOps1 _ hostOps1_writes (by decide)
    _ = B1 m c (Proc.devRef .tc main_arg7) := B2_of_ne m c main_arg7 (by decide)
    _ = B0 m c (Proc.devRef .tc main_arg7) := StableHlo.after_of_writes_sub hostOps0 _ hostOps0_writes (by decide)
    _ = m ((c : Thread nD τ).loc main_arg7) := rfl
theorem B4_main_arg8 (c : Dev nD) : B4 m c (Proc.devRef .tc main_arg8) = m ((c : Thread nD τ).loc main_arg8) :=
  calc B4 m c (Proc.devRef .tc main_arg8)
    _ = B3 m c (Proc.devRef .tc main_arg8) := B4_of_ne m c main_arg8 (by decide)
    _ = B2 m c (Proc.devRef .tc main_arg8) := StableHlo.after_of_writes_sub hostOps1 _ hostOps1_writes (by decide)
    _ = B1 m c (Proc.devRef .tc main_arg8) := (B2_arr m c 8).trans (((dat0 (U1 m) c).arrAt_in 8 rfl _).trans (A_eq0 (U1 m) c 8))
    _ = B0 m c (Proc.devRef .tc main_arg8) := StableHlo.after_of_writes_sub hostOps0 _ hostOps0_writes (by decide)
    _ = m ((c : Thread nD τ).loc main_arg8) := rfl
theorem B4_main_arg9 (c : Dev nD) : B4 m c (Proc.devRef .tc main_arg9) = m ((c : Thread nD τ).loc main_arg9) :=
  calc B4 m c (Proc.devRef .tc main_arg9)
    _ = B3 m c (Proc.devRef .tc main_arg9) := B4_of_ne m c main_arg9 (by decide)
    _ = B2 m c (Proc.devRef .tc main_arg9) := StableHlo.after_of_writes_sub hostOps1 _ hostOps1_writes (by decide)
    _ = B1 m c (Proc.devRef .tc main_arg9) := B2_of_ne m c main_arg9 (by decide)
    _ = B0 m c (Proc.devRef .tc main_arg9) := StableHlo.after_of_writes_sub hostOps0 _ hostOps0_writes (by decide)
    _ = m ((c : Thread nD τ).loc main_arg9) := rfl
theorem B4_main_arg10 (c : Dev nD) : B4 m c (Proc.devRef .tc main_arg10) = m ((c : Thread nD τ).loc main_arg10) :=
  calc B4 m c (Proc.devRef .tc main_arg10)
    _ = B3 m c (Proc.devRef .tc main_arg10) := B4_of_ne m c main_arg10 (by decide)
    _ = B2 m c (Proc.devRef .tc main_arg10) := StableHlo.after_of_writes_sub hostOps1 _ hostOps1_writes (by decide)
    _ = B1 m c (Proc.devRef .tc main_arg10) := B2_of_ne m c main_arg10 (by decide)
    _ = B0 m c (Proc.devRef .tc main_arg10) := StableHlo.after_of_writes_sub hostOps0 _ hostOps0_writes (by decide)
    _ = m ((c : Thread nD τ).loc main_arg10) := rfl
theorem B4_main_arg11 (c : Dev nD) : B4 m c (Proc.devRef .tc main_arg11) = m ((c : Thread nD τ).loc main_arg11) :=
  calc B4 m c (Proc.devRef .tc main_arg11)
    _ = B3 m c (Proc.devRef .tc main_arg11) := B4_of_ne m c main_arg11 (by decide)
    _ = B2 m c (Proc.devRef .tc main_arg11) := StableHlo.after_of_writes_sub hostOps1 _ hostOps1_writes (by decide)
    _ = B1 m c (Proc.devRef .tc main_arg11) := B2_of_ne m c main_arg11 (by decide)
    _ = B0 m c (Proc.devRef .tc main_arg11) := StableHlo.after_of_writes_sub hostOps0 _ hostOps0_writes (by decide)
    _ = m ((c : Thread nD τ).loc main_arg11) := rfl
theorem B4_main_arg12 (c : Dev nD) : B4 m c (Proc.devRef .tc main_arg12) = m ((c : Thread nD τ).loc main_arg12) :=
  calc B4 m c (Proc.devRef .tc main_arg12)
    _ = B3 m c (Proc.devRef .tc main_arg12) := B4_of_ne m c main_arg12 (by decide)
    _ = B2 m c (Proc.devRef .tc main_arg12) := StableHlo.after_of_writes_sub hostOps1 _ hostOps1_writes (by decide)
    _ = B1 m c (Proc.devRef .tc main_arg12) := B2_of_ne m c main_arg12 (by decide)
    _ = B0 m c (Proc.devRef .tc main_arg12) := StableHlo.after_of_writes_sub hostOps0 _ hostOps0_writes (by decide)
    _ = m ((c : Thread nD τ).loc main_arg12) := rfl
theorem B4_main_arg13 (c : Dev nD) : B4 m c (Proc.devRef .tc main_arg13) = m ((c : Thread nD τ).loc main_arg13) :=
  calc B4 m c (Proc.devRef .tc main_arg13)
    _ = B3 m c (Proc.devRef .tc main_arg13) := B4_of_ne m c main_arg13 (by decide)
    _ = B2 m c (Proc.devRef .tc main_arg13) := StableHlo.after_of_writes_sub hostOps1 _ hostOps1_writes (by decide)
    _ = B1 m c (Proc.devRef .tc main_arg13) := B2_of_ne m c main_arg13 (by decide)
    _ = B0 m c (Proc.devRef .tc main_arg13) := StableHlo.after_of_writes_sub hostOps0 _ hostOps0_writes (by decide)
    _ = m ((c : Thread nD τ).loc main_arg13) := rfl
theorem B4_main_arg14 (c : Dev nD) : B4 m c (Proc.devRef .tc main_arg14) = m ((c : Thread nD τ).loc main_arg14) :=
  calc B4 m c (Proc.devRef .tc main_arg14)
    _ = B3 m c (Proc.devRef .tc main_arg14) := B4_of_ne m c main_arg14 (by decide)
    _ = B2 m c (Proc.devRef .tc main_arg14) := StableHlo.after_of_writes_sub hostOps1 _ hostOps1_writes (by decide)
    _ = B1 m c (Proc.devRef .tc main_arg14) := B2_of_ne m c main_arg14 (by decide)
    _ = B0 m c (Proc.devRef .tc main_arg14) := StableHlo.after_of_writes_sub hostOps0 _ hostOps0_writes (by decide)
    _ = m ((c : Thread nD τ).loc main_arg14) := rfl
theorem B4_main_arg15 (c : Dev nD) : B4 m c (Proc.devRef .tc main_arg15) = m ((c : Thread nD τ).loc main_arg15) :=
  calc B4 m c (Proc.devRef .tc main_arg15)
    _ = B3 m c (Proc.devRef .tc main_arg15) := B4_of_ne m c main_arg15 (by decide)
    _ = B2 m c (Proc.devRef .tc main_arg15) := StableHlo.after_of_writes_sub hostOps1 _ hostOps1_writes (by decide)
    _ = B1 m c (Proc.devRef .tc main_arg15) := B2_of_ne m c main_arg15 (by decide)
    _ = B0 m c (Proc.devRef .tc main_arg15) := StableHlo.after_of_writes_sub hostOps0 _ hostOps0_writes (by decide)
    _ = m ((c : Thread nD τ).loc main_arg15) := rfl

/-! ## The proof data family and the thread state -/

abbrev padm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) padm p) c
  | ⟨0, _⟩ => fun c => dat0 (U1 m) c
  | ⟨1, _⟩ => fun c => dat1 (U3 m) c
abbrev 𝒱₀ : Variants := Variants.none
abbrev LL : GSem nD τ sig → Finset Unit := fun _ => ∅
abbrev lvl : GSem nD τ sig → Unit → ℕ := fun _ _ => 0
/-- What rides beside the buffers through every segment: the generator register at some state, and nothing owed. -/
abbrev RR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ LL lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m c) ∗ ∃ r, prngReg c r)

/-! ## The regions as segments -/

set_option backward.isDefEq.respectTransparency.types false in
/-- The reduction pass: its arrays split out of the unscoped buffers and put back at the exit contents; the generator
    register and the scoped buffers no window stages (the three carried buffers among them, at any contents) into its
    invariant and out. -/
def reg0 : Pipeline.RegionSeg (pcfgs (F := F)) padm (pdats m) () defs₀ 𝒱₀ LL lvl 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LL lvl 0 fun _ _ => rfl
  pre c := iprop(StableHlo.held (c : Thread nD τ) (Pipeline.ucRefs τ sig) (B1 m c) ∗ RR c)
  post c := iprop(StableHlo.held (c : Thread nD τ) (Pipeline.ucRefs τ sig) (B2 m c) ∗ RR c)
  X c := iprop(∃ r, prngReg c r)
  Y c := iprop(∃ r, prngReg c r)
  Z c := Pipeline.unscopedRest (Ix := Unit) (Name := ℕ) (U := Pipeline.UD sig nD τ) (Lvl := ℕ) spec0 c (U1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest0_eq (Ix := Unit) (Val := Elt F) (Name := ℕ) (U := Pipeline.UD sig nD τ) (Lvl := ℕ) c
    rw [show (pdats m 0 c).Φ 0 = Φ0 (U1 m) c 0 from rfl]; unfold Φ0 others0
    simp only [scM0, scM1, scM2, owns_whole]
    iintro ⟨Hp, -, Hr⟩
    ihave Hr' := (Entails.of_eq hs) $$ Hr
    icases Hr' with ⟨⟨%f0, S0⟩, ⟨%f1, S1⟩, ⟨%f2, S2⟩, HR⟩
    isplitl [S0 S1 S2]
    · iexists f0, f1, f2
      isplitr; · ipureintro; trivial
      isplitl [S0]; · iexact S0
      isplitl [S1]; · iexact S1
      iexact S2
    isplitl [HR]; · iexact HR
    iexact Hp
  hout c := by
    have hs := scopedRest0_eq (Ix := Unit) (Val := Elt F) (Name := ℕ) (U := Pipeline.UD sig nD τ) (Lvl := ℕ) c
    rw [Pipeline.ownSems0_none, show (pdats m 0 c).Φ (Fin.last _) = Φ0 (U1 m) c (Fin.last _) from rfl]; unfold Φ0 others0
    simp only [scM0, scM1, scM2, owns_whole]
    iintro ⟨⟨%a0, %a1, %a2, -, S0, S1, S2⟩, HR, Hp⟩
    isplitl [Hp]; · iexact Hp
    isplitr; · iempintro
    iapply (Entails.of_eq hs.symm)
    isplitl [S0]; · iexists a0; iexact S0
    isplitl [S1]; · iexists a1; iexact S1
    isplitl [S2]; · iexists a2; iexact S2
    iexact HR
  hexit c := by
    have hjoin := Pipeline.unscopedBufs_of_arrays (p := 0) (pcfgs (F := F)) padm (Ix := Unit) (Name := ℕ) (U := Pipeline.UD sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head pass, likewise; its invariant is the scoped rest and the generator register. -/
def reg1 : Pipeline.RegionSeg (pcfgs (F := F)) padm (pdats m) () defs₀ 𝒱₀ LL lvl 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LL lvl 1 fun _ _ => rfl
  pre c := iprop(StableHlo.held (c : Thread nD τ) (Pipeline.ucRefs τ sig) (B3 m c) ∗ RR c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (U3 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := Pipeline.UD sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

abbrev psegs : List (Pipeline.Seg (pcfgs (F := F)) padm (pdats m) () defs₀ 𝒱₀ LL lvl) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (psegs m) := (main_chain c).trans (by chain_rfl)

set_option backward.isDefEq.respectTransparency.types false in
/-- Every weakly fair execution of the program terminates, nothing faulting, and every unscoped buffer ends at what the
    four segments, folded over the launch memory, leave in it. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = B4 m c (Proc.devRef .tc b)) :=
  Pipeline.θ_run_regions_kit (pcfgs (F := F)) padm (pdats m) () cellOf_inj embL defs₀ 𝒱₀ LL lvl m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RR c)) (Tₙ := Tend m)
    (hch := ⟨fun _ => .rfl, fun _ => .rfl, fun _ => .rfl, fun _ => .rfl, fun _ => .rfl⟩)
    (hinit := by
      refine Pipeline.initEach LL lvl fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c b hb => h c _ (mem_uc b hb))

end Cert.KernelIdeal.Hand

end
-- ==== Proof.EntryArrays.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.KernelRun
import Idealize.ShloMosaic.Lib.StableHlo.Run
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx

variable {F : FTy → Type} [FloatOps F]

local notation "𝕄" => MT nD τ sig Unit (Elt F) ℕ (Pipeline.UD sig nD τ) ℕ

/-! # What each window's array holds when its region is entered, from the launch memory -/

variable (m : (ℓ : Loc nD τ sig) → Buf (Elt F) ℓ)

theorem U1_keep (c : Dev nD) (b : Ref sig .tc) (h : b ∉ hostOps0_W) : U1 m c b = m ((c : Thread nD τ).loc b) :=
  StableHlo.after_of_writes_sub hostOps0 _ hostOps0_writes h

/-- The upper 64 and the lower 32 rows of the first weight; the four bias vectors as one-row arrays. -/
theorem U1_v0 (c : Dev nD) : (U1 m c main_v0 : S64x128.Idx → Elt F .f32)
    = extractStridedSlice S64x128 ![0, 0] (m ((c : Thread nD τ).loc main_arg2)) slices_S96x128_S64x128_0_0 := by
  show StableHlo.after hostOps0 (B0 m c) (Proc.devRef .tc main_v0) = _
  after_results <;> rfl
theorem U1_v1 (c : Dev nD) : (U1 m c main_v1 : S32x128.Idx → Elt F .f32)
    = extractStridedSlice S32x128 ![64, 0] (m ((c : Thread nD τ).loc main_arg2)) slices_S96x128_S32x128_64_0 := by
  show StableHlo.after hostOps0 (B0 m c) (Proc.devRef .tc main_v1) = _
  after_results <;> rfl
theorem U1_v2 (c : Dev nD) : (U1 m c main_v2 : S1x128.Idx → Elt F .f32)
    = shapeCast S1x128 (m ((c : Thread nD τ).loc main_arg3)) shapeCasts_S128_S1x128 := by
  show StableHlo.after hostOps0 (B0 m c) (Proc.devRef .tc main_v2) = _
  after_results <;> rfl
theorem U1_v3 (c : Dev nD) : (U1 m c main_v3 : S1x128.Idx → Elt F .f32)
    = shapeCast S1x128 (m ((c : Thread nD τ).loc main_arg5)) shapeCasts_S128_S1x128 := by
  show StableHlo.after hostOps0 (B0 m c) (Proc.devRef .tc main_v3) = _
  after_results <;> rfl
theorem U1_v4 (c : Dev nD) : (U1 m c main_v4 : S1x32.Idx → Elt F .f32)
    = shapeCast S1x32 (m ((c : Thread nD τ).loc main_arg7)) shapeCasts_S32_S1x32 := by
  show StableHlo.after hostOps0 (B0 m c) (Proc.devRef .tc main_v4) = _
  after_results <;> rfl
theorem U1_v5 (c : Dev nD) : (U1 m c main_v5 : S1x128.Idx → Elt F .f32)
    = shapeCast S1x128 (m ((c : Thread nD τ).loc main_arg9)) shapeCasts_S128_S1x128 := by
  show StableHlo.after hostOps0 (B0 m c) (Proc.devRef .tc main_v5) = _
  after_results <;> rfl

/-- A buffer neither region 0 nor the first host stretch writes. -/
theorem B2_launch (c : Dev nD) (b : Ref sig .tc) (h1 : ∀ w, Pipeline.arrRef spec0 w ≠ b) (h0 : b ∉ hostOps0_W) :
    B2 m c (Proc.devRef .tc b) = m ((c : Thread nD τ).loc b) :=
  (B2_of_ne m c b h1).trans (U1_keep m c b h0)

theorem U3_keep (c : Dev nD) (b : Ref sig .tc) (h : b ∉ hostOps1_W) : U3 m c b = B2 m c (Proc.devRef .tc b) :=
  StableHlo.after_of_writes_sub hostOps1 _ hostOps1_writes h
theorem U3_arg1 (c : Dev nD) : U3 m c main_arg1 = m ((c : Thread nD τ).loc main_arg1) :=
  (U3_keep m c main_arg1 (by decide)).trans (B2_launch m c main_arg1 (by decide) (by decide))
theorem U3_v6 (c : Dev nD) : U3 m c main_v6 = (dat0 (U1 m) c).arrAt 10 cfg0.N :=
  (U3_keep m c main_v6 (by decide)).trans (B2_arr m c 10)

/-- The three head weights side by side, and the three head biases side by side as one row. -/
theorem U3_v7 (c : Dev nD) : (U3 m c main_v7 : S128x12.Idx → Elt F .f32)
    = concatenate S128x12 1 [⟨S128x8, m ((c : Thread nD τ).loc main_arg10)⟩, ⟨S128x1, m ((c : Thread nD τ).loc main_arg12)⟩,
        ⟨S128x3, m ((c : Thread nD τ).loc main_arg14)⟩] concatenates_S128x8_S128x1_S128x3_S128x12_d1 := by
  rw [← B2_launch m c main_arg10 (by decide) (by decide), ← B2_launch m c main_arg12 (by decide) (by decide),
    ← B2_launch m c main_arg14 (by decide) (by decide)]
  show StableHlo.after hostOps1 (B2 m c) (Proc.devRef .tc main_v7) = _
  after_results <;> rfl
theorem U3_v11 (c : Dev nD) : (U3 m c main_v11 : S1x12.Idx → Elt F .f32)
    = concatenate S1x12 1 [⟨S1x8, shapeCast S1x8 (m ((c : Thread nD τ).loc main_arg11)) shapeCasts_S8_S1x8⟩,
        ⟨S1x1, shapeCast S1x1 (m ((c : Thread nD τ).loc main_arg13)) shapeCasts_S1_S1x1⟩,
        ⟨S1x3, shapeCast S1x3 (m ((c : Thread nD τ).loc main_arg15)) shapeCasts_S3_S1x3⟩] concatenates_S1x8_S1x1_S1x3_S1x12_d1 := by
  rw [← B2_launch m c main_arg11 (by decide) (by decide), ← B2_launch m c main_arg13 (by decide) (by decide),
    ← B2_launch m c main_arg15 (by decide) (by decide)]
  show StableHlo.after hostOps1 (B2 m c) (Proc.devRef .tc main_v11) = _
  after_results <;> rfl

end Cert.KernelIdeal.Hand

end
-- ==== Proof.Spec.lean ====
/-
  The multi-agent step as one function of its sixteen argument arrays, over the extended reals, index by index.

  Every agent's state row goes through a two-layer perceptron (with no incoming message), is projected to a message and
  normalised to unit length; the messages' mean over all agents, through the lower rows of the first weight, becomes a bias
  of a second pass of the perceptron; the mean of the second pass's rows goes through the graph layer; that one row, perturbed
  per agent by scaled noise and normalised, is the first result, and three linear heads of it (a tanh policy, a value, a
  softmax over three roles) are the others.
-/
import Idealize.ShloMosaic.PureOps.Ideal
import Idealize.ShloMosaic.Lib.ValueIdx

noncomputable section

namespace Cert.Spec

open Idealize.ShloMosaic Idealize.ShloMosaic.ValueIdx

abbrev A2 (a b : Nat) : Type := (⟨2, ![a, b]⟩ : Shape).Idx → EReal
abbrev A1 (a : Nat) : Type := (⟨1, ![a]⟩ : Shape).Idx → EReal

/-- The norm's floor and the noise scale, as the words both programs carry; the reciprocal of the agent count. -/
abbrev eps : EReal := Ideal.ofBits .f32 0x2B8CBCCC#32
abbrev noiseScale : EReal := Ideal.ofBits .f32 0x3C23D70A#32
abbrev invN : EReal := ((1 / 8192 : ℝ) : EReal)

section
variable (st : A2 8192 64) (nz : A2 8192 128) (W1 : A2 96 128) (b1 : A1 128) (W2 : A2 128 128) (b2 : A1 128)
  (Wc : A2 128 32) (bc : A1 32) (Wg : A2 128 128) (bg : A1 128) (Wp : A2 128 8) (bp : A1 8) (Wv : A2 128 1) (bv : A1 1)
  (Wr : A2 128 3) (br : A1 3)

/-- The first layer before its relu, from the state alone: the state row times the upper 64 rows of the first weight, plus the bias. -/
def lin1 (r : Fin 8192) (j : Fin 128) : EReal :=
  (∑ k : Fin 64, st (ix2 r k) * W1 (ix2 (Fin.castLE (by decide) k) j)) + b1 (ix1 j)
/-- The perceptron with no incoming message. -/
def hid0 (r : Fin 8192) (j : Fin 128) : EReal :=
  (∑ k : Fin 128, max (lin1 st W1 b1 r k) 0 * W2 (ix2 k j)) + b2 (ix1 j)
/-- The message before normalisation, its norm floored, the message. -/
def msgPre (r : Fin 8192) (q : Fin 32) : EReal :=
  (∑ k : Fin 128, hid0 st W1 b1 W2 b2 r k * Wc (ix2 k q)) + bc (ix1 q)
def msgNorm (r : Fin 8192) : EReal :=
  max (Ideal.sqrt (∑ q : Fin 32, msgPre st W1 b1 W2 b2 Wc bc r q * msgPre st W1 b1 W2 b2 Wc bc r q)) eps
def msg (r : Fin 8192) (q : Fin 32) : EReal :=
  Ideal.div (msgPre st W1 b1 W2 b2 Wc bc r q) (msgNorm st W1 b1 W2 b2 Wc bc r)
/-- The mean message, and what it adds to the first layer through the lower 32 rows of the first weight. -/
def meanMsg (q : Fin 32) : EReal := (∑ r : Fin 8192, msg st W1 b1 W2 b2 Wc bc r q) * invN
def commBias (j : Fin 128) : EReal :=
  ∑ q : Fin 32, meanMsg st W1 b1 W2 b2 Wc bc q * W1 (ix2 (Fin.natAdd 64 q) j)
/-- The perceptron with the mean message, its mean row, the graph layer of it. -/
def hid1 (r : Fin 8192) (j : Fin 128) : EReal :=
  (∑ k : Fin 128, max (lin1 st W1 b1 r k + commBias st W1 b1 W2 b2 Wc bc k) 0 * W2 (ix2 k j)) + b2 (ix1 j)
def meanH (j : Fin 128) : EReal := (∑ r : Fin 8192, hid1 st W1 b1 W2 b2 Wc bc r j) * invN
def gnn (j : Fin 128) : EReal :=
  max ((∑ k : Fin 128, meanH st W1 b1 W2 b2 Wc bc k * Wg (ix2 k j)) + bg (ix1 j)) 0
end

section
-- From the graph layer's row g on: the perturbed row, its floored norm, the first result.
variable (g : Fin 128 → EReal) (nz : A2 8192 128) (Wp : A2 128 8) (bp : A1 8) (Wv : A2 128 1) (bv : A1 1) (Wr : A2 128 3) (br : A1 3)

def pert (r : Fin 8192) (j : Fin 128) : EReal := g j + nz (ix2 r j) * noiseScale
def pertNorm (r : Fin 8192) : EReal := max (Ideal.sqrt (∑ j : Fin 128, pert g nz r j * pert g nz r j)) eps
def unit (r : Fin 8192) (j : Fin 128) : EReal := Ideal.div (pert g nz r j) (pertNorm g nz r)
/-- The three heads. -/
def policy (r : Fin 8192) (q : Fin 8) : EReal := Ideal.tanh ((∑ k : Fin 128, unit g nz r k * Wp (ix2 k q)) + bp (ix1 q))
def value (r : Fin 8192) (q : Fin 1) : EReal := (∑ k : Fin 128, unit g nz r k * Wv (ix2 k q)) + bv (ix1 q)
def logit (r : Fin 8192) (q : Fin 3) : EReal := (∑ k : Fin 128, unit g nz r k * Wr (ix2 k q)) + br (ix1 q)
def rowMax (r : Fin 8192) : EReal := (Finset.univ : Finset (Fin 3)).fold max ⊥ (fun q => logit g nz Wr br r q)
def role (r : Fin 8192) (q : Fin 3) : EReal :=
  Ideal.div (Ideal.exp (logit g nz Wr br r q - rowMax g nz Wr br r))
    (∑ q' : Fin 3, Ideal.exp (logit g nz Wr br r q' - rowMax g nz Wr br r))
end

/-- The four results as arrays. -/
def R0 (st : A2 8192 64) (nz : A2 8192 128) (W1 : A2 96 128) (b1 : A1 128) (W2 : A2 128 128) (b2 : A1 128) (Wc : A2 128 32) (bc : A1 32)
    (Wg : A2 128 128) (bg : A1 128) : A2 8192 128 :=
  fun i => unit (gnn st W1 b1 W2 b2 Wc bc Wg bg) nz (i 0) (i 1)
def R1 (st : A2 8192 64) (nz : A2 8192 128) (W1 : A2 96 128) (b1 : A1 128) (W2 : A2 128 128) (b2 : A1 128) (Wc : A2 128 32) (bc : A1 32)
    (Wg : A2 128 128) (bg : A1 128) (Wp : A2 128 8) (bp : A1 8) : A2 8192 8 :=
  fun i => policy (gnn st W1 b1 W2 b2 Wc bc Wg bg) nz Wp bp (i 0) (i 1)
def R2 (st : A2 8192 64) (nz : A2 8192 128) (W1 : A2 96 128) (b1 : A1 128) (W2 : A2 128 128) (b2 : A1 128) (Wc : A2 128 32) (bc : A1 32)
    (Wg : A2 128 128) (bg : A1 128) (Wv : A2 128 1) (bv : A1 1) : A2 8192 1 :=
  fun i => value (gnn st W1 b1 W2 b2 Wc bc Wg bg) nz Wv bv (i 0) (i 1)
def R3 (st : A2 8192 64) (nz : A2 8192 128) (W1 : A2 96 128) (b1 : A1 128) (W2 : A2 128 128) (b2 : A1 128) (Wc : A2 128 32) (bc : A1 32)
    (Wg : A2 128 128) (bg : A1 128) (Wr : A2 128 3) (br : A1 3) : A2 8192 3 :=
  fun i => role (gnn st W1 b1 W2 b2 Wc bc Wg bg) nz Wr br (i 0) (i 1)

end Cert.Spec

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.Rows.lean ====
/-
  The step, row by row.  Every stage of the computation acts on one agent's row at a time, with the weights as plain
  functions of their two coordinates: an affine layer, a relu-then-affine layer, a floored Euclidean norm, a softmax.
  The specification's functions are these applied to rows of the argument arrays.
-/
import proofs.«104509_j22625887715845_2_alg».proof.Proof.Spec

noncomputable section

namespace Cert.Rows

open Idealize.ShloMosaic Idealize.ShloMosaic.ValueIdx

/-- An affine layer: a row times a weight, plus a bias. -/
def aff {K N : Nat} (x : Fin K → EReal) (w : Fin K → Fin N → EReal) (b : Fin N → EReal) (j : Fin N) : EReal :=
  (∑ k : Fin K, x k * w k j) + b j
/-- A relu followed by an affine layer. -/
def reluAff {K N : Nat} (x : Fin K → EReal) (w : Fin K → Fin N → EReal) (b : Fin N → EReal) (j : Fin N) : EReal :=
  (∑ k : Fin K, max (x k) 0 * w k j) + b j
/-- The Euclidean norm of a row, floored. -/
def norm {N : Nat} (v : Fin N → EReal) : EReal := max (Ideal.sqrt (∑ q : Fin N, v q * v q)) Spec.eps
/-- The row scaled to unit length. -/
def unit {N : Nat} (v : Fin N → EReal) (q : Fin N) : EReal := Ideal.div (v q) (norm v)
/-- The softmax of a row of three. -/
def rmax (v : Fin 3 → EReal) : EReal := (Finset.univ : Finset (Fin 3)).fold max ⊥ v
def smax (v : Fin 3 → EReal) (q : Fin 3) : EReal :=
  Ideal.div (Ideal.exp (v q - rmax v)) (∑ q' : Fin 3, Ideal.exp (v q' - rmax v))
/-- The graph-layer row perturbed by an agent's scaled noise row. -/
def pert (g : Fin 128 → EReal) (nrow : Fin 128 → EReal) (j : Fin 128) : EReal := g j + nrow j * Spec.noiseScale

section
variable (st : Spec.A2 8192 64) (nz : Spec.A2 8192 128) (W1 : Spec.A2 96 128) (b1 : Spec.A1 128) (W2 : Spec.A2 128 128) (b2 : Spec.A1 128)
  (Wc : Spec.A2 128 32) (bc : Spec.A1 32) (Wg : Spec.A2 128 128) (bg : Spec.A1 128)

/-- The arrays as functions of coordinates. -/
abbrev f2 {a b : Nat} (X : Spec.A2 a b) : Fin a → Fin b → EReal := fun i j => X (ix2 i j)
abbrev f1 {a : Nat} (X : Spec.A1 a) : Fin a → EReal := fun i => X (ix1 i)
abbrev W1a : Fin 64 → Fin 128 → EReal := fun k j => W1 (ix2 (Fin.castLE (by decide) k) j)
abbrev W1b : Fin 32 → Fin 128 → EReal := fun q j => W1 (ix2 (Fin.natAdd 64 q) j)

theorem lin1_eq (r : Fin 8192) : Spec.lin1 st W1 b1 r = aff (f2 st r) (W1a W1) (f1 b1) := rfl
theorem hid0_eq (r : Fin 8192) : Spec.hid0 st W1 b1 W2 b2 r = reluAff (aff (f2 st r) (W1a W1) (f1 b1)) (f2 W2) (f1 b2) := rfl
theorem msg_eq (r : Fin 8192) :
    Spec.msg st W1 b1 W2 b2 Wc bc r = unit (aff (reluAff (aff (f2 st r) (W1a W1) (f1 b1)) (f2 W2) (f1 b2)) (f2 Wc) (f1 bc)) := rfl
theorem hid1_eq (r : Fin 8192) :
    Spec.hid1 st W1 b1 W2 b2 Wc bc r
      = reluAff (fun k => aff (f2 st r) (W1a W1) (f1 b1) k + Spec.commBias st W1 b1 W2 b2 Wc bc k) (f2 W2) (f1 b2) := rfl
end

section
variable (g : Fin 128 → EReal) (nz : Spec.A2 8192 128) (Wp : Spec.A2 128 8) (bp : Spec.A1 8) (Wv : Spec.A2 128 1) (bv : Spec.A1 1)
  (Wr : Spec.A2 128 3) (br : Spec.A1 3)
theorem unit_eq (r : Fin 8192) : Spec.unit g nz r = unit (pert g (f2 nz r)) := rfl
theorem policy_eq (r : Fin 8192) (q : Fin 8) :
    Spec.policy g nz Wp bp r q = Ideal.tanh (aff (unit (pert g (f2 nz r))) (f2 Wp) (f1 bp) q) := rfl
theorem value_eq (r : Fin 8192) (q : Fin 1) : Spec.value g nz Wv bv r q = aff (unit (pert g (f2 nz r))) (f2 Wv) (f1 bv) q := rfl
theorem role_eq (r : Fin 8192) (q : Fin 3) :
    Spec.role g nz Wr br r q = smax (aff (unit (pert g (f2 nz r))) (f2 Wr) (f1 br)) q := rfl
end

end Cert.Rows

end
-- ==== Proof.Words.lean ====
/-
  The float words the kernel spells, as the extended reals they denote: minus infinity (the running maximum's start)
  and two to the minus thirteen (the reciprocal of the 8192 agents).
-/
import Idealize.ShloMosaic.PureOps.Ideal
import Idealize.ShloMosaic.PureOps.Ideal.Laws

noncomputable section

namespace Cert.Words

open Idealize.ShloMosaic

theorem ofBits_ninf : Ideal.ofBits .f32 0xFF800000#32 = ⊥ := by
  simp [Ideal.ofBits, Ideal.ieee]

theorem ofBits_inv8192 : Ideal.ofBits .f32 0x39000000#32 = ((1 / 8192 : ℝ) : EReal) := by
  simp [Ideal.ofBits, Ideal.ieee, -EReal.coe_mul]; norm_num

end Cert.Words

end
-- ==== Proof.KernelOps.lean ====
import proofs.«104509_j22625887715845_2_alg».proof.Proof.Gen.KernelIdeal.Skeleton
import proofs.«104509_j22625887715845_2_alg».proof.Proof.Spec
import proofs.«104509_j22625887715845_2_alg».proof.Proof.LibRowOps
import proofs.«104509_j22625887715845_2_alg».proof.Proof.LibRowColOps
import proofs.«104509_j22625887715845_2_alg».proof.Proof.Rows
import proofs.«104509_j22625887715845_2_alg».proof.Proof.Words
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open Cert.RowOps Cert.RowColOps

/-! # The kernel's non-pointwise operations at this program's shapes, read at an index -/

theorem plainA : IsPlain dot_S2048x64_S64x128_S2048x128_1_0_0_1_n_n := ⟨rfl, rfl, rfl, rfl, rfl, rfl⟩
theorem plainB : IsPlain dot_S2048x128_S128x128_S2048x128_1_0_0_1_n_n := ⟨rfl, rfl, rfl, rfl, rfl, rfl⟩
theorem plainC : IsPlain dot_S2048x128_S128x32_S2048x32_1_0_0_1_n_n := ⟨rfl, rfl, rfl, rfl, rfl, rfl⟩
theorem plainD : IsPlain dot_S1x32_S32x128_S1x128_1_0_0_1_n_n := ⟨rfl, rfl, rfl, rfl, rfl, rfl⟩
theorem plainE : IsPlain dot_S1x128_S128x128_S1x128_1_0_0_1_n_n := ⟨rfl, rfl, rfl, rfl, rfl, rfl⟩
theorem plainH : IsPlain dot_S2048x128_S128x12_S2048x12_1_0_0_1_n_n := ⟨rfl, rfl, rfl, rfl, rfl, rfl⟩

theorem mmA (lhs : FVec Ideal S2048x64 .bf16) (rhs : FVec Ideal S64x128 .bf16) (r : Fin 2048) (c : Fin 128) :
    matmul dot_S2048x64_S64x128_S2048x128_1_0_0_1_n_n none lhs rhs (constant S2048x128 .f32 0x00000000#32) (ix2 r c) = ∑ k : Fin 64, lhs (ix2 r k) * rhs (ix2 k c) :=
  matmul_zero_apply plainA none lhs rhs r c
theorem mmB (lhs : FVec Ideal S2048x128 .bf16) (rhs : FVec Ideal S128x128 .bf16) (r : Fin 2048) (c : Fin 128) :
    matmul dot_S2048x128_S128x128_S2048x128_1_0_0_1_n_n none lhs rhs (constant S2048x128 .f32 0x00000000#32) (ix2 r c) = ∑ k : Fin 128, lhs (ix2 r k) * rhs (ix2 k c) :=
  matmul_zero_apply plainB none lhs rhs r c
theorem mmC (lhs : FVec Ideal S2048x128 .bf16) (rhs : FVec Ideal S128x32 .bf16) (r : Fin 2048) (c : Fin 32) :
    matmul dot_S2048x128_S128x32_S2048x32_1_0_0_1_n_n none lhs rhs (constant S2048x32 .f32 0x00000000#32) (ix2 r c) = ∑ k : Fin 128, lhs (ix2 r k) * rhs (ix2 k c) :=
  matmul_zero_apply plainC none lhs rhs r c
theorem mmD (lhs : FVec Ideal S1x32 .bf16) (rhs : FVec Ideal S32x128 .bf16) (r : Fin 1) (c : Fin 128) :
    matmul dot_S1x32_S32x128_S1x128_1_0_0_1_n_n none lhs rhs (constant S1x128 .f32 0x00000000#32) (ix2 r c) = ∑ k : Fin 32, lhs (ix2 r k) * rhs (ix2 k c) :=
  matmul_zero_apply plainD none lhs rhs r c
theorem mmE (lhs : FVec Ideal S1x128 .bf16) (rhs : FVec Ideal S128x128 .bf16) (r : Fin 1) (c : Fin 128) :
    matmul dot_S1x128_S128x128_S1x128_1_0_0_1_n_n none lhs rhs (constant S1x128 .f32 0x00000000#32) (ix2 r c) = ∑ k : Fin 128, lhs (ix2 r k) * rhs (ix2 k c) :=
  matmul_zero_apply plainE none lhs rhs r c
theorem mmH (lhs : FVec Ideal S2048x128 .bf16) (rhs : FVec Ideal S128x12 .bf16) (r : Fin 2048) (c : Fin 12) :
    matmul dot_S2048x128_S128x12_S2048x12_1_0_0_1_n_n none lhs rhs (constant S2048x12 .f32 0x00000000#32) (ix2 r c) = ∑ k : Fin 128, lhs (ix2 r k) * rhs (ix2 k c) :=
  matmul_zero_apply plainH none lhs rhs r c

theorem rowSum128 (src : FVec Ideal S2048x128 .f32) (acc : BitVec 32) (h : S2048x128.Reduces [1] S2048) (hφ : FKind.Formats .f32)
    (hacc : acc = FKind.add.neutral .f32 hφ) (r : Fin 2048) :
    multiReduction .add [1] S2048 src acc h hφ hacc (ix1 r) = ∑ k : Fin 128, src (ix2 r k) :=
  rowSum_apply src acc h hφ hacc r
theorem rowSum32 (src : FVec Ideal S2048x32 .f32) (acc : BitVec 32) (h : S2048x32.Reduces [1] S2048) (hφ : FKind.Formats .f32)
    (hacc : acc = FKind.add.neutral .f32 hφ) (r : Fin 2048) :
    multiReduction .add [1] S2048 src acc h hφ hacc (ix1 r) = ∑ k : Fin 32, src (ix2 r k) :=
  rowSum_apply src acc h hφ hacc r
theorem rowSum3 (src : FVec Ideal S2048x3 .f32) (acc : BitVec 32) (h : S2048x3.Reduces [1] S2048) (hφ : FKind.Formats .f32)
    (hacc : acc = FKind.add.neutral .f32 hφ) (r : Fin 2048) :
    multiReduction .add [1] S2048 src acc h hφ hacc (ix1 r) = ∑ k : Fin 3, src (ix2 r k) :=
  rowSum_apply src acc h hφ hacc r
theorem colSum32 (src : FVec Ideal S2048x32 .f32) (acc : BitVec 32) (h : S2048x32.Reduces [0] S32) (hφ : FKind.Formats .f32)
    (hacc : acc = FKind.add.neutral .f32 hφ) (j : Fin 32) :
    multiReduction .add [0] S32 src acc h hφ hacc (ix1 j) = ∑ k : Fin 2048, src (ix2 k j) :=
  colSum_apply src acc h hφ hacc j
theorem colSum128 (src : FVec Ideal S2048x128 .f32) (acc : BitVec 32) (h : S2048x128.Reduces [0] S128) (hφ : FKind.Formats .f32)
    (hacc : acc = FKind.add.neutral .f32 hφ) (j : Fin 128) :
    multiReduction .add [0] S128 src acc h hφ hacc (ix1 j) = ∑ k : Fin 2048, src (ix2 k j) :=
  colSum_apply src acc h hφ hacc j

theorem rowMax3 (src : FVec Ideal S2048x3 .f32) (acc : BitVec 32) (h : S2048x3.Reduces [1] S2048) (hφ : FKind.Formats .f32)
    (hacc : acc = FKind.maximumf.neutral .f32 hφ) (r : Fin 2048) :
    multiReduction .maximumf [1] S2048 src acc h hφ hacc (ix1 r)
      = (Finset.univ : Finset (Fin 3)).fold max (Ideal.ofBits .f32 acc) (fun k => src (ix2 r k)) :=
  rowMax_apply src acc h hφ hacc r

theorem cast32 (x : S32.Idx → EReal) (h : S32.ShapeCasts S1x32) (u : Fin 1) (i : Fin 32) : shapeCast S1x32 x h (ix2 u i) = x (ix1 i) :=
  shapeCast_a_1a_apply x h u i
theorem cast128 (x : S128.Idx → EReal) (h : S128.ShapeCasts S1x128) (u : Fin 1) (i : Fin 128) : shapeCast S1x128 x h (ix2 u i) = x (ix1 i) :=
  shapeCast_a_1a_apply x h u i
theorem col2048 (x : S2048.Idx → EReal) (h : S2048.ShapeCasts S2048x1) (i : Fin 2048) (u : Fin 1) : shapeCast S2048x1 x h (ix2 i u) = x (ix1 i) :=
  column_apply x h i u

theorem sqrt_apply {s : Shape} (x : FVec Ideal s .f32) (i : s.Idx) : sqrt x i = Ideal.sqrt (x i) := rfl
theorem exp_apply {s : Shape} (x : FVec Ideal s .f32) (i : s.Idx) : exp x i = Ideal.exp (x i) := rfl
theorem tanh_apply {s : Shape} (x : FVec Ideal s .f32) (i : s.Idx) : tanh x i = Ideal.tanh (x i) := rfl

open Cert.Rows (aff reluAff norm unit smax rmax pert)

/-- A block as a function of its two coordinates; a one-row block as a function of the column. -/
abbrev c2 {a b : Nat} (X : (⟨2, ![a, b]⟩ : Shape).Idx → EReal) : Fin a → Fin b → EReal := fun i j => X (ix2 i j)
abbrev r1 {b : Nat} (X : (⟨2, ![1, b]⟩ : Shape).Idx → EReal) : Fin b → EReal := fun j => X (ix2 0 j)

/-! ## The body's recurring shapes of computation, over any operands -/

/-- A relu, at an index. -/
theorem relu_apply {s : Shape} (Y : FVec Ideal s .f32) (i : s.Idx) :
    maximumf Y (broadcast s (Scalar.ofBits (F := Ideal) .f32 0x00000000#32)) i = max (Y i) 0 := by
  rw [maximumf_apply, broadcast_apply]
  exact congrArg (max (Y i)) Ideal.ofBits_zero_f32

/-- A row times a weight plus a one-row bias repeated down the rows. -/
theorem denseA (X : FVec Ideal S2048x64 .bf16) (W : FVec Ideal S64x128 .bf16) (B : FVec Ideal S1x128 .f32) (p : Fin 2048) (j : Fin 128) :
    addf (matmul dot_S2048x64_S64x128_S2048x128_1_0_0_1_n_n none X W (constant S2048x128 .f32 0x00000000#32))
      (broadcastTo S2048x128 B broadcasts_S1x128_S2048x128) (ix2 p j) = aff (c2 X p) (c2 W) (r1 B) j := by
  rw [addf_apply, mmA, rowSpread_apply]; rfl
theorem denseB (X : FVec Ideal S2048x128 .bf16) (W : FVec Ideal S128x128 .bf16) (B : FVec Ideal S1x128 .f32) (p : Fin 2048) (j : Fin 128) :
    addf (matmul dot_S2048x128_S128x128_S2048x128_1_0_0_1_n_n none X W (constant S2048x128 .f32 0x00000000#32))
      (broadcastTo S2048x128 B broadcasts_S1x128_S2048x128) (ix2 p j) = aff (c2 X p) (c2 W) (r1 B) j := by
  rw [addf_apply, mmB, rowSpread_apply]; rfl
theorem denseC (X : FVec Ideal S2048x128 .bf16) (W : FVec Ideal S128x32 .bf16) (B : FVec Ideal S1x32 .f32) (p : Fin 2048) (j : Fin 32) :
    addf (matmul dot_S2048x128_S128x32_S2048x32_1_0_0_1_n_n none X W (constant S2048x32 .f32 0x00000000#32))
      (broadcastTo S2048x32 B broadcasts_S1x32_S2048x32) (ix2 p j) = aff (c2 X p) (c2 W) (r1 B) j := by
  rw [addf_apply, mmC, rowSpread_apply]; rfl
theorem denseH (X : FVec Ideal S2048x128 .bf16) (W : FVec Ideal S128x12 .bf16) (B : FVec Ideal S1x12 .f32) (p : Fin 2048) (j : Fin 12) :
    addf (matmul dot_S2048x128_S128x12_S2048x12_1_0_0_1_n_n none X W (constant S2048x12 .f32 0x00000000#32))
      (broadcastTo S2048x12 B broadcasts_S1x12_S2048x12) (ix2 p j) = aff (c2 X p) (c2 W) (r1 B) j := by
  rw [addf_apply, mmH, rowSpread_apply]; rfl

/-- The affine layer after a relu is the relu-then-affine layer. -/
theorem aff_relu {K N : Nat} (y : Fin K → EReal) (w : Fin K → Fin N → EReal) (b : Fin N → EReal) (j : Fin N) :
    aff (fun k => max (y k) 0) w b j = reluAff y w b j := rfl

/-- Rows scaled to unit length (floored norm), at (p, j). -/
theorem l2rows128 (v : FVec Ideal S2048x128 .f32) (hφ : FKind.Formats .f32) (hacc : (0x00000000#32 : BitVec 32) = FKind.add.neutral .f32 hφ)
    (p : Fin 2048) (j : Fin 128) :
    divf v (broadcastTo S2048x128 (maximumf (sqrt (shapeCast S2048x1 (multiReduction .add [1] S2048 (mulf v v) 0x00000000#32
        reduces_S2048x128_S2048 hφ hacc) shapeCasts_S2048_S2048x1)) (broadcast S2048x1 (Scalar.ofBits (F := Ideal) .f32 0x2B8CBCCC#32)))
      broadcasts_S2048x1_S2048x128) (ix2 p j) = unit (fun k => v (ix2 p k)) j := by
  rw [divf_apply, spread_apply, maximumf_apply, sqrt_apply, col2048, rowSum128, broadcast_apply]
  rfl
theorem l2rows32 (v : FVec Ideal S2048x32 .f32) (hφ : FKind.Formats .f32) (hacc : (0x00000000#32 : BitVec 32) = FKind.add.neutral .f32 hφ)
    (p : Fin 2048) (j : Fin 32) :
    divf v (broadcastTo S2048x32 (maximumf (sqrt (shapeCast S2048x1 (multiReduction .add [1] S2048 (mulf v v) 0x00000000#32
        reduces_S2048x32_S2048 hφ hacc) shapeCasts_S2048_S2048x1)) (broadcast S2048x1 (Scalar.ofBits (F := Ideal) .f32 0x2B8CBCCC#32)))
      broadcasts_S2048x1_S2048x32) (ix2 p j) = unit (fun k => v (ix2 p k)) j := by
  rw [divf_apply, spread_apply, maximumf_apply, sqrt_apply, col2048, rowSum32, broadcast_apply]
  rfl

/-- A block's rows summed onto a carried one-row buffer. -/
theorem colAcc32 (V : FVec Ideal S2048x32 .f32) (acc : FVec Ideal S1x32 .f32) (hφ : FKind.Formats .f32)
    (hacc : (0x00000000#32 : BitVec 32) = FKind.add.neutral .f32 hφ) (q : Fin 32) :
    shapeCast S1x32 (addf acc (shapeCast S1x32 (multiReduction .add [0] S32 V 0x00000000#32 reduces_S2048x32_S32 hφ hacc) shapeCasts_S32_S1x32))
      shapeCasts_S1x32_S1x32 (ix2 0 q) = acc (ix2 0 q) + ∑ p : Fin 2048, V (ix2 p q) := by
  rw [shapeCast_self, addf_apply, cast32, colSum32]
theorem colAcc128 (V : FVec Ideal S2048x128 .f32) (acc : FVec Ideal S1x128 .f32) (hφ : FKind.Formats .f32)
    (hacc : (0x00000000#32 : BitVec 32) = FKind.add.neutral .f32 hφ) (j : Fin 128) :
    shapeCast S1x128 (addf acc (shapeCast S1x128 (multiReduction .add [0] S128 V 0x00000000#32 reduces_S2048x128_S128 hφ hacc) shapeCasts_S128_S1x128))
      shapeCasts_S1x128_S1x128 (ix2 0 j) = acc (ix2 0 j) + ∑ p : Fin 2048, V (ix2 p j) := by
  rw [shapeCast_self, addf_apply, cast128, colSum128]

/-- The running row maximum from minus infinity, repeated along the row. -/
theorem rowmax3 (L : FVec Ideal S2048x3 .f32) (hφ : FKind.Formats .f32) (hacc : (0xFF800000#32 : BitVec 32) = FKind.maximumf.neutral .f32 hφ)
    (p : Fin 2048) (q : Fin 3) :
    broadcastTo S2048x3 (shapeCast S2048x1 (maximumf (broadcast S2048 (Scalar.ofBits (F := Ideal) .f32 0xFF800000#32))
        (multiReduction .maximumf [1] S2048 L 0xFF800000#32 reduces_S2048x3_S2048 hφ hacc)) shapeCasts_S2048_S2048x1)
      broadcasts_S2048x1_S2048x3 (ix2 p q) = rmax (fun k => L (ix2 p k)) := by
  rw [spread_apply, col2048, maximumf_apply, broadcast_apply, rowMax3]
  show max (Ideal.ofBits .f32 0xFF800000#32) ((Finset.univ : Finset (Fin 3)).fold max (Ideal.ofBits .f32 0xFF800000#32) _) = _
  rw [Words.ofBits_ninf, max_eq_right bot_le]
  rfl

/-- The softmax of each row of three, given the row maxima repeated along the rows. -/
theorem softmax3 (L M : FVec Ideal S2048x3 .f32) (hφ : FKind.Formats .f32) (hacc : (0x00000000#32 : BitVec 32) = FKind.add.neutral .f32 hφ)
    (p : Fin 2048) (q : Fin 3) :
    divf (exp (subf L M)) (broadcastTo S2048x3 (shapeCast S2048x1 (multiReduction .add [1] S2048 (exp (subf L M)) 0x00000000#32
        reduces_S2048x3_S2048 hφ hacc) shapeCasts_S2048_S2048x1) broadcasts_S2048x1_S2048x3) (ix2 p q)
      = Ideal.div (Ideal.exp (L (ix2 p q) - M (ix2 p q))) (∑ k : Fin 3, Ideal.exp (L (ix2 p k) - M (ix2 p k))) := by
  rw [divf_apply, spread_apply, col2048, rowSum3]
  rfl

end Cert.KernelIdeal.Hand

end
-- ==== Proof.HeadAt.lean ====
import proofs.«104509_j22625887715845_2_alg».proof.Proof.Gen.KernelIdeal.Skeleton
import proofs.«104509_j22625887715845_2_alg».proof.Proof.Spec
import proofs.«104509_j22625887715845_2_alg».proof.Proof.LibRowOps
import proofs.«104509_j22625887715845_2_alg».proof.Proof.LibRowColOps
import proofs.«104509_j22625887715845_2_alg».proof.Proof.Rows
import proofs.«104509_j22625887715845_2_alg».proof.Proof.Words
import proofs.«104509_j22625887715845_2_alg».proof.Proof.KernelOps
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open Cert.RowOps Cert.RowColOps
open Cert.Rows (aff reluAff norm unit smax rmax pert)

/-! # The head pass's block, entry by entry, over the extended reals -/

section Head
variable (x0 : Vec Ideal S1x128 .f32) (x1 : Vec Ideal S2048x128 .f32) (x2 : Vec Ideal S128x12 .f32) (x3 : Vec Ideal S1x12 .f32)

/-- The one graph-layer row, row `p` of the noise block, the joined weight and bias, as functions of coordinates. -/
abbrev gRow : Fin 128 → EReal := fun j => x0 (ix2 0 j)
abbrev nRow (p : Fin 2048) : Fin 128 → EReal := fun j => x1 (ix2 p j)
abbrev wJ : Fin 128 → Fin 12 → EReal := fun k q => x2 (ix2 k q)
abbrev bJ : Fin 12 → EReal := fun q => x3 (ix2 0 q)

theorem pert_apply (p : Fin 2048) (j : Fin 128) :
    addf (broadcastTo S2048x128 (shapeCast S1x128 x0 shapeCasts_S1x128_S1x128) broadcasts_S1x128_S2048x128)
      (mulf x1 (broadcast S2048x128 (Scalar.ofBits (F := Ideal) .f32 0x3C23D70A#32))) (ix2 p j) = pert (gRow x0) (nRow x1 p) j := by
  rw [addf_apply, mulf_apply, rowSpread_apply, shapeCast_self]
  rfl

/-- The first output's block: each perturbed row at unit length. -/
theorem pay2_apply (p : Fin 2048) (j : Fin 128) : k1_pay2 (F := Ideal) x1 x0 (ix2 p j) = unit (pert (gRow x0) (nRow x1 p)) j := by
  unfold k1_pay2
  try dsimp only
  exact (l2rows128 _ _ _ p j).trans (congrArg (fun f => unit f j) (funext fun k => pert_apply x0 x1 p k))

/-- The three heads' pre-activations side by side. -/
theorem pay3_apply (p : Fin 2048) (q : Fin 12) :
    k1_pay3 (F := Ideal) x1 x0 x2 x3 (ix2 p q) = aff (unit (pert (gRow x0) (nRow x1 p))) (wJ x2) (bJ x3) q := by
  unfold k1_pay3
  try dsimp only
  refine (denseH _ _ _ p q).trans ?_
  have e1 : (c2 (truncf .bf16 (k1_pay2 (F := Ideal) x1 x0) bitsLt_bf16_f32) p : Fin 128 → EReal) = unit (pert (gRow x0) (nRow x1 p)) :=
    funext fun k => pay2_apply x0 x1 p k
  rw [e1, shapeCast_self, shapeCast_self]
  rfl

theorem pay4_apply (p : Fin 2048) (q : Fin 8) :
    k1_pay4 (F := Ideal) x1 x0 x2 x3 (ix2 p q)
      = Ideal.tanh (aff (unit (pert (gRow x0) (nRow x1 p))) (wJ x2) (bJ x3) (Fin.castLE (by decide) q)) := by
  unfold k1_pay4
  try dsimp only
  rw [tanh_apply]
  exact congrArg Ideal.tanh ((slice2_axis1_apply 0 _ _ p q (Fin.castLE (by decide) q) (by simp)).trans (pay3_apply x0 x1 x2 x3 p _))

theorem pay5_apply (p : Fin 2048) (u : Fin 1) :
    k1_pay5 (F := Ideal) x1 x0 x2 x3 (ix2 p u) = aff (unit (pert (gRow x0) (nRow x1 p))) (wJ x2) (bJ x3) ⟨8 + u.val, by omega⟩ := by
  unfold k1_pay5
  try dsimp only
  exact (slice2_axis1_apply 8 _ _ p u ⟨8 + u.val, by omega⟩ rfl).trans (pay3_apply x0 x1 x2 x3 p _)

theorem pay6_apply (p : Fin 2048) (q : Fin 3) :
    k1_pay6 (F := Ideal) x1 x0 x2 x3 (ix2 p q) = aff (unit (pert (gRow x0) (nRow x1 p))) (wJ x2) (bJ x3) ⟨9 + q.val, by omega⟩ := by
  unfold k1_pay6
  try dsimp only
  exact (slice2_axis1_apply 9 _ _ p q ⟨9 + q.val, by omega⟩ rfl).trans (pay3_apply x0 x1 x2 x3 p _)

/-- The row's three role logits. -/
abbrev lRow (p : Fin 2048) : Fin 3 → EReal := fun q => aff (unit (pert (gRow x0) (nRow x1 p))) (wJ x2) (bJ x3) ⟨9 + q.val, by omega⟩

theorem pay7_apply (p : Fin 2048) (q : Fin 3) : k1_pay7 (F := Ideal) x1 x0 x2 x3 (ix2 p q) = rmax (lRow x0 x1 x2 x3 p) := by
  unfold k1_pay7
  try dsimp only
  exact (rowmax3 _ _ _ p q).trans (congrArg rmax (funext fun k => pay6_apply x0 x1 x2 x3 p k))

/-- The role probabilities: the softmax of the three logits. -/
theorem pay1_apply (p : Fin 2048) (q : Fin 3) :
    k1_pay1 (F := Ideal) (k1_pay6 x1 x0 x2 x3) (k1_pay7 x1 x0 x2 x3) (ix2 p q) = smax (lRow x0 x1 x2 x3 p) q := by
  unfold k1_pay1
  try dsimp only
  refine (softmax3 _ _ _ _ p q).trans ?_
  simp only [pay6_apply, pay7_apply]
  rfl

end Head

end Cert.KernelIdeal.Hand

end
-- ==== Proof.ReduceAt.lean ====
import proofs.«104509_j22625887715845_2_alg».proof.Proof.Gen.KernelIdeal.Skeleton
import proofs.«104509_j22625887715845_2_alg».proof.Proof.Spec
import proofs.«104509_j22625887715845_2_alg».proof.Proof.LibRowOps
import proofs.«104509_j22625887715845_2_alg».proof.Proof.LibRowColOps
import proofs.«104509_j22625887715845_2_alg».proof.Proof.Rows
import proofs.«104509_j22625887715845_2_alg».proof.Proof.Words
import proofs.«104509_j22625887715845_2_alg».proof.Proof.KernelOps
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open Cert.RowOps Cert.RowColOps
open Cert.Rows (aff reluAff norm unit smax rmax pert)

/-! # The reduction pass's payloads, entry by entry, over the extended reals -/

section Tile
variable (xs : Vec Ideal S2048x64 .f32) (wa : Vec Ideal S64x128 .f32) (ba : Vec Ideal S1x128 .f32) (w2 : Vec Ideal S128x128 .f32)
  (bb : Vec Ideal S1x128 .f32) (wc : Vec Ideal S128x32 .f32) (bcr : Vec Ideal S1x32 .f32)

/-- The first layer before its relu, over the tile. -/
def linV : FVec Ideal S2048x128 .f32 :=
  addf (matmul dot_S2048x64_S64x128_S2048x128_1_0_0_1_n_n none (truncf .bf16 xs bitsLt_bf16_f32)
      (truncf .bf16 (shapeCast S64x128 wa shapeCasts_S64x128_S64x128) bitsLt_bf16_f32) (constant S2048x128 .f32 0x00000000#32))
    (broadcastTo S2048x128 (shapeCast S1x128 ba shapeCasts_S1x128_S1x128) broadcasts_S1x128_S2048x128)
theorem linV_apply (p : Fin 2048) (j : Fin 128) : linV xs wa ba (ix2 p j) = aff (c2 xs p) (c2 wa) (r1 ba) j := by
  unfold linV
  refine (denseA _ _ _ p j).trans ?_
  rw [shapeCast_self, shapeCast_self]
  rfl

/-- The second layer of what `pre` holds before the relu. -/
def hidV (pre : FVec Ideal S2048x128 .f32) : FVec Ideal S2048x128 .f32 :=
  addf (matmul dot_S2048x128_S128x128_S2048x128_1_0_0_1_n_n none
      (truncf .bf16 (maximumf pre (broadcast S2048x128 (Scalar.ofBits (F := Ideal) .f32 0x00000000#32))) bitsLt_bf16_f32)
      (truncf .bf16 w2 bitsLt_bf16_f32) (constant S2048x128 .f32 0x00000000#32))
    (broadcastTo S2048x128 (shapeCast S1x128 bb shapeCasts_S1x128_S1x128) broadcasts_S1x128_S2048x128)
theorem hidV_apply (pre : FVec Ideal S2048x128 .f32) (p : Fin 2048) (j : Fin 128) :
    hidV w2 bb pre (ix2 p j) = reluAff (fun k => pre (ix2 p k)) (c2 w2) (r1 bb) j := by
  unfold hidV
  refine (denseB _ _ _ p j).trans ?_
  have e : (c2 (truncf .bf16 (maximumf pre (broadcast S2048x128 (Scalar.ofBits (F := Ideal) .f32 0x00000000#32))) bitsLt_bf16_f32) p
      : Fin 128 → EReal) = fun k => max (pre (ix2 p k)) 0 := funext fun k => relu_apply pre (ix2 p k)
  rw [e, shapeCast_self]
  rfl

/-- The message projection of the hidden rows. -/
def msgPreV (h : FVec Ideal S2048x128 .f32) : FVec Ideal S2048x32 .f32 :=
  addf (matmul dot_S2048x128_S128x32_S2048x32_1_0_0_1_n_n none (truncf .bf16 h bitsLt_bf16_f32) (truncf .bf16 wc bitsLt_bf16_f32)
      (constant S2048x32 .f32 0x00000000#32))
    (broadcastTo S2048x32 (shapeCast S1x32 bcr shapeCasts_S1x32_S1x32) broadcasts_S1x32_S2048x32)
theorem msgPreV_apply (h : FVec Ideal S2048x128 .f32) (p : Fin 2048) (q : Fin 32) :
    msgPreV wc bcr h (ix2 p q) = aff (fun k => h (ix2 p k)) (c2 wc) (r1 bcr) q := by
  unfold msgPreV
  refine (denseC _ _ _ p q).trans ?_
  rw [shapeCast_self]
  rfl

theorem hid0_rows (p : Fin 2048) :
    (fun k => hidV w2 bb (linV xs wa ba) (ix2 p k)) = reluAff (aff (c2 xs p) (c2 wa) (r1 ba)) (c2 w2) (r1 bb) :=
  funext fun k => (hidV_apply w2 bb _ p k).trans
    (congrArg (fun f => reluAff f (c2 w2) (r1 bb) k) (funext fun k' => linV_apply xs wa ba p k'))

/-- The tile's normalised messages. -/
theorem pay7_apply0 (p : Fin 2048) (q : Fin 32) :
    k0_pay7 (F := Ideal) xs wa ba w2 bb wc bcr (ix2 p q)
      = unit (aff (reluAff (aff (c2 xs p) (c2 wa) (r1 ba)) (c2 w2) (r1 bb)) (c2 wc) (r1 bcr)) q := by
  unfold k0_pay7
  try dsimp only
  refine (l2rows32 _ _ _ p q).trans (congrArg (fun f => unit f q) (funext fun k => ?_))
  refine (msgPreV_apply wc bcr (hidV w2 bb (linV xs wa ba)) p k).trans ?_
  rw [hid0_rows]

end Tile

/-- A tile's rows summed onto a carried row. -/
theorem pay2_apply0 (v56 : FVec Ideal S2048x32 .f32) (v57 : Vec Ideal S1x32 .f32) (q : Fin 32) :
    k0_pay2 (F := Ideal) v56 v57 (ix2 0 q) = v57 (ix2 0 q) + ∑ p : Fin 2048, v56 (ix2 p q) := by
  unfold k0_pay2
  try dsimp only
  exact colAcc32 _ _ _ _ q

theorem pay1_apply0 (q : Fin 32) : k0_pay1 (F := Ideal) (ix2 0 q) = 0 := by
  unfold k0_pay1; (try dsimp only); rw [shapeCast_self, broadcast_apply]; exact Ideal.ofBits_zero_f32
theorem pay4_apply0 (j : Fin 128) : k0_pay4 (F := Ideal) (ix2 0 j) = 0 := by
  unfold k0_pay4; (try dsimp only); rw [shapeCast_self, broadcast_apply]; exact Ideal.ofBits_zero_f32

/-- The mean message through the lower rows of the first weight. -/
theorem pay3_apply0 (acc : Vec Ideal S1x32 .f32) (wb : Vec Ideal S32x128 .f32) (j : Fin 128) :
    k0_pay3 (F := Ideal) acc wb (ix2 0 j) = ∑ q : Fin 32, (acc (ix2 0 q) * Spec.invN) * wb (ix2 q j) := by
  unfold k0_pay3
  try dsimp only
  rw [shapeCast_self]
  refine (mmD _ _ 0 j).trans (Finset.sum_congr rfl fun q _ => ?_)
  rw [shapeCast_self]
  show (acc (ix2 0 q) * Ideal.ofBits .f32 0x39000000#32) * wb (ix2 q j) = _
  rw [Words.ofBits_inv8192]

/-- A tile's hidden rows (with the communication bias added before the relu) summed onto a carried row. -/
theorem pay5_apply0 (xs : Vec Ideal S2048x64 .f32) (wa : Vec Ideal S64x128 .f32) (ba : Vec Ideal S1x128 .f32) (cb : Vec Ideal S1x128 .f32)
    (w2 : Vec Ideal S128x128 .f32) (bb : Vec Ideal S1x128 .f32) (acc : Vec Ideal S1x128 .f32) (j : Fin 128) :
    k0_pay5 (F := Ideal) xs wa ba cb w2 bb acc (ix2 0 j)
      = acc (ix2 0 j) + ∑ p : Fin 2048, reluAff (fun k => aff (c2 xs p) (c2 wa) (r1 ba) k + r1 cb k) (c2 w2) (r1 bb) j := by
  unfold k0_pay5
  try dsimp only
  refine (colAcc128 _ _ _ _ j).trans (congrArg (acc (ix2 0 j) + ·) (Finset.sum_congr rfl fun p _ => ?_))
  refine (hidV_apply w2 bb (addf (linV xs wa ba) (broadcastTo S2048x128 cb broadcasts_S1x128_S2048x128)) p j).trans ?_
  refine congrArg (fun f => reluAff f (c2 w2) (r1 bb) j) (funext fun k => ?_)
  rw [addf_apply, linV_apply, rowSpread_apply]

/-- The graph layer of the mean hidden row. -/
theorem pay6_apply0 (acc : Vec Ideal S1x128 .f32) (wg : Vec Ideal S128x128 .f32) (bgr : Vec Ideal S1x128 .f32) (j : Fin 128) :
    k0_pay6 (F := Ideal) acc wg bgr (ix2 0 j) = max (aff (fun k => acc (ix2 0 k) * Spec.invN) (c2 wg) (r1 bgr) j) 0 := by
  unfold k0_pay6
  try dsimp only
  refine (relu_apply _ (ix2 0 j)).trans (congrArg (max · 0) ?_)
  rw [addf_apply, shapeCast_self]
  refine congrArg (· + bgr (ix2 0 j)) ((mmE _ _ 0 j).trans (Finset.sum_congr rfl fun k _ => ?_))
  show (acc (ix2 0 k) * Ideal.ofBits .f32 0x39000000#32) * wg (ix2 k j) = _
  rw [Words.ofBits_inv8192]

end Cert.KernelIdeal.Hand

end
-- ==== Proof.Blocks0.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.EntryArrays
import proofs.«104509_j22625887715845_2_alg».proof.Proof.HeadAt
import proofs.«104509_j22625887715845_2_alg».proof.Proof.ReduceAt
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx
open Cert.Rows (aff reluAff norm unit smax rmax pert)

variable {F : FTy → Type} [FloatOps F]

local notation "𝕄" => MT nD τ sig Unit (Elt F) ℕ (Pipeline.UD sig nD τ) ℕ

/-! # The reduction pass: its one result array is what the last point stores -/

section Blocks0
variable {F : FTy → Type} [FloatOps F]
variable (V : (c : Dev nD) → (b : Ref sig .tc) → Buf (Elt F) ((c : Thread nD τ).loc b)) (c : Dev nD)

theorem idx0_out : ∀ t : Fin cfg0.N, win0_10.index t (0 : Fin 2) = 0 ∧ win0_10.index t (1 : Fin 2) = 0 :=
  (by decide +kernel : ∀ t : Fin grid0.N, _)

theorem emb0_out (t : Fin cfg0.N) (y : S1x128.Idx) : ((cfg0.win 10).blk t).view.emb y = y := by
  obtain ⟨e0, e1⟩ := idx0_out t
  refine funext fun a => Fin.ext ?_
  match a with
  | ⟨0, _⟩ => show win0_10.index t (0 : Fin 2) * 1 + 1 * (y 0).val = (y 0).val; omega
  | ⟨1, _⟩ => show win0_10.index t (1 : Fin 2) * 128 + 1 * (y 1).val = (y 1).val; omega

theorem flushed0 (t : Fin cfg0.N) : (dat0 V c).flushed 10 t = ((cfg0.win 10).blk t).view.read (Elt F) (gnnOut V c) := by
  show (cfg0.win 10).cut (grid0.coords t) ((dat0 V c).after 10 t) = _
  rw [after0_10]
  refine funext fun (y : S1x128.Idx) => ?_
  show gnnOut V c y = gnnOut V c (((cfg0.win 10).blk t).view.emb y)
  rw [emb0_out]

theorem cover0 (i : S1x128.Idx) : ∃ t : Fin cfg0.N, (cfg0.win 10).flush t = true ∧ i ∈ ((cfg0.win 10).blk t).view.set := by
  have hi : (i 0).val < 1 := (i 0).isLt
  have hj : (i 1).val < 128 := (i 1).isLt
  refine ⟨t0_7, (flush0_10 t0_7).mpr (by decide), ?_⟩
  obtain ⟨e0, e1⟩ := idx0_out t0_7
  show i ∈ ((View.whole main_v6).slice (win0_10.rect t0_7)).set
  rw [View.set_slice_whole, Rect.mem_set_unit]
  intro a
  match a with
  | ⟨0, _⟩ =>
    show win0_10.index _ (0 : Fin 2) * 1 ≤ (i 0).val ∧ (i 0).val < win0_10.index _ (0 : Fin 2) * 1 + 1
    omega
  | ⟨1, _⟩ =>
    show win0_10.index _ (1 : Fin 2) * 128 ≤ (i 1).val ∧ (i 1).val < win0_10.index _ (1 : Fin 2) * 128 + 128
    omega

/-- The region's result array after its run. -/
theorem final0 : (dat0 V c).arrAt 10 cfg0.N = gnnOut V c :=
  (dat0 V c).arrAt_eq_of_cover 10 (gnnOut V c) (fun t _ => flushed0 V c t) (cover0)

end Blocks0

end Cert.KernelIdeal.Hand

end
-- ==== Proof.Blocks1.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.EntryArrays
import proofs.«104509_j22625887715845_2_alg».proof.Proof.HeadAt
import proofs.«104509_j22625887715845_2_alg».proof.Proof.ReduceAt
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx
open Cert.Rows (aff reluAff norm unit smax rmax pert)

variable {F : FTy → Type} [FloatOps F]

local notation "𝕄" => MT nD τ sig Unit (Elt F) ℕ (Pipeline.UD sig nD τ) ℕ

/-! # The head pass: from its blocks to its four result arrays -/

section Blocks1
variable {F : FTy → Type} [FloatOps F]
variable (V : (c : Dev nD) → (b : Ref sig .tc) → Buf (Elt F) ((c : Thread nD τ).loc b))

/-- The printed index maps over the grid: the noise window and the four output windows move down 2048 rows per point; the
    other three windows stay. -/
theorem idx1 : ∀ t : Fin cfg1.N, win1_1.index t (0 : Fin 2) = t.val ∧ win1_1.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_0.index t (0 : Fin 2) = 0 ∧ win1_0.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Row `p` of point `t`'s block is row `2048 t + p` of the array. -/
def row1 (t : Fin cfg1.N) (p : Fin 2048) : Fin 8192 := ⟨2048 * t.val + p.val, by have := t.isLt; have h4 : cfg1.N = 4 := N_1; have := p.isLt; omega⟩

theorem iblk1_1_apply (c : Dev nD) (t : Fin cfg1.N) (p : Fin 2048) (j : Fin 128) :
    iblk1 V c 1 t (ix2 p j) = (V c main_arg1 : S8192x128.Idx → Elt F .f32) (ix2 (row1 t p) j) := by
  obtain ⟨e0, e1, -⟩ := idx1 t
  show V c main_arg1 (((cfg1.win 1).blk t).view.emb (ix2 p j)) = _
  refine congrArg _ (funext fun a => Fin.ext ?_)
  match a with
  | ⟨0, _⟩ => show win1_1.index t (0 : Fin 2) * 2048 + 1 * p.val = 2048 * t.val + p.val; omega
  | ⟨1, _⟩ => show win1_1.index t (1 : Fin 2) * 128 + 1 * j.val = j.val; omega
theorem iblk1_0_apply (c : Dev nD) (t : Fin cfg1.N) (u : Fin 1) (j : Fin 128) :
    iblk1 V c 0 t (ix2 u j) = (V c main_v6 : S1x128.Idx → Elt F .f32) (ix2 u j) := by
  obtain ⟨-, -, -, -, -, -, -, -, -, -, e0, e1, -⟩ := idx1 t
  show V c main_v6 (((cfg1.win 0).blk t).view.emb (ix2 u j)) = _
  refine congrArg _ (funext fun a => Fin.ext ?_)
  match a with
  | ⟨0, _⟩ => show win1_0.index t (0 : Fin 2) * 1 + 1 * u.val = u.val; omega
  | ⟨1, _⟩ => show win1_0.index t (1 : Fin 2) * 128 + 1 * j.val = j.val; omega
theorem iblk1_2_apply (c : Dev nD) (t : Fin cfg1.N) (k : Fin 128) (q : Fin 12) :
    iblk1 V c 2 t (ix2 k q) = (V c main_v7 : S128x12.Idx → Elt F .f32) (ix2 k q) := by
  obtain ⟨-, -, -, -, -, -, -, -, -, -, -, -, e0, e1, -⟩ := idx1 t
  show V c main_v7 (((cfg1.win 2).blk t).view.emb (ix2 k q)) = _
  refine congrArg _ (funext fun a => Fin.ext ?_)
  match a with
  | ⟨0, _⟩ => show win1_2.index t (0 : Fin 2) * 128 + 1 * k.val = k.val; omega
  | ⟨1, _⟩ => show win1_2.index t (1 : Fin 2) * 12 + 1 * q.val = q.val; omega
theorem iblk1_3_apply (c : Dev nD) (t : Fin cfg1.N) (u : Fin 1) (q : Fin 12) :
    iblk1 V c 3 t (ix2 u q) = (V c main_v11 : S1x12.Idx → Elt F .f32) (ix2 u q) := by
  obtain ⟨-, -, -, -, -, -, -, -, -, -, -, -, -, -, e0, e1⟩ := idx1 t
  show V c main_v11 (((cfg1.win 3).blk t).view.emb (ix2 u q)) = _
  refine congrArg _ (funext fun a => Fin.ext ?_)
  match a with
  | ⟨0, _⟩ => show win1_3.index t (0 : Fin 2) * 1 + 1 * u.val = u.val; omega
  | ⟨1, _⟩ => show win1_3.index t (1 : Fin 2) * 12 + 1 * q.val = q.val; omega

end Blocks1

/-! ## The four result arrays of the head pass, over the extended reals -/

section Final1
variable (V : (c : Dev nD) → (b : Ref sig .tc) → Buf (Elt Ideal) ((c : Thread nD τ).loc b)) (c : Dev nD)

/-- The head pass's operands as the region finds them: the graph-layer row, the noise, the joined weight and bias. -/
abbrev gA : S1x128.Idx → EReal := V c main_v6
abbrev nA : S8192x128.Idx → EReal := V c main_arg1
abbrev wA : S128x12.Idx → EReal := V c main_v7
abbrev bA : S1x12.Idx → EReal := V c main_v11

/-- Row `r` of the first result, and of the three heads' joined pre-activations. -/
abbrev uRow (r : Fin 8192) : Fin 128 → EReal := unit (pert (r1 (gA V c)) (fun j => nA V c (ix2 r j)))
abbrev hRow (r : Fin 8192) : Fin 12 → EReal := aff (uRow V c r) (c2 (wA V c)) (r1 (bA V c))

def G4 : S8192x128.Idx → EReal := fun i => uRow V c (i 0) (i 1)
def G5 : S8192x8.Idx → EReal := fun i => Ideal.tanh (hRow V c (i 0) (Fin.castLE (by decide) (i 1)))
def G6 : S8192x1.Idx → EReal := fun i => hRow V c (i 0) ⟨8 + (i 1).val, by have h : (i 1).val < 1 := (i 1).isLt; omega⟩
def G7 : S8192x3.Idx → EReal := fun i => smax (fun q => hRow V c (i 0) ⟨9 + q.val, by omega⟩) (i 1)

/-- The blocks' rows as rows of the arrays. -/
theorem gRow_blk (t : Fin cfg1.N) : gRow (iblk1 V c 0 t) = r1 (gA V c) := funext fun j => iblk1_0_apply V c t 0 j
theorem nRow_blk (t : Fin cfg1.N) (p : Fin 2048) : nRow (iblk1 V c 1 t) p = fun j => nA V c (ix2 (row1 t p) j) :=
  funext fun j => iblk1_1_apply V c t p j
theorem wJ_blk (t : Fin cfg1.N) : wJ (iblk1 V c 2 t) = c2 (wA V c) := funext fun k => funext fun q => iblk1_2_apply V c t k q
theorem bJ_blk (t : Fin cfg1.N) : bJ (iblk1 V c 3 t) = r1 (bA V c) := funext fun q => iblk1_3_apply V c t 0 q

/-- An index of point `t`'s block of an output, in the array. -/
theorem emb4 (t : Fin cfg1.N) (y : S2048x128.Idx) : ((cfg1.win 4).blk t).view.emb y = ix2 (row1 t (y 0)) (y 1) := by
  obtain ⟨-, -, e0, e1, -⟩ := idx1 t
  refine funext fun a => Fin.ext ?_
  match a with
  | ⟨0, _⟩ => show win1_4.index t (0 : Fin 2) * 2048 + 1 * (y 0).val = 2048 * t.val + (y 0).val; omega
  | ⟨1, _⟩ => show win1_4.index t (1 : Fin 2) * 128 + 1 * (y 1).val = (y 1).val; omega
theorem emb5 (t : Fin cfg1.N) (y : S2048x8.Idx) : ((cfg1.win 5).blk t).view.emb y = ix2 (row1 t (y 0)) (y 1) := by
  obtain ⟨-, -, -, -, e0, e1, -⟩ := idx1 t
  refine funext fun a => Fin.ext ?_
  match a with
  | ⟨0, _⟩ => show win1_5.index t (0 : Fin 2) * 2048 + 1 * (y 0).val = 2048 * t.val + (y 0).val; omega
  | ⟨1, _⟩ => show win1_5.index t (1 : Fin 2) * 8 + 1 * (y 1).val = (y 1).val; omega
theorem emb6 (t : Fin cfg1.N) (y : S2048x1.Idx) : ((cfg1.win 6).blk t).view.emb y = ix2 (row1 t (y 0)) (y 1) := by
  obtain ⟨-, -, -, -, -, -, e0, e1, -⟩ := idx1 t
  refine funext fun a => Fin.ext ?_
  match a with
  | ⟨0, _⟩ => show win1_6.index t (0 : Fin 2) * 2048 + 1 * (y 0).val = 2048 * t.val + (y 0).val; omega
  | ⟨1, _⟩ => show win1_6.index t (1 : Fin 2) * 1 + 1 * (y 1).val = (y 1).val; omega
theorem emb7 (t : Fin cfg1.N) (y : S2048x3.Idx) : ((cfg1.win 7).blk t).view.emb y = ix2 (row1 t (y 0)) (y 1) := by
  obtain ⟨-, -, -, -, -, -, -, -, e0, e1, -⟩ := idx1 t
  refine funext fun a => Fin.ext ?_
  match a with
  | ⟨0, _⟩ => show win1_7.index t (0 : Fin 2) * 2048 + 1 * (y 0).val = 2048 * t.val + (y 0).val; omega
  | ⟨1, _⟩ => show win1_7.index t (1 : Fin 2) * 3 + 1 * (y 1).val = (y 1).val; omega

/-- What each point writes back is its block of the array-wide function. -/
theorem flushed4 (t : Fin cfg1.N) : (dat1 V c).flushed 4 t = ((cfg1.win 4).blk t).view.read (Elt Ideal) (G4 V c) := by
  show (cfg1.win 4).cut (grid1.coords t) ((dat1 V c).after 4 t) = _
  rw [after1_4]
  unfold headH
  rw [View.canon_unit_zero hz2]
  simp only [View.ld_unit_zero (S := S2048x128) hz2, View.ld_unit_zero (S := S1x128) hz2]
  refine funext fun (y : S2048x128.Idx) => ?_
  obtain ⟨p, j, rfl⟩ : ∃ (p : Fin 2048) (j : Fin 128), y = ix2 p j := ⟨y 0, y 1, eq_ix2 y⟩
  show k1_pay2 (F := Ideal) (iblk1 V c 1 t) (iblk1 V c 0 t) (ix2 p j) = G4 V c (((cfg1.win 4).blk t).view.emb (ix2 p j))
  rw [emb4, pay2_apply, gRow_blk, nRow_blk]
  rfl
theorem flushed5 (t : Fin cfg1.N) : (dat1 V c).flushed 5 t = ((cfg1.win 5).blk t).view.read (Elt Ideal) (G5 V c) := by
  show (cfg1.win 5).cut (grid1.coords t) ((dat1 V c).after 5 t) = _
  rw [after1_5]
  unfold headP
  rw [View.canon_unit_zero hz2]
  simp only [View.ld_unit_zero (S := S2048x128) hz2, View.ld_unit_zero (S := S1x128) hz2, View.ld_unit_zero (S := S128x12) hz2, View.ld_unit_zero (S := S1x12) hz2]
  refine funext fun (y : S2048x8.Idx) => ?_
  obtain ⟨p, j, rfl⟩ : ∃ (p : Fin 2048) (j : Fin 8), y = ix2 p j := ⟨y 0, y 1, eq_ix2 y⟩
  show k1_pay4 (F := Ideal) (iblk1 V c 1 t) (iblk1 V c 0 t) (iblk1 V c 2 t) (iblk1 V c 3 t) (ix2 p j) = G5 V c (((cfg1.win 5).blk t).view.emb (ix2 p j))
  rw [emb5, pay4_apply, gRow_blk, nRow_blk, wJ_blk, bJ_blk]
  rfl
theorem flushed6 (t : Fin cfg1.N) : (dat1 V c).flushed 6 t = ((cfg1.win 6).blk t).view.read (Elt Ideal) (G6 V c) := by
  show (cfg1.win 6).cut (grid1.coords t) ((dat1 V c).after 6 t) = _
  rw [after1_6]
  unfold headV
  rw [View.canon_unit_zero hz2]
  simp only [View.ld_unit_zero (S := S2048x128) hz2, View.ld_unit_zero (S := S1x128) hz2, View.ld_unit_zero (S := S128x12) hz2, View.ld_unit_zero (S := S1x12) hz2]
  refine funext fun (y : S2048x1.Idx) => ?_
  obtain ⟨p, j, rfl⟩ : ∃ (p : Fin 2048) (j : Fin 1), y = ix2 p j := ⟨y 0, y 1, eq_ix2 y⟩
  show k1_pay5 (F := Ideal) (iblk1 V c 1 t) (iblk1 V c 0 t) (iblk1 V c 2 t) (iblk1 V c 3 t) (ix2 p j) = G6 V c (((cfg1.win 6).blk t).view.emb (ix2 p j))
  rw [emb6, pay5_apply, gRow_blk, nRow_blk, wJ_blk, bJ_blk]
  rfl
theorem flushed7 (t : Fin cfg1.N) : (dat1 V c).flushed 7 t = ((cfg1.win 7).blk t).view.read (Elt Ideal) (G7 V c) := by
  show (cfg1.win 7).cut (grid1.coords t) ((dat1 V c).after 7 t) = _
  rw [after1_7]
  unfold headR
  rw [View.canon_unit_zero hz2]
  simp only [View.ld_unit_zero (S := S2048x128) hz2, View.ld_unit_zero (S := S1x128) hz2, View.ld_unit_zero (S := S128x12) hz2, View.ld_unit_zero (S := S1x12) hz2]
  refine funext fun (y : S2048x3.Idx) => ?_
  obtain ⟨p, j, rfl⟩ : ∃ (p : Fin 2048) (j : Fin 3), y = ix2 p j := ⟨y 0, y 1, eq_ix2 y⟩
  show k1_pay1 (F := Ideal) (k1_pay6 (iblk1 V c 1 t) (iblk1 V c 0 t) (iblk1 V c 2 t) (iblk1 V c 3 t)) (k1_pay7 (iblk1 V c 1 t) (iblk1 V c 0 t) (iblk1 V c 2 t) (iblk1 V c 3 t)) (ix2 p j) = G7 V c (((cfg1.win 7).blk t).view.emb (ix2 p j))
  rw [emb7, pay1_apply]
  unfold lRow
  rw [gRow_blk, nRow_blk, wJ_blk, bJ_blk]
  rfl

theorem cover4 (i : S8192x128.Idx) : ∃ t : Fin cfg1.N, (cfg1.win 4).flush t = true ∧ i ∈ ((cfg1.win 4).blk t).view.set := by
  have hi : (i 0).val < 8192 := (i 0).isLt
  have hj : (i 1).val < 128 := (i 1).isLt
  have hN : (i 0).val / 2048 < cfg1.N := by rw [show cfg1.N = 4 from N_1]; omega
  refine ⟨⟨(i 0).val / 2048, hN⟩, flush1_4 _, ?_⟩
  have hidx := idx1 ⟨(i 0).val / 2048, hN⟩
  show i ∈ ((View.whole main_v12_0).slice (win1_4.rect ⟨(i 0).val / 2048, hN⟩)).set
  rw [View.set_slice_whole, Rect.mem_set_unit]
  intro a
  match a with
  | ⟨0, _⟩ =>
    show win1_4.index _ (0 : Fin 2) * 2048 ≤ (i 0).val ∧ (i 0).val < win1_4.index _ (0 : Fin 2) * 2048 + 2048
    have e := hidx.2.2.1
    dsimp only at e
    omega
  | ⟨1, _⟩ =>
    show win1_4.index _ (1 : Fin 2) * 128 ≤ (i 1).val ∧ (i 1).val < win1_4.index _ (1 : Fin 2) * 128 + 128
    have e := hidx.2.2.2.1
    omega
theorem cover5 (i : S8192x8.Idx) : ∃ t : Fin cfg1.N, (cfg1.win 5).flush t = true ∧ i ∈ ((cfg1.win 5).blk t).view.set := by
  have hi : (i 0).val < 8192 := (i 0).isLt
  have hj : (i 1).val < 8 := (i 1).isLt
  have hN : (i 0).val / 2048 < cfg1.N := by rw [show cfg1.N = 4 from N_1]; omega
  refine ⟨⟨(i 0).val / 2048, hN⟩, flush1_5 _, ?_⟩
  have hidx := idx1 ⟨(i 0).val / 2048, hN⟩
  show i ∈ ((View.whole main_v12_1).slice (win1_5.rect ⟨(i 0).val / 2048, hN⟩)).set
  rw [View.set_slice_whole, Rect.mem_set_unit]
  intro a
  match a with
  | ⟨0, _⟩ =>
    show win1_5.index _ (0 : Fin 2) * 2048 ≤ (i 0).val ∧ (i 0).val < win1_5.index _ (0 : Fin 2) * 2048 + 2048
    have e := hidx.2.2.2.2.1
    dsimp only at e
    omega
  | ⟨1, _⟩ =>
    show win1_5.index _ (1 : Fin 2) * 8 ≤ (i 1).val ∧ (i 1).val < win1_5.index _ (1 : Fin 2) * 8 + 8
    have e := hidx.2.2.2.2.2.1
    omega
theorem cover6 (i : S8192x1.Idx) : ∃ t : Fin cfg1.N, (cfg1.win 6).flush t = true ∧ i ∈ ((cfg1.win 6).blk t).view.set := by
  have hi : (i 0).val < 8192 := (i 0).isLt
  have hj : (i 1).val < 1 := (i 1).isLt
  have hN : (i 0).val / 2048 < cfg1.N := by rw [show cfg1.N = 4 from N_1]; omega
  refine ⟨⟨(i 0).val / 2048, hN⟩, flush1_6 _, ?_⟩
  have hidx := idx1 ⟨(i 0).val / 2048, hN⟩
  show i ∈ ((View.whole main_v12_2).slice (win1_6.rect ⟨(i 0).val / 2048, hN⟩)).set
  rw [View.set_slice_whole, Rect.mem_set_unit]
  intro a
  match a with
  | ⟨0, _⟩ =>
    show win1_6.index _ (0 : Fin 2) * 2048 ≤ (i 0).val ∧ (i 0).val < win1_6.index _ (0 : Fin 2) * 2048 + 2048
    have e := hidx.2.2.2.2.2.2.1
    dsimp only at e
    omega
  | ⟨1, _⟩ =>
    show win1_6.index _ (1 : Fin 2) * 1 ≤ (i 1).val ∧ (i 1).val < win1_6.index _ (1 : Fin 2) * 1 + 1
    have e := hidx.2.2.2.2.2.2.2.1
    omega
theorem cover7 (i : S8192x3.Idx) : ∃ t : Fin cfg1.N, (cfg1.win 7).flush t = true ∧ i ∈ ((cfg1.win 7).blk t).view.set := by
  have hi : (i 0).val < 8192 := (i 0).isLt
  have hj : (i 1).val < 3 := (i 1).isLt
  have hN : (i 0).val / 2048 < cfg1.N := by rw [show cfg1.N = 4 from N_1]; omega
  refine ⟨⟨(i 0).val / 2048, hN⟩, flush1_7 _, ?_⟩
  have hidx := idx1 ⟨(i 0).val / 2048, hN⟩
  show i ∈ ((View.whole main_v12_3).slice (win1_7.rect ⟨(i 0).val / 2048, hN⟩)).set
  rw [View.set_slice_whole, Rect.mem_set_unit]
  intro a
  match a with
  | ⟨0, _⟩ =>
    show win1_7.index _ (0 : Fin 2) * 2048 ≤ (i 0).val ∧ (i 0).val < win1_7.index _ (0 : Fin 2) * 2048 + 2048
    have e := hidx.2.2.2.2.2.2.2.2.1
    dsimp only at e
    omega
  | ⟨1, _⟩ =>
    show win1_7.index _ (1 : Fin 2) * 3 ≤ (i 1).val ∧ (i 1).val < win1_7.index _ (1 : Fin 2) * 3 + 3
    have e := hidx.2.2.2.2.2.2.2.2.2.1
    omega

theorem final4 : (dat1 V c).arrAt 4 cfg1.N = G4 V c :=
  (dat1 V c).arrAt_eq_of_cover 4 (G4 V c) (fun t _ => flushed4 V c t) (cover4)
theorem final5 : (dat1 V c).arrAt 5 cfg1.N = G5 V c :=
  (dat1 V c).arrAt_eq_of_cover 5 (G5 V c) (fun t _ => flushed5 V c t) (cover5)
theorem final6 : (dat1 V c).arrAt 6 cfg1.N = G6 V c :=
  (dat1 V c).arrAt_eq_of_cover 6 (G6 V c) (fun t _ => flushed6 V c t) (cover6)
theorem final7 : (dat1 V c).arrAt 7 cfg1.N = G7 V c :=
  (dat1 V c).arrAt_eq_of_cover 7 (G7 V c) (fun t _ => flushed7 V c t) (cover7)

end Final1

end Cert.KernelIdeal.Hand

end
-- ==== Proof.LibJoin3.lean ====
/-
  Three arrays joined side by side.

  Three matrices with the same number of rows, joined along the column axis, read at (i, e): the first at column e while e
  is within its width, the second at e less the first's width, the third at e less the first two widths.
-/
import Idealize.ShloMosaic.Lib.ValueIdx
import Idealize.ShloMosaic.Lib.Pipeline.Value

noncomputable section

namespace Cert.Join3

open Idealize.ShloMosaic Idealize.ShloMosaic.ValueIdx

variable {α : Type} {a p q r n : Nat}

/-- Within the first matrix's columns the join reads the first matrix. -/
theorem left (x : (⟨2, ![a, p]⟩ : Shape).Idx → α) (y : (⟨2, ![a, q]⟩ : Shape).Idx → α) (z : (⟨2, ![a, r]⟩ : Shape).Idx → α)
    (h : Shape.Concatenates [⟨2, ![a, p]⟩, ⟨2, ![a, q]⟩, ⟨2, ![a, r]⟩] ⟨2, ![a, n]⟩ 1)
    (i : Fin a) (e : Fin n) (e' : Fin p) (he : e.val = e'.val) :
    concatenate ⟨2, ![a, n]⟩ 1 [⟨⟨2, ![a, p]⟩, x⟩, ⟨⟨2, ![a, q]⟩, y⟩, ⟨⟨2, ![a, r]⟩, z⟩] h (ix2 i e) = x (ix2 i e') :=
  concatenate_apply_piece (t := ⟨2, ![a, n]⟩) 1 [⟨⟨2, ![a, p]⟩, x⟩, ⟨⟨2, ![a, q]⟩, y⟩, ⟨⟨2, ![a, r]⟩, z⟩] h (ix2 i e) 0 (by simp) ⟨2, ![a, p]⟩ x rfl rfl 0 rfl (ix2 i e')
    (fun b hb => by
      match b with
      | ⟨0, _⟩ => rfl
      | ⟨1, _⟩ => exact absurd rfl hb)
    (by show 0 + e'.val = e.val; omega)

/-- Past them, within the second's, it reads the second. -/
theorem mid (x : (⟨2, ![a, p]⟩ : Shape).Idx → α) (y : (⟨2, ![a, q]⟩ : Shape).Idx → α) (z : (⟨2, ![a, r]⟩ : Shape).Idx → α)
    (h : Shape.Concatenates [⟨2, ![a, p]⟩, ⟨2, ![a, q]⟩, ⟨2, ![a, r]⟩] ⟨2, ![a, n]⟩ 1)
    (i : Fin a) (e : Fin n) (e' : Fin q) (he : e.val = p + e'.val) :
    concatenate ⟨2, ![a, n]⟩ 1 [⟨⟨2, ![a, p]⟩, x⟩, ⟨⟨2, ![a, q]⟩, y⟩, ⟨⟨2, ![a, r]⟩, z⟩] h (ix2 i e) = y (ix2 i e') :=
  concatenate_apply_piece (t := ⟨2, ![a, n]⟩) 1 [⟨⟨2, ![a, p]⟩, x⟩, ⟨⟨2, ![a, q]⟩, y⟩, ⟨⟨2, ![a, r]⟩, z⟩] h (ix2 i e) 1 (by simp) ⟨2, ![a, q]⟩ y rfl rfl p (by simp) (ix2 i e')
    (fun b hb => by
      match b with
      | ⟨0, _⟩ => rfl
      | ⟨1, _⟩ => exact absurd rfl hb)
    (by show p + e'.val = e.val; omega)

/-- Past both it reads the third. -/
theorem right (x : (⟨2, ![a, p]⟩ : Shape).Idx → α) (y : (⟨2, ![a, q]⟩ : Shape).Idx → α) (z : (⟨2, ![a, r]⟩ : Shape).Idx → α)
    (h : Shape.Concatenates [⟨2, ![a, p]⟩, ⟨2, ![a, q]⟩, ⟨2, ![a, r]⟩] ⟨2, ![a, n]⟩ 1)
    (i : Fin a) (e : Fin n) (e' : Fin r) (he : e.val = p + q + e'.val) :
    concatenate ⟨2, ![a, n]⟩ 1 [⟨⟨2, ![a, p]⟩, x⟩, ⟨⟨2, ![a, q]⟩, y⟩, ⟨⟨2, ![a, r]⟩, z⟩] h (ix2 i e) = z (ix2 i e') :=
  concatenate_apply_piece (t := ⟨2, ![a, n]⟩) 1 [⟨⟨2, ![a, p]⟩, x⟩, ⟨⟨2, ![a, q]⟩, y⟩, ⟨⟨2, ![a, r]⟩, z⟩] h (ix2 i e) 2 (by simp) ⟨2, ![a, r]⟩ z rfl rfl (p + q) (by simp) (ix2 i e')
    (fun b hb => by
      match b with
      | ⟨0, _⟩ => rfl
      | ⟨1, _⟩ => exact absurd rfl hb)
    (by show p + q + e'.val = e.val; omega)

end Cert.Join3

end
-- ==== Proof.KernelValue.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.Blocks0
import proofs.«104509_j22625887715845_2_alg».proof.Proof.Blocks1
import proofs.«104509_j22625887715845_2_alg».proof.Proof.LibJoin3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx
open Cert.Rows (aff reluAff norm unit smax rmax pert)

variable {F : FTy → Type} [FloatOps F]

local notation "𝕄" => MT nD τ sig Unit (Elt F) ℕ (Pipeline.UD sig nD τ) ℕ

/-! # The kernel's four results are the specification's, given that its first pass ends at the graph-layer row -/

section
variable (m : (ℓ : Loc nD τ sig) → Buf (Elt Ideal) ℓ) (c : Dev nD)
variable (hg : ∀ j : Fin 128, gnnOut (U1 m) c (ix2 0 j) = Spec.gnn (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) j)

include hg in
theorem gA_eq : r1 (gA (U3 m) c) = (Spec.gnn (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := funext fun j => by
  show U3 m c main_v6 (ix2 0 j) = _
  rw [U3_v6, final0]
  exact hg j
theorem nA_eq : nA (U3 m) c = (m ((c : Thread nD τ).loc main_arg1)) := U3_arg1 m c

include hg in
theorem uRow_eq (r : Fin 8192) : uRow (U3 m) c r = unit (pert (Spec.gnn (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Rows.f2 (m ((c : Thread nD τ).loc main_arg1)) r)) := by
  show unit (pert (r1 (gA (U3 m) c)) (fun j => nA (U3 m) c (ix2 r j))) = _
  rw [gA_eq m c hg, nA_eq]

/-- The joined weight and bias, column group by column group. -/
theorem hRow_p (r : Fin 8192) (q : Fin 8) :
    hRow (U3 m) c r (Fin.castLE (by decide) q) = aff (uRow (U3 m) c r) (Rows.f2 (m ((c : Thread nD τ).loc main_arg10))) (Rows.f1 (m ((c : Thread nD τ).loc main_arg11))) q := by
  show (∑ k : Fin 128, uRow (U3 m) c r k * (U3 m c main_v7 : S128x12.Idx → EReal) (ix2 k (Fin.castLE (by decide) q)))
      + (U3 m c main_v11 : S1x12.Idx → EReal) (ix2 0 (Fin.castLE (by decide) q)) = _
  rw [U3_v7, U3_v11]
  unfold Rows.aff
  congr 1
  · exact Finset.sum_congr rfl fun k _ => congrArg (uRow (U3 m) c r k * ·) (Join3.left _ _ _ _ k (Fin.castLE (by decide) q : Fin 12) q rfl)
  · exact (Join3.left _ _ _ _ 0 (Fin.castLE (by decide) q : Fin 12) q rfl).trans (shapeCast_a_1a_apply _ _ 0 q)
theorem hRow_v (r : Fin 8192) (u : Fin 1) :
    hRow (U3 m) c r ⟨8 + u.val, by omega⟩ = aff (uRow (U3 m) c r) (Rows.f2 (m ((c : Thread nD τ).loc main_arg12))) (Rows.f1 (m ((c : Thread nD τ).loc main_arg13))) u := by
  show (∑ k : Fin 128, uRow (U3 m) c r k * (U3 m c main_v7 : S128x12.Idx → EReal) (ix2 k ⟨8 + u.val, by omega⟩))
      + (U3 m c main_v11 : S1x12.Idx → EReal) (ix2 0 ⟨8 + u.val, by omega⟩) = _
  rw [U3_v7, U3_v11]
  unfold Rows.aff
  congr 1
  · exact Finset.sum_congr rfl fun k _ => congrArg (uRow (U3 m) c r k * ·) (Join3.mid _ _ _ _ k (⟨8 + u.val, by omega⟩ : Fin 12) u rfl)
  · exact (Join3.mid _ _ _ _ 0 (⟨8 + u.val, by omega⟩ : Fin 12) u rfl).trans (shapeCast_a_1a_apply _ _ 0 u)
theorem hRow_r (r : Fin 8192) (q : Fin 3) :
    hRow (U3 m) c r ⟨9 + q.val, by omega⟩ = aff (uRow (U3 m) c r) (Rows.f2 (m ((c : Thread nD τ).loc main_arg14))) (Rows.f1 (m ((c : Thread nD τ).loc main_arg15))) q := by
  show (∑ k : Fin 128, uRow (U3 m) c r k * (U3 m c main_v7 : S128x12.Idx → EReal) (ix2 k ⟨9 + q.val, by omega⟩))
      + (U3 m c main_v11 : S1x12.Idx → EReal) (ix2 0 ⟨9 + q.val, by omega⟩) = _
  rw [U3_v7, U3_v11]
  unfold Rows.aff
  congr 1
  · exact Finset.sum_congr rfl fun k _ => congrArg (uRow (U3 m) c r k * ·) (Join3.right _ _ _ _ k (⟨9 + q.val, by omega⟩ : Fin 12) q (by show 9 + q.val = 8 + 1 + q.val; omega))
  · exact (Join3.right _ _ _ _ 0 (⟨9 + q.val, by omega⟩ : Fin 12) q (by show 9 + q.val = 8 + 1 + q.val; omega)).trans (shapeCast_a_1a_apply _ _ 0 q)

include hg in
theorem out0 : B4 m c (Proc.devRef .tc main_v12_0) = Spec.R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (B4_arr m c 4).trans ?_
  rw [final4]
  funext i
  exact congrFun (uRow_eq m c hg (i 0)) (i 1)
include hg in
theorem out1 : B4 m c (Proc.devRef .tc main_v12_1) = Spec.R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (B4_arr m c 5).trans ?_
  rw [final5]
  funext i
  exact congrArg Ideal.tanh ((hRow_p m c (i 0) (i 1)).trans
    (congrArg (fun u => aff u (Rows.f2 (m ((c : Thread nD τ).loc main_arg10))) (Rows.f1 (m ((c : Thread nD τ).loc main_arg11))) (i 1)) (uRow_eq m c hg (i 0))))
include hg in
theorem out2 : B4 m c (Proc.devRef .tc main_v12_2) = Spec.R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  refine (B4_arr m c 6).trans ?_
  rw [final6]
  funext i
  exact (hRow_v m c (i 0) (i 1)).trans
    (congrArg (fun u => aff u (Rows.f2 (m ((c : Thread nD τ).loc main_arg12))) (Rows.f1 (m ((c : Thread nD τ).loc main_arg13))) (i 1)) (uRow_eq m c hg (i 0)))
include hg in
theorem out3 : B4 m c (Proc.devRef .tc main_v12_3) = Spec.R3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) := by
  refine (B4_arr m c 7).trans ?_
  rw [final7]
  funext i
  exact congrArg (fun v => smax v (i 1)) ((funext fun q => hRow_r m c (i 0) q).trans
    (congrArg (fun u => aff u (Rows.f2 (m ((c : Thread nD τ).loc main_arg14))) (Rows.f1 (m ((c : Thread nD τ).loc main_arg15)))) (uRow_eq m c hg (i 0))))

end

end Cert.KernelIdeal.Hand

end
-- ==== Proof.LibTiledSum.lean ====
/-
  A sum over `T · n` consecutive indices taken tile by tile.

  In a commutative monoid a sum over `Fin N` with `N = T · n` is the sum over the `T` tiles of the sums over the
  `n` indices of each tile, index `l` of tile `j` being `n · j + l`; and the sum over the tiles is what an
  accumulator started at zero holds after the last tile has been added to it.
-/
import Mathlib.Algebra.BigOperators.Fin
import Mathlib.Algebra.BigOperators.Intervals
import Mathlib.Logic.Equiv.Fin.Basic

open scoped BigOperators

namespace Cert.TiledSum

/-- Index `l` of tile `j`, among `N = T · n` indices. -/
def tile {T n N : Nat} (h : T * n = N) (j : Fin T) (l : Fin n) : Fin N :=
  ⟨n * j.val + l.val, by
    have hj := j.isLt; have hl := l.isLt
    have : n * j.val + n ≤ n * T := by
      have := Nat.mul_le_mul_left n (Nat.succ_le_of_lt hj)
      simpa [Nat.mul_succ] using this
    rw [← h, Nat.mul_comm T n]; omega⟩

@[simp] theorem tile_val {T n N : Nat} (h : T * n = N) (j : Fin T) (l : Fin n) :
    (tile h j l).val = n * j.val + l.val := rfl

/-- A sum over `T · n` indices is the sum over the tiles of the sums within each tile. -/
theorem sum_tiles {M : Type*} [AddCommMonoid M] {T n N : Nat} (h : T * n = N) (F : Fin N → M) :
    ∑ f : Fin N, F f = ∑ j : Fin T, ∑ l : Fin n, F (tile h j l) := by
  subst h
  rw [← Equiv.sum_comp finProdFinEquiv F, Fintype.sum_prod_type]
  refine Finset.sum_congr rfl fun j _ => Finset.sum_congr rfl fun l _ => congrArg F (Fin.ext ?_)
  simp [finProdFinEquiv, tile, Nat.add_comm]

/-- The sum over all `T` tiles is the sum over the first `T` naturals. -/
theorem sum_fin_eq_range {M : Type*} [AddCommMonoid M] (T : Nat) (p : Nat → M) :
    ∑ j : Fin T, p j.val = ∑ j ∈ Finset.range T, p j := (Finset.sum_range p).symm

end Cert.TiledSum
-- ==== Proof.GnnBlocks.lean ====
/-
  The reduction pass's blocks, read at an index: the state window moves down 2048 rows per point and returns to the top
  after four points; every other window is its whole array.
-/
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.Region0Data
import proofs.«104509_j22625887715845_2_alg».proof.Proof.LibTiledSum
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx

variable {F : FTy → Type} [FloatOps F]

section Blocks0
variable (V : (c : Dev nD) → (b : Ref sig .tc) → Buf (Elt F) ((c : Thread nD τ).loc b))

/-- The 8192 rows are four tiles of 2048. -/
theorem h4 : 4 * 2048 = 8192 := rfl

/-- The printed index maps over the grid: the state window's block row is the point's number modulo four; the other
    windows stay at their one block. -/
theorem idx0 : ∀ t : Fin cfg0.N, win0_0.index t (0 : Fin 2) = t.val % 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row `p` of the state block of a point whose number is `j4` modulo four is row `p` of tile `j4` of the array. -/
theorem iblk0_0_apply (c : Dev nD) (t : Fin cfg0.N) (j4 : Fin 4) (hj : t.val % 4 = j4.val) (p : Fin 2048) (k : Fin 64) :
    iblk0 V c 0 t (ix2 p k) = (V c main_arg0 : S8192x64.Idx → Elt F .f32) (ix2 (Cert.TiledSum.tile h4 j4 p) k) := by
  obtain ⟨e0, e1, -⟩ := idx0 t
  show V c main_arg0 (((cfg0.win 0).blk t).view.emb (ix2 p k)) = _
  refine congrArg _ (funext fun a => Fin.ext ?_)
  match a with
  | ⟨0, _⟩ => show win0_0.index t (0 : Fin 2) * 2048 + 1 * p.val = 2048 * j4.val + p.val; omega
  | ⟨1, _⟩ => show win0_0.index t (1 : Fin 2) * 64 + 1 * k.val = k.val; omega
theorem iblk0_1_apply (c : Dev nD) (t : Fin cfg0.N) (x : Fin 64) (y : Fin 128) :
    iblk0 V c 1 t (ix2 x y) = (V c main_v0 : S64x128.Idx → Elt F .f32) (ix2 x y) := by
  obtain ⟨-, -, e0, e1, -⟩ := idx0 t
  show V c main_v0 (((cfg0.win 1).blk t).view.emb (ix2 x y)) = _
  refine congrArg _ (funext fun a => Fin.ext ?_)
  match a with
  | ⟨0, _⟩ => show win0_1.index t (0 : Fin 2) * 64 + 1 * x.val = x.val; omega
  | ⟨1, _⟩ => show win0_1.index t (1 : Fin 2) * 128 + 1 * y.val = y.val; omega
theorem iblk0_2_apply (c : Dev nD) (t : Fin cfg0.N) (x : Fin 32) (y : Fin 128) :
    iblk0 V c 2 t (ix2 x y) = (V c main_v1 : S32x128.Idx → Elt F .f32) (ix2 x y) := by
  obtain ⟨-, -, -, -, e0, e1, -⟩ := idx0 t
  show V c main_v1 (((cfg0.win 2).blk t).view.emb (ix2 x y)) = _
  refine congrArg _ (funext fun a => Fin.ext ?_)
  match a with
  | ⟨0, _⟩ => show win0_2.index t (0 : Fin 2) * 32 + 1 * x.val = x.val; omega
  | ⟨1, _⟩ => show win0_2.index t (1 : Fin 2) * 128 + 1 * y.val = y.val; omega
theorem iblk0_3_apply (c : Dev nD) (t : Fin cfg0.N) (x : Fin 1) (y : Fin 128) :
    iblk0 V c 3 t (ix2 x y) = (V c main_v2 : S1x128.Idx → Elt F .f32) (ix2 x y) := by
  obtain ⟨-, -, -, -, -, -, e0, e1, -⟩ := idx0 t
  show V c main_v2 (((cfg0.win 3).blk t).view.emb (ix2 x y)) = _
  refine congrArg _ (funext fun a => Fin.ext ?_)
  match a with
  | ⟨0, _⟩ => show win0_3.index t (0 : Fin 2) * 1 + 1 * x.val = x.val; omega
  | ⟨1, _⟩ => show win0_3.index t (1 : Fin 2) * 128 + 1 * y.val = y.val; omega
theorem iblk0_4_apply (c : Dev nD) (t : Fin cfg0.N) (x : Fin 128) (y : Fin 128) :
    iblk0 V c 4 t (ix2 x y) = (V c main_arg4 : S128x128.Idx → Elt F .f32) (ix2 x y) := by
  obtain ⟨-, -, -, -, -, -, -, -, e0, e1, -⟩ := idx0 t
  show V c main_arg4 (((cfg0.win 4).blk t).view.emb (ix2 x y)) = _
  refine congrArg _ (funext fun a => Fin.ext ?_)
  match a with
  | ⟨0, _⟩ => show win0_4.index t (0 : Fin 2) * 128 + 1 * x.val = x.val; omega
  | ⟨1, _⟩ => show win0_4.index t (1 : Fin 2) * 128 + 1 * y.val = y.val; omega
theorem iblk0_5_apply (c : Dev nD) (t : Fin cfg0.N) (x : Fin 1) (y : Fin 128) :
    iblk0 V c 5 t (ix2 x y) = (V c main_v3 : S1x128.Idx → Elt F .f32) (ix2 x y) := by
  obtain ⟨-, -, -, -, -, -, -, -, -, -, e0, e1, -⟩ := idx0 t
  show V c main_v3 (((cfg0.win 5).blk t).view.emb (ix2 x y)) = _
  refine congrArg _ (funext fun a => Fin.ext ?_)
  match a with
  | ⟨0, _⟩ => show win0_5.index t (0 : Fin 2) * 1 + 1 * x.val = x.val; omega
  | ⟨1, _⟩ => show win0_5.index t (1 : Fin 2) * 128 + 1 * y.val = y.val; omega
theorem iblk0_6_apply (c : Dev nD) (t : Fin cfg0.N) (x : Fin 128) (y : Fin 32) :
    iblk0 V c 6 t (ix2 x y) = (V c main_arg6 : S128x32.Idx → Elt F .f32) (ix2 x y) := by
  obtain ⟨-, -, -, -, -, -, -, -, -, -, -, -, e0, e1, -⟩ := idx0 t
  show V c main_arg6 (((cfg0.win 6).blk t).view.emb (ix2 x y)) = _
  refine congrArg _ (funext fun a => Fin.ext ?_)
  match a with
  | ⟨0, _⟩ => show win0_6.index t (0 : Fin 2) * 128 + 1 * x.val = x.val; omega
  | ⟨1, _⟩ => show win0_6.index t (1 : Fin 2) * 32 + 1 * y.val = y.val; omega
theorem iblk0_7_apply (c : Dev nD) (t : Fin cfg0.N) (x : Fin 1) (y : Fin 32) :
    iblk0 V c 7 t (ix2 x y) = (V c main_v4 : S1x32.Idx → Elt F .f32) (ix2 x y) := by
  obtain ⟨-, -, -, -, -, -, -, -, -, -, -, -, -, -, e0, e1, -⟩ := idx0 t
  show V c main_v4 (((cfg0.win 7).blk t).view.emb (ix2 x y)) = _
  refine congrArg _ (funext fun a => Fin.ext ?_)
  match a with
  | ⟨0, _⟩ => show win0_7.index t (0 : Fin 2) * 1 + 1 * x.val = x.val; omega
  | ⟨1, _⟩ => show win0_7.index t (1 : Fin 2) * 32 + 1 * y.val = y.val; omega
theorem iblk0_8_apply (c : Dev nD) (t : Fin cfg0.N) (x : Fin 128) (y : Fin 128) :
    iblk0 V c 8 t (ix2 x y) = (V c main_arg8 : S128x128.Idx → Elt F .f32) (ix2 x y) := by
  obtain ⟨-, -, -, -, -, -, -, -, -, -, -, -, -, -, -, -, e0, e1, -⟩ := idx0 t
  show V c main_arg8 (((cfg0.win 8).blk t).view.emb (ix2 x y)) = _
  refine congrArg _ (funext fun a => Fin.ext ?_)
  match a with
  | ⟨0, _⟩ => show win0_8.index t (0 : Fin 2) * 128 + 1 * x.val = x.val; omega
  | ⟨1, _⟩ => show win0_8.index t (1 : Fin 2) * 128 + 1 * y.val = y.val; omega
theorem iblk0_9_apply (c : Dev nD) (t : Fin cfg0.N) (x : Fin 1) (y : Fin 128) :
    iblk0 V c 9 t (ix2 x y) = (V c main_v5 : S1x128.Idx → Elt F .f32) (ix2 x y) := by
  obtain ⟨-, -, -, -, -, -, -, -, -, -, -, -, -, -, -, -, -, -, e0, e1⟩ := idx0 t
  show V c main_v5 (((cfg0.win 9).blk t).view.emb (ix2 x y)) = _
  refine congrArg _ (funext fun a => Fin.ext ?_)
  match a with
  | ⟨0, _⟩ => show win0_9.index t (0 : Fin 2) * 1 + 1 * x.val = x.val; omega
  | ⟨1, _⟩ => show win0_9.index t (1 : Fin 2) * 128 + 1 * y.val = y.val; omega

end Blocks0

end Cert.KernelIdeal.Hand

end
-- ==== Proof.GnnChain.lean ====
/-
  The reduction pass's three carried buffers end at the specification's sums: the message accumulator at the sum of all
  8192 messages (four tile sums added to zero), the communication bias at the specification's, the hidden accumulator at
  the sum of all 8192 second-pass rows, and the region's output at the graph layer's row.
-/
import proofs.«104509_j22625887715845_2_alg».proof.Proof.GnnBlocks
import proofs.«104509_j22625887715845_2_alg».proof.Proof.ReduceAt
import proofs.«104509_j22625887715845_2_alg».proof.Proof.EntryArrays
import proofs.«104509_j22625887715845_2_alg».proof.Proof.Rows
import proofs.«104509_j22625887715845_2_alg».proof.Proof.LibTiledSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx
open Cert.Rows (aff reluAff norm unit f1 f2 W1a W1b)
open Cert.TiledSum (tile)

section Chain
variable (m : (ℓ : Loc nD τ sig) → Buf (Elt Ideal) ℓ) (c : Dev nD)

/-- The launch arrays the pass reads, under the specification's names. -/
abbrev aSt : Spec.A2 8192 64 := m ((c : Thread nD τ).loc main_arg0)
abbrev aW1 : Spec.A2 96 128 := m ((c : Thread nD τ).loc main_arg2)
abbrev ab1 : Spec.A1 128 := m ((c : Thread nD τ).loc main_arg3)
abbrev aW2 : Spec.A2 128 128 := m ((c : Thread nD τ).loc main_arg4)
abbrev ab2 : Spec.A1 128 := m ((c : Thread nD τ).loc main_arg5)
abbrev aWc : Spec.A2 128 32 := m ((c : Thread nD τ).loc main_arg6)
abbrev abc : Spec.A1 32 := m ((c : Thread nD τ).loc main_arg7)
abbrev aWg : Spec.A2 128 128 := m ((c : Thread nD τ).loc main_arg8)
abbrev abg : Spec.A1 128 := m ((c : Thread nD τ).loc main_arg9)

/-! ## The blocks as the specification's coordinate functions -/

theorem blk_st (t : Fin cfg0.N) (j4 : Fin 4) (hj : t.val % 4 = j4.val) (p : Fin 2048) :
    c2 (iblk0 (U1 m) c 0 t) p = f2 (aSt m c) (tile h4 j4 p) :=
  funext fun k => (iblk0_0_apply (U1 m) c t j4 hj p k).trans (congrFun (U1_keep m c main_arg0 (by decide)) _)
theorem blk_W1a (t : Fin cfg0.N) : c2 (iblk0 (U1 m) c 1 t) = W1a (aW1 m c) :=
  funext fun k => funext fun j => (iblk0_1_apply (U1 m) c t k j).trans ((congrFun (U1_v0 m c) (ix2 k j)).trans
    (slice2_axis0_apply 0 _ _ k j (Fin.castLE (by decide) k) (by show k.val = 0 + k.val; omega)))
theorem blk_W1b (t : Fin cfg0.N) : c2 (iblk0 (U1 m) c 2 t) = W1b (aW1 m c) :=
  funext fun q => funext fun j => (iblk0_2_apply (U1 m) c t q j).trans ((congrFun (U1_v1 m c) (ix2 q j)).trans
    (slice2_axis0_apply 64 _ _ q j (Fin.natAdd 64 q) rfl))
theorem blk_b1 (t : Fin cfg0.N) : r1 (iblk0 (U1 m) c 3 t) = f1 (ab1 m c) :=
  funext fun j => (iblk0_3_apply (U1 m) c t 0 j).trans ((congrFun (U1_v2 m c) (ix2 0 j)).trans (shapeCast_a_1a_apply _ _ 0 j))
theorem blk_W2 (t : Fin cfg0.N) : c2 (iblk0 (U1 m) c 4 t) = f2 (aW2 m c) :=
  funext fun k => funext fun j => (iblk0_4_apply (U1 m) c t k j).trans (congrFun (U1_keep m c main_arg4 (by decide)) _)
theorem blk_b2 (t : Fin cfg0.N) : r1 (iblk0 (U1 m) c 5 t) = f1 (ab2 m c) :=
  funext fun j => (iblk0_5_apply (U1 m) c t 0 j).trans ((congrFun (U1_v3 m c) (ix2 0 j)).trans (shapeCast_a_1a_apply _ _ 0 j))
theorem blk_Wc (t : Fin cfg0.N) : c2 (iblk0 (U1 m) c 6 t) = f2 (aWc m c) :=
  funext fun k => funext fun j => (iblk0_6_apply (U1 m) c t k j).trans (congrFun (U1_keep m c main_arg6 (by decide)) _)
theorem blk_bc (t : Fin cfg0.N) : r1 (iblk0 (U1 m) c 7 t) = f1 (abc m c) :=
  funext fun j => (iblk0_7_apply (U1 m) c t 0 j).trans ((congrFun (U1_v4 m c) (ix2 0 j)).trans (shapeCast_a_1a_apply _ _ 0 j))
theorem blk_Wg (t : Fin cfg0.N) : c2 (iblk0 (U1 m) c 8 t) = f2 (aWg m c) :=
  funext fun k => funext fun j => (iblk0_8_apply (U1 m) c t k j).trans (congrFun (U1_keep m c main_arg8 (by decide)) _)
theorem blk_bg (t : Fin cfg0.N) : r1 (iblk0 (U1 m) c 9 t) = f1 (abg m c) :=
  funext fun j => (iblk0_9_apply (U1 m) c t 0 j).trans ((congrFun (U1_v5 m c) (ix2 0 j)).trans (shapeCast_a_1a_apply _ _ 0 j))

/-! ## The whole-block loads -/

theorem ld0 (t : Fin cfg0.N) : View.ld (iblk0 (U1 m) c 0 t) qS = iblk0 (U1 m) c 0 t := View.ld_unit_zero hz2 _ _
theorem ld1 (t : Fin cfg0.N) : View.ld (iblk0 (U1 m) c 1 t) qW1a = iblk0 (U1 m) c 1 t := View.ld_unit_zero hz2 _ _
theorem ld2 (t : Fin cfg0.N) : View.ld (iblk0 (U1 m) c 2 t) qW1b = iblk0 (U1 m) c 2 t := View.ld_unit_zero hz2 _ _
theorem ld3 (t : Fin cfg0.N) : View.ld (iblk0 (U1 m) c 3 t) qH = iblk0 (U1 m) c 3 t := View.ld_unit_zero hz2 _ _
theorem ld4 (t : Fin cfg0.N) : View.ld (iblk0 (U1 m) c 4 t) qW = iblk0 (U1 m) c 4 t := View.ld_unit_zero hz2 _ _
theorem ld5 (t : Fin cfg0.N) : View.ld (iblk0 (U1 m) c 5 t) qH = iblk0 (U1 m) c 5 t := View.ld_unit_zero hz2 _ _
theorem ld6 (t : Fin cfg0.N) : View.ld (iblk0 (U1 m) c 6 t) qWc = iblk0 (U1 m) c 6 t := View.ld_unit_zero hz2 _ _
theorem ld7 (t : Fin cfg0.N) : View.ld (iblk0 (U1 m) c 7 t) qC = iblk0 (U1 m) c 7 t := View.ld_unit_zero hz2 _ _
theorem ld8 (t : Fin cfg0.N) : View.ld (iblk0 (U1 m) c 8 t) qW = iblk0 (U1 m) c 8 t := View.ld_unit_zero hz2 _ _
theorem ld9 (t : Fin cfg0.N) : View.ld (iblk0 (U1 m) c 9 t) qH = iblk0 (U1 m) c 9 t := View.ld_unit_zero hz2 _ _
theorem ldC (X : Vec Ideal S1x32 .f32) : View.ld X qC = X := View.ld_unit_zero hz2 _ X
theorem ldH (X : Vec Ideal S1x128 .f32) : View.ld X qH = X := View.ld_unit_zero hz2 _ X

/-! ## The message accumulator -/

/-- A tile's normalised messages are the specification's messages of the tile's rows. -/
theorem msgAt_apply (t : Fin cfg0.N) (j4 : Fin 4) (hj : t.val % 4 = j4.val) (p : Fin 2048) (q : Fin 32) :
    msgAt (U1 m) c t (ix2 p q) = Spec.msg (aSt m c) (aW1 m c) (ab1 m c) (aW2 m c) (ab2 m c) (aWc m c) (abc m c) (tile h4 j4 p) q := by
  unfold msgAt
  rw [ld0, ld1, ld3, ld4, ld5, ld6, ld7]
  refine (pay7_apply0 _ _ _ _ _ _ _ p q).trans ?_
  rw [blk_st m c t j4 hj p, blk_W1a, blk_b1, blk_W2, blk_b2, blk_Wc, blk_bc]
  rfl

theorem accM1_apply (q : Fin 32) :
    accM1 (U1 m) c (ix2 0 q) = 0 + ∑ p : Fin 2048, Spec.msg (aSt m c) (aW1 m c) (ab1 m c) (aW2 m c) (ab2 m c) (aWc m c) (abc m c) (tile h4 0 p) q := by
  unfold accM1
  rw [pay2_apply0, pay1_apply0]
  exact congrArg (0 + ·) (Finset.sum_congr rfl fun p _ => msgAt_apply m c t0_0 0 rfl p q)
theorem accM2_apply (q : Fin 32) :
    accM2 (U1 m) c (ix2 0 q) = accM1 (U1 m) c (ix2 0 q) + ∑ p : Fin 2048, Spec.msg (aSt m c) (aW1 m c) (ab1 m c) (aW2 m c) (ab2 m c) (aWc m c) (abc m c) (tile h4 1 p) q := by
  unfold accM2
  rw [ldC, pay2_apply0]
  exact congrArg (_ + ·) (Finset.sum_congr rfl fun p _ => msgAt_apply m c t0_1 1 rfl p q)
theorem accM3_apply (q : Fin 32) :
    accM3 (U1 m) c (ix2 0 q) = accM2 (U1 m) c (ix2 0 q) + ∑ p : Fin 2048, Spec.msg (aSt m c) (aW1 m c) (ab1 m c) (aW2 m c) (ab2 m c) (aWc m c) (abc m c) (tile h4 2 p) q := by
  unfold accM3
  rw [ldC, pay2_apply0]
  exact congrArg (_ + ·) (Finset.sum_congr rfl fun p _ => msgAt_apply m c t0_2 2 rfl p q)
theorem accM4_apply (q : Fin 32) :
    accM4 (U1 m) c (ix2 0 q) = accM3 (U1 m) c (ix2 0 q) + ∑ p : Fin 2048, Spec.msg (aSt m c) (aW1 m c) (ab1 m c) (aW2 m c) (ab2 m c) (aWc m c) (abc m c) (tile h4 3 p) q := by
  unfold accM4
  rw [ldC, pay2_apply0]
  exact congrArg (_ + ·) (Finset.sum_congr rfl fun p _ => msgAt_apply m c t0_3 3 rfl p q)

/-- After the fourth point the message accumulator holds the sum of all 8192 messages. -/
theorem accM4_eq (q : Fin 32) : accM4 (U1 m) c (ix2 0 q) = ∑ r : Fin 8192, Spec.msg (aSt m c) (aW1 m c) (ab1 m c) (aW2 m c) (ab2 m c) (aWc m c) (abc m c) r q := by
  rw [Cert.TiledSum.sum_tiles h4, Fin.sum_univ_four, accM4_apply, accM3_apply, accM2_apply, accM1_apply, zero_add]

/-! ## The communication bias -/

theorem commB_apply (j : Fin 128) : commB (U1 m) c (ix2 0 j) = Spec.commBias (aSt m c) (aW1 m c) (ab1 m c) (aW2 m c) (ab2 m c) (aWc m c) (abc m c) j := by
  unfold commB
  rw [ldC, ld2]
  refine (pay3_apply0 _ _ j).trans ?_
  unfold Spec.commBias Spec.meanMsg
  refine Finset.sum_congr rfl fun q _ => ?_
  rw [accM4_eq]
  exact congrArg (_ * ·) (congrFun (congrFun (blk_W1b m c t0_4) q) j)

theorem commB_row : r1 (commB (U1 m) c) = Spec.commBias (aSt m c) (aW1 m c) (ab1 m c) (aW2 m c) (ab2 m c) (aWc m c) (abc m c) := funext fun j => commB_apply m c j

/-! ## The hidden accumulator -/

/-- A tile's second-pass rows, summed onto a carried row, are the specification's second-pass rows of the tile. -/
theorem hAt_apply (t : Fin cfg0.N) (j4 : Fin 4) (hj : t.val % 4 = j4.val) (cb acc : Vec Ideal S1x128 .f32)
    (hcb : r1 cb = Spec.commBias (aSt m c) (aW1 m c) (ab1 m c) (aW2 m c) (ab2 m c) (aWc m c) (abc m c)) (j : Fin 128) :
    hAt (U1 m) c t cb acc (ix2 0 j) = acc (ix2 0 j) + ∑ p : Fin 2048, Spec.hid1 (aSt m c) (aW1 m c) (ab1 m c) (aW2 m c) (ab2 m c) (aWc m c) (abc m c) (tile h4 j4 p) j := by
  unfold hAt
  rw [ld0, ld1, ld3, ld4, ld5]
  refine (pay5_apply0 _ _ _ _ _ _ _ j).trans (congrArg (_ + ·) (Finset.sum_congr rfl fun p _ => ?_))
  rw [blk_st m c t j4 hj p, blk_W1a, blk_b1, blk_W2, blk_b2, hcb]
  rfl

theorem accH1_apply (j : Fin 128) :
    accH1 (U1 m) c (ix2 0 j) = 0 + ∑ p : Fin 2048, Spec.hid1 (aSt m c) (aW1 m c) (ab1 m c) (aW2 m c) (ab2 m c) (aWc m c) (abc m c) (tile h4 0 p) j := by
  unfold accH1
  rw [hAt_apply m c t0_4 0 rfl _ _ (commB_row m c), pay4_apply0]
theorem accH2_apply (j : Fin 128) :
    accH2 (U1 m) c (ix2 0 j) = accH1 (U1 m) c (ix2 0 j) + ∑ p : Fin 2048, Spec.hid1 (aSt m c) (aW1 m c) (ab1 m c) (aW2 m c) (ab2 m c) (aWc m c) (abc m c) (tile h4 1 p) j := by
  unfold accH2
  rw [ldH, ldH, hAt_apply m c t0_5 1 rfl _ _ (commB_row m c)]
theorem accH3_apply (j : Fin 128) :
    accH3 (U1 m) c (ix2 0 j) = accH2 (U1 m) c (ix2 0 j) + ∑ p : Fin 2048, Spec.hid1 (aSt m c) (aW1 m c) (ab1 m c) (aW2 m c) (ab2 m c) (aWc m c) (abc m c) (tile h4 2 p) j := by
  unfold accH3
  rw [ldH, ldH, hAt_apply m c t0_6 2 rfl _ _ (commB_row m c)]
theorem accH4_apply (j : Fin 128) :
    accH4 (U1 m) c (ix2 0 j) = accH3 (U1 m) c (ix2 0 j) + ∑ p : Fin 2048, Spec.hid1 (aSt m c) (aW1 m c) (ab1 m c) (aW2 m c) (ab2 m c) (aWc m c) (abc m c) (tile h4 3 p) j := by
  unfold accH4
  rw [ldH, ldH, hAt_apply m c t0_7 3 rfl _ _ (commB_row m c)]

/-- After the last point the hidden accumulator holds the sum of all 8192 second-pass rows. -/
theorem accH4_eq (j : Fin 128) : accH4 (U1 m) c (ix2 0 j) = ∑ r : Fin 8192, Spec.hid1 (aSt m c) (aW1 m c) (ab1 m c) (aW2 m c) (ab2 m c) (aWc m c) (abc m c) r j := by
  rw [Cert.TiledSum.sum_tiles h4, Fin.sum_univ_four, accH4_apply, accH3_apply, accH2_apply, accH1_apply, zero_add]

/-! ## The region's output -/

/-- The region's output is the specification's graph-layer row. -/
theorem gnnOut_eq (j : Fin 128) :
    gnnOut (U1 m) c (ix2 0 j) = Cert.Spec.gnn (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) j := by
  unfold gnnOut
  rw [ld8, ld9]
  refine (pay6_apply0 _ _ _ j).trans ?_
  rw [blk_Wg, blk_bg, show (fun k => accH4 (U1 m) c (ix2 0 k) * Spec.invN) = fun k => Spec.meanH (aSt m c) (aW1 m c) (ab1 m c) (aW2 m c) (ab2 m c) (aWc m c) (abc m c) k from
    funext fun k => by rw [accH4_eq]; rfl]
  rfl

end Chain

end Cert.KernelIdeal.Hand

end
-- ==== Proof.KernelFinal.lean ====
import proofs.«104509_j22625887715845_2_alg».proof.Proof.Gen.KernelIdeal.Launch
import proofs.«104509_j22625887715845_2_alg».proof.Proof.Gen.KernelIdeal.Skeleton
import proofs.«104509_j22625887715845_2_alg».proof.Proof.Gen.KernelIdeal.Points
import proofs.«104509_j22625887715845_2_alg».proof.Proof.KernelValue
import proofs.«104509_j22625887715845_2_alg».proof.Proof.GnnChain
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-! # The idealized kernel's run, with its four results named -/

variable (m : (ℓ : Loc nD τ sig) → Buf (Elt Ideal) ℓ) (ρ : Dev nD → PrngReg)

theorem res0 (c : Dev nD) : B4 m c (Proc.devRef .tc main_v12_0) = Spec.R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := out0 m c (gnnOut_eq m c)
theorem res1 (c : Dev nD) : B4 m c (Proc.devRef .tc main_v12_1) = Spec.R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := out1 m c (gnnOut_eq m c)
theorem res2 (c : Dev nD) : B4 m c (Proc.devRef .tc main_v12_2) = Spec.R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := out2 m c (gnnOut_eq m c)
theorem res3 (c : Dev nD) : B4 m c (Proc.devRef .tc main_v12_3) = Spec.R3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) := out3 m c (gnnOut_eq m c)

/-- The four result arrays, per core. -/
def v0 (c : Dev nD) : Buf (Elt Ideal) ((c.tc : Thread nD τ).loc main_v12_0) := Spec.R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
def v1 (c : Dev nD) : Buf (Elt Ideal) ((c.tc : Thread nD τ).loc main_v12_1) := Spec.R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
def v2 (c : Dev nD) : Buf (Elt Ideal) ((c.tc : Thread nD τ).loc main_v12_2) := Spec.R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))
def v3 (c : Dev nD) : Buf (Elt Ideal) ((c.tc : Thread nD τ).loc main_v12_3) := Spec.R3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15))

/-- Every weakly fair execution of the idealized kernel terminates with the specification's four arrays in its results and
    its arguments unchanged. -/
theorem run_values : θ_run defs (onTc (τ := τ) (main (F := Ideal))) ⟨m, fun _ => 0, ρ⟩ (fun r => ∀ c : Dev nD,
      r.2.mem ((c.tc : Thread nD τ).loc main_v12_0) = v0 m c
      ∧ r.2.mem ((c.tc : Thread nD τ).loc main_v12_1) = v1 m c
      ∧ r.2.mem ((c.tc : Thread nD τ).loc main_v12_2) = v2 m c
      ∧ r.2.mem ((c.tc : Thread nD τ).loc main_v12_3) = v3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c main_v12_0 (by decide)).trans (res0 m c), (h c main_v12_1 (by decide)).trans (res1 m c),
      (h c main_v12_2 (by decide)).trans (res2 m c), (h c main_v12_3 (by decide)).trans (res3 m c),
      (h c main_arg0 (by decide)).trans (B4_main_arg0 m c),
      (h c main_arg1 (by decide)).trans (B4_main_arg1 m c),
      (h c main_arg2 (by decide)).trans (B4_main_arg2 m c),
      (h c main_arg3 (by decide)).trans (B4_main_arg3 m c),
      (h c main_arg4 (by decide)).trans (B4_main_arg4 m c),
      (h c main_arg5 (by decide)).trans (B4_main_arg5 m c),
      (h c main_arg6 (by decide)).trans (B4_main_arg6 m c),
      (h c main_arg7 (by decide)).trans (B4_main_arg7 m c),
      (h c main_arg8 (by decide)).trans (B4_main_arg8 m c),
      (h c main_arg9 (by decide)).trans (B4_main_arg9 m c),
      (h c main_arg10 (by decide)).trans (B4_main_arg10 m c),
      (h c main_arg11 (by decide)).trans (B4_main_arg11 m c),
      (h c main_arg12 (by decide)).trans (B4_main_arg12 m c),
      (h c main_arg13 (by decide)).trans (B4_main_arg13 m c),
      (h c main_arg14 (by decide)).trans (B4_main_arg14 m c),
      (h c main_arg15 (by decide)).trans (B4_main_arg15 m c)⟩)
    (run_all (F := Ideal) m ρ)

end Cert.KernelIdeal.Hand

end
-- ==== Proof.RefA.lean ====
/-
  The reference's first pass, operation by operation, read at an index: the joined matrix (state columns beside a message
  block) times the first weight splits into the state part and the message part; with the zero block the message part
  vanishes, and the perceptron, the message before normalisation, its floored norm and the message are the specification's.
-/
import proofs.«104509_j22625887715845_2_alg».proof.Proof.Gen.ReferenceIdeal.Read
import proofs.«104509_j22625887715845_2_alg».proof.Proof.Gen.ReferenceIdeal.Run
import proofs.«104509_j22625887715845_2_alg».proof.Proof.Spec

noncomputable section

namespace Cert.RefSide

open Cert.ReferenceIdeal Cert.ReferenceIdeal.Gen Cert.ReferenceIdeal.Read Idealize.ShloMosaic Idealize.ShloMosaic.ValueIdx Cert.Spec

/-- A two-coordinate index equation, coordinate by coordinate. -/
macro "idx2" : tactic => `(tactic| exact funext fun a => Fin.ext (by match a with | ⟨0, _⟩ => rfl | ⟨1, _⟩ => rfl))
/-- A one-coordinate index equation. -/
macro "idx1" : tactic => `(tactic| exact funext fun a => Fin.ext (by match a with | ⟨0, _⟩ => rfl))

/-- The joined matrix on its first 64 columns is the left block. -/
theorem cat_left (a : A2 8192 64) (b : A2 8192 32) (r : Fin 8192) (k : Fin 64) :
    concatenate S8192x96 1 [⟨S8192x64, a⟩, ⟨S8192x32, b⟩] concatenates_S8192x64_S8192x32_S8192x96_d1
      (ix2 r (Fin.castLE (by decide) k)) = a (ix2 r k) :=
  concatenate_pair_apply_left (1 : Fin S8192x96.rank) a b concatenates_S8192x64_S8192x32_S8192x96_d1 _ rfl (ix2 r k)
    (fun c => by match c with | ⟨0, _⟩ => rfl | ⟨1, _⟩ => rfl)

/-- The joined matrix on its last 32 columns is the right block. -/
theorem cat_right (a : A2 8192 64) (b : A2 8192 32) (r : Fin 8192) (q : Fin 32) :
    concatenate S8192x96 1 [⟨S8192x64, a⟩, ⟨S8192x32, b⟩] concatenates_S8192x64_S8192x32_S8192x96_d1
      (ix2 r (Fin.natAdd 64 q)) = b (ix2 r q) :=
  concatenate_pair_apply_right (1 : Fin S8192x96.rank) a b concatenates_S8192x64_S8192x32_S8192x96_d1 _ rfl rfl (ix2 r q)
    (fun c => by match c with | ⟨0, _⟩ => exact fun _ => rfl | ⟨1, _⟩ => exact fun h => absurd rfl h)
    (by show q.val + 64 = 64 + q.val; omega)

/-- A row of the joined matrix against a column of the first weight: the state part plus the message part. -/
theorem dot_cat (a : A2 8192 64) (b : A2 8192 32) (W1 : A2 96 128) (r : Fin 8192) (j : Fin 128) :
    (∑ k : Fin 96, concatenate S8192x96 1 [⟨S8192x64, a⟩, ⟨S8192x32, b⟩] concatenates_S8192x64_S8192x32_S8192x96_d1 (ix2 r k)
        * W1 (ix2 k j))
      = (∑ k : Fin 64, a (ix2 r k) * W1 (ix2 (Fin.castLE (by decide) k) j))
        + ∑ q : Fin 32, b (ix2 r q) * W1 (ix2 (Fin.natAdd 64 q) j) := by
  refine (Fin.sum_univ_add (a := 64) (b := 32) _).trans ?_
  refine congrArg₂ (· + ·) (Finset.sum_congr rfl fun k _ => ?_) (Finset.sum_congr rfl fun q _ => ?_)
  · exact congrArg (· * _) (cat_left a b r k)
  · exact congrArg (· * _) (cat_right a b r q)

section
variable (st : A2 8192 64) (W1 : A2 96 128) (b1 : A1 128) (W2 : A2 128 128) (b2 : A1 128) (Wc : A2 128 32) (bc : A1 32)

/-- The first product with the zero block: the state columns alone. -/
theorem v2_at (r : Fin 8192) (j : Fin 128) :
    val_main_v2 (F := Ideal) st W1 (ix2 r j) = ∑ k : Fin 64, st (ix2 r k) * W1 (ix2 (Fin.castLE (by decide) k) j) := by
  rw [val_main_v2_apply]
  have e : ∀ k : Fin 96, val_main_v1 (F := Ideal) st (lidx_main_v2 (ix2 r j) k) * W1 (ridx_main_v2 (ix2 r j) k)
      = concatenate S8192x96 1 [⟨S8192x64, st⟩, ⟨S8192x32, val_main_v0 (F := Ideal)⟩]
          concatenates_S8192x64_S8192x32_S8192x96_d1 (ix2 r k) * W1 (ix2 k j) := fun k => by
    rw [show lidx_main_v2 (ix2 r j) k = ix2 r k by idx2, show ridx_main_v2 (ix2 r j) k = ix2 k j by idx2] <;> rfl
  rw [Finset.sum_congr rfl fun k _ => e k, dot_cat]
  have z : (∑ q : Fin 32, val_main_v0 (F := Ideal) (ix2 r q) * W1 (ix2 (Fin.natAdd 64 q) j)) = 0 :=
    Finset.sum_eq_zero fun q _ => by
      rw [val_main_v0_apply, val_main_cst_apply]
      show Ideal.ofBits .f32 0x00000000#32 * _ = 0
      rw [Ideal.ofBits_zero_f32, zero_mul]
  rw [z, add_zero]

theorem v4_at (r : Fin 8192) (j : Fin 128) : val_main_v4 (F := Ideal) b1 (ix2 r j) = b1 (ix1 j) := by
  rw [val_main_v4_apply, val_main_v3_apply]; exact congrArg b1 (by idx1)

theorem v5_at (r : Fin 8192) (j : Fin 128) : val_main_v5 (F := Ideal) st W1 b1 (ix2 r j) = lin1 st W1 b1 r j := by
  rw [val_main_v5_apply, v2_at, v4_at] <;> rfl

theorem v6_at (r : Fin 8192) (j : Fin 128) :
    val_main_v6 (F := Ideal) st W1 b1 (ix2 r j) = max (lin1 st W1 b1 r j) 0 := by
  rw [val_main_v6_apply, v5_at, val_main_call0_v0_apply, val_main_call0_cst_apply]
  show max _ (Ideal.ofBits .f32 0x00000000#32) = _
  rw [Ideal.ofBits_zero_f32]

/-- The perceptron with no incoming message. -/
theorem v10_at (r : Fin 8192) (j : Fin 128) :
    val_main_v10 (F := Ideal) st W1 b1 W2 b2 (ix2 r j) = hid0 st W1 b1 W2 b2 r j := by
  rw [val_main_v10_apply, val_main_v7_apply, val_main_v9_apply, val_main_v8_apply]
  unfold hid0
  show _ + _ = _ + _
  refine congrArg₂ (· + ·) (Finset.sum_congr rfl fun k _ => ?_) (congrArg b2 (by idx1))
  rw [show lidx_main_v7 (ix2 r j) k = ix2 r k by idx2, show ridx_main_v7 (ix2 r j) k = ix2 k j by idx2, v6_at]

/-- The message before normalisation. -/
theorem v14_at (r : Fin 8192) (q : Fin 32) :
    val_main_v14 (F := Ideal) st W1 b1 W2 b2 Wc bc (ix2 r q) = msgPre st W1 b1 W2 b2 Wc bc r q := by
  rw [val_main_v14_apply, val_main_v11_apply, val_main_v13_apply, val_main_v12_apply]
  unfold msgPre
  show _ + _ = _ + _
  refine congrArg₂ (· + ·) (Finset.sum_congr rfl fun k _ => ?_) (congrArg bc (by idx1))
  rw [show lidx_main_v11 (ix2 r q) k = ix2 r k by idx2, show ridx_main_v11 (ix2 r q) k = ix2 k q by idx2, v10_at]

/-- The sum of squares of a row of messages. -/
theorem sq1_at (r : Fin 8192) :
    val_main_call1_v1 (F := Ideal) st W1 b1 W2 b2 Wc bc (ix1 r)
      = ∑ q : Fin 32, msgPre st W1 b1 W2 b2 Wc bc r q * msgPre st W1 b1 W2 b2 Wc bc r q := by
  rw [val_main_call1_v1_apply, val_main_call1_cst_apply]
  show Ideal.ofBits .f32 0x00000000#32 + _ = _
  rw [Ideal.ofBits_zero_f32, zero_add]
  refine Finset.sum_congr rfl fun q _ => ?_
  rw [val_main_call1_v0_apply, show idx_main_call1_v1 (ix1 r) q = ix2 r q by idx2, v14_at] <;> rfl

/-- The floored norm of a row of messages. -/
theorem v17_at (r : Fin 8192) :
    val_main_v17 (F := Ideal) st W1 b1 W2 b2 Wc bc (ix2 r 0) = msgNorm st W1 b1 W2 b2 Wc bc r := by
  rw [val_main_v17_apply, val_main_v15_apply, val_main_call1_v2_apply, val_main_v16_apply, val_main_cst_0_apply,
    show idx_main_call1_v2 (ix2 r 0) = ix1 r by idx1, sq1_at] <;> rfl

/-- The message. -/
theorem v19_at (r : Fin 8192) (q : Fin 32) :
    val_main_v19 (F := Ideal) st W1 b1 W2 b2 Wc bc (ix2 r q) = msg st W1 b1 W2 b2 Wc bc r q := by
  rw [val_main_v19_apply, val_main_v18_apply, v14_at, show idx_main_v18 (ix2 r q) = ix2 r 0 by idx2, v17_at] <;> rfl

end

end Cert.RefSide

end
-- ==== Proof.RefK.lean ====
/-
  The float words the reference spells, as extended reals, and the one algebraic law its dense uniform average needs:
  a nonnegative real constant distributes over a finite sum of extended reals.
-/
import Idealize.ShloMosaic.PureOps.Ideal.Laws

noncomputable section

namespace Cert.RefSide

open Idealize.ShloMosaic

/-- The word of 8192.0 is the real 8192. -/
theorem ofBits_8192 : Ideal.ofBits .f32 0x46000000#32 = ((8192 : ℝ) : EReal) := by
  simp [Ideal.ofBits, Ideal.ieee, -EReal.coe_mul]; norm_num

/-- The word of 1.0 is 1. -/
theorem ofBits_one : Ideal.ofBits .f32 0x3F800000#32 = 1 := by
  simp [Ideal.ofBits, Ideal.ieee, -EReal.coe_mul]; norm_num

/-- The word of minus infinity is the bottom element. -/
theorem ofBits_neg_inf : Ideal.ofBits .f32 0xFF800000#32 = ⊥ := by
  simp [Ideal.ofBits, Ideal.ieee]

/-- Division by the word of 8192.0 is multiplication by the real 1/8192. -/
theorem div_8192 (x : EReal) : Ideal.div x (Ideal.ofBits .f32 0x46000000#32) = x * ((1 / 8192 : ℝ) : EReal) := by
  rw [ofBits_8192]; exact Ideal.div_coe (by norm_num) x

/-- The quotient of the words of 1.0 and 8192.0 is the real 1/8192. -/
theorem one_div_8192 : Ideal.div (Ideal.ofBits .f32 0x3F800000#32) (Ideal.ofBits .f32 0x46000000#32) = ((1 / 8192 : ℝ) : EReal) := by
  rw [div_8192, ofBits_one, one_mul]

/-- A nonnegative real constant distributes over a finite sum of extended reals. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih => rw [Finset.sum_insert ha, Finset.sum_insert ha, EReal.left_distrib_of_nonneg_of_ne_top (EReal.coe_nonneg.2 hc) (EReal.coe_ne_top c), ih]

/-- The same, the constant on the right of the sum. -/
theorem sum_coe_mul {ι : Type} (s : Finset ι) (c : ℝ) (hc : 0 ≤ c) (f : ι → EReal) :
    ∑ k ∈ s, (c : EReal) * f k = (∑ k ∈ s, f k) * (c : EReal) := by
  rw [← coe_mul_sum s c hc f, mul_comm]

end Cert.RefSide

end
-- ==== Proof.RefB.lean ====
/-
  The reference's second pass and its graph layer, read at an index: the mean of the messages, the bias it adds through the
  lower rows of the first weight, the perceptron with that bias, the uniform average of its rows (one constant times a
  column sum), and the graph layer of the mean row.
-/
import proofs.«104509_j22625887715845_2_alg».proof.Proof.RefA
import proofs.«104509_j22625887715845_2_alg».proof.Proof.RefK

noncomputable section

namespace Cert.RefSide

open Cert.ReferenceIdeal Cert.ReferenceIdeal.Gen Cert.ReferenceIdeal.Read Idealize.ShloMosaic Idealize.ShloMosaic.ValueIdx Cert.Spec

section
variable (st : A2 8192 64) (W1 : A2 96 128) (b1 : A1 128) (W2 : A2 128 128) (b2 : A1 128) (Wc : A2 128 32) (bc : A1 32)

/-- The mean message. -/
theorem v23_at (q : Fin 32) :
    val_main_v23 (F := Ideal) st W1 b1 W2 b2 Wc bc (ix2 0 q) = meanMsg st W1 b1 W2 b2 Wc bc q := by
  rw [val_main_v23_apply, val_main_v21_apply, val_main_v20_apply, val_main_cst_1_apply, val_main_v22_apply,
    val_main_cst_2_apply]
  show Ideal.div (Ideal.ofBits .f32 0x00000000#32 + _) (Ideal.ofBits .f32 0x46000000#32) = _
  rw [Ideal.ofBits_zero_f32, zero_add, div_8192]
  unfold meanMsg
  refine congrArg (· * _) (Finset.sum_congr rfl fun r _ => ?_)
  rw [show idx_main_v20 (idx_main_v21 (ix2 0 q)) r = ix2 r q by idx2, v19_at]

theorem v24_at (r : Fin 8192) (q : Fin 32) :
    val_main_v24 (F := Ideal) st W1 b1 W2 b2 Wc bc (ix2 r q) = meanMsg st W1 b1 W2 b2 Wc bc q := by
  rw [val_main_v24_apply, show idx_main_v24 (ix2 r q) = ix2 0 q by idx2, v23_at]

/-- The first product with the broadcast mean message: the state part plus the message's bias. -/
theorem v26_at (r : Fin 8192) (j : Fin 128) :
    val_main_v26 (F := Ideal) st W1 b1 W2 b2 Wc bc (ix2 r j)
      = (∑ k : Fin 64, st (ix2 r k) * W1 (ix2 (Fin.castLE (by decide) k) j)) + commBias st W1 b1 W2 b2 Wc bc j := by
  rw [val_main_v26_apply]
  have e : ∀ k : Fin 96, val_main_v25 (F := Ideal) st W1 b1 W2 b2 Wc bc (lidx_main_v26 (ix2 r j) k) * W1 (ridx_main_v26 (ix2 r j) k)
      = concatenate S8192x96 1 [⟨S8192x64, st⟩, ⟨S8192x32, val_main_v24 (F := Ideal) st W1 b1 W2 b2 Wc bc⟩]
          concatenates_S8192x64_S8192x32_S8192x96_d1 (ix2 r k) * W1 (ix2 k j) := fun k => by
    rw [show lidx_main_v26 (ix2 r j) k = ix2 r k by idx2, show ridx_main_v26 (ix2 r j) k = ix2 k j by idx2] <;> rfl
  rw [Finset.sum_congr rfl fun k _ => e k, dot_cat]
  unfold commBias
  refine congrArg (_ + ·) (Finset.sum_congr rfl fun q _ => ?_)
  rw [v24_at]

theorem v29_at (r : Fin 8192) (j : Fin 128) :
    val_main_v29 (F := Ideal) st W1 b1 W2 b2 Wc bc (ix2 r j) = lin1 st W1 b1 r j + commBias st W1 b1 W2 b2 Wc bc j := by
  rw [val_main_v29_apply, v26_at, val_main_v28_apply, val_main_v27_apply,
    show idx_main_v27 (idx_main_v28 (ix2 r j)) = ix1 j by idx1]
  unfold lin1
  show _ + _ + _ = _
  exact add_right_comm _ _ _

theorem v30_at (r : Fin 8192) (j : Fin 128) :
    val_main_v30 (F := Ideal) st W1 b1 W2 b2 Wc bc (ix2 r j)
      = max (lin1 st W1 b1 r j + commBias st W1 b1 W2 b2 Wc bc j) 0 := by
  rw [val_main_v30_apply, v29_at, val_main_call2_v0_apply, val_main_call2_cst_apply]
  show max _ (Ideal.ofBits .f32 0x00000000#32) = _
  rw [Ideal.ofBits_zero_f32]

/-- The perceptron with the mean message. -/
theorem v34_at (r : Fin 8192) (j : Fin 128) :
    val_main_v34 (F := Ideal) st W1 b1 W2 b2 Wc bc (ix2 r j) = hid1 st W1 b1 W2 b2 Wc bc r j := by
  rw [val_main_v34_apply, val_main_v31_apply, val_main_v33_apply, val_main_v32_apply]
  unfold hid1
  show _ + _ = _ + _
  refine congrArg₂ (· + ·) (Finset.sum_congr rfl fun k _ => ?_) (congrArg b2 (by idx1))
  rw [show lidx_main_v31 (ix2 r j) k = ix2 r k by idx2, show ridx_main_v31 (ix2 r j) k = ix2 k j by idx2, v30_at]

/-- Every entry of the dense uniform adjacency is the real 1/8192. -/
theorem v37_at (i : S8192x8192.Idx) : val_main_v37 (F := Ideal) i = invN := by
  rw [val_main_v37_apply, val_main_v35_apply, val_main_v36_apply, val_main_cst_3_apply, val_main_cst_4_apply]
  exact one_div_8192

/-- The adjacency times the second pass: every row is the mean row. -/
theorem v38_at (r : Fin 8192) (j : Fin 128) :
    val_main_v38 (F := Ideal) st W1 b1 W2 b2 Wc bc (ix2 r j) = meanH st W1 b1 W2 b2 Wc bc j := by
  rw [val_main_v38_apply]
  unfold meanH
  refine Eq.trans ?_ (sum_coe_mul Finset.univ (1 / 8192) (by norm_num) _)
  refine Finset.sum_congr rfl fun k _ => ?_
  rw [v37_at, show ridx_main_v38 (ix2 r j) k = ix2 k j by idx2, v34_at]

/-- The graph layer: every row is the specification's one row. -/
theorem v43_at (Wg : A2 128 128) (bg : A1 128) (r : Fin 8192) (j : Fin 128) :
    val_main_v43 (F := Ideal) st W1 b1 W2 b2 Wc bc Wg bg (ix2 r j) = gnn st W1 b1 W2 b2 Wc bc Wg bg j := by
  rw [val_main_v43_apply, val_main_v42_apply, val_main_v39_apply, val_main_v41_apply, val_main_v40_apply,
    val_main_call3_v0_apply, val_main_call3_cst_apply]
  show max (_ + _) (Ideal.ofBits .f32 0x00000000#32) = _
  rw [Ideal.ofBits_zero_f32]
  unfold gnn
  refine congrArg (max · 0) (congrArg₂ (· + ·) (Finset.sum_congr rfl fun k _ => ?_) (congrArg bg (by idx1)))
  rw [show lidx_main_v39 (ix2 r j) k = ix2 r k by idx2, show ridx_main_v39 (ix2 r j) k = ix2 k j by idx2, v38_at]

end

end Cert.RefSide

end
-- ==== Proof.RefC.lean ====
/-
  The reference's last part, read at an index: the graph layer's row perturbed by scaled noise, its floored norm, the
  normalised row (the first result), and the three linear heads of it — a tanh policy, a value, and a softmax over three
  roles whose row maximum is a fold of max from minus infinity.
-/
import proofs.«104509_j22625887715845_2_alg».proof.Proof.RefB

noncomputable section

namespace Cert.RefSide

open Cert.ReferenceIdeal Cert.ReferenceIdeal.Gen Cert.ReferenceIdeal.Read Idealize.ShloMosaic Idealize.ShloMosaic.ValueIdx Cert.Spec

section
variable (st : A2 8192 64) (nz : A2 8192 128) (W1 : A2 96 128) (b1 : A1 128) (W2 : A2 128 128) (b2 : A1 128)
  (Wc : A2 128 32) (bc : A1 32) (Wg : A2 128 128) (bg : A1 128)

/-- The perturbed row. -/
theorem v46_at (r : Fin 8192) (j : Fin 128) :
    val_main_v46 (F := Ideal) st nz W1 b1 W2 b2 Wc bc Wg bg (ix2 r j) = pert (gnn st W1 b1 W2 b2 Wc bc Wg bg) nz r j := by
  rw [val_main_v46_apply, v43_at, val_main_v45_apply, val_main_v44_apply, val_main_cst_5_apply] <;> rfl

/-- The sum of squares of a perturbed row. -/
theorem sq4_at (r : Fin 8192) :
    val_main_call4_v1 (F := Ideal) st nz W1 b1 W2 b2 Wc bc Wg bg (ix1 r) = ∑ j : Fin 128, pert (gnn st W1 b1 W2 b2 Wc bc Wg bg) nz r j * pert (gnn st W1 b1 W2 b2 Wc bc Wg bg) nz r j := by
  rw [val_main_call4_v1_apply, val_main_call4_cst_apply]
  show Ideal.ofBits .f32 0x00000000#32 + _ = _
  rw [Ideal.ofBits_zero_f32, zero_add]
  refine Finset.sum_congr rfl fun j _ => ?_
  rw [val_main_call4_v0_apply, show idx_main_call4_v1 (ix1 r) j = ix2 r j by idx2, v46_at] <;> rfl

/-- The floored norm of a perturbed row. -/
theorem v49_at (r : Fin 8192) :
    val_main_v49 (F := Ideal) st nz W1 b1 W2 b2 Wc bc Wg bg (ix2 r 0) = pertNorm (gnn st W1 b1 W2 b2 Wc bc Wg bg) nz r := by
  rw [val_main_v49_apply, val_main_v47_apply, val_main_call4_v2_apply, val_main_v48_apply, val_main_cst_6_apply,
    show idx_main_call4_v2 (ix2 r 0) = ix1 r by idx1, sq4_at] <;> rfl

/-- The first result: the normalised row. -/
theorem v51_at (r : Fin 8192) (j : Fin 128) :
    val_main_v51 (F := Ideal) st nz W1 b1 W2 b2 Wc bc Wg bg (ix2 r j) = unit (gnn st W1 b1 W2 b2 Wc bc Wg bg) nz r j := by
  rw [val_main_v51_apply, val_main_v50_apply, v46_at, show idx_main_v50 (ix2 r j) = ix2 r 0 by idx2, v49_at] <;> rfl

/-- The policy head. -/
theorem v56_at (Wp : A2 128 8) (bp : A1 8) (r : Fin 8192) (q : Fin 8) :
    val_main_v56 (F := Ideal) st nz W1 b1 W2 b2 Wc bc Wg bg Wp bp (ix2 r q) = policy (gnn st W1 b1 W2 b2 Wc bc Wg bg) nz Wp bp r q := by
  rw [val_main_v56_apply, val_main_v55_apply, val_main_v52_apply, val_main_v54_apply, val_main_v53_apply]
  unfold policy
  show Ideal.tanh (_ + _) = _
  refine congrArg Ideal.tanh (congrArg₂ (· + ·) (Finset.sum_congr rfl fun k _ => ?_) (congrArg bp (by idx1)))
  rw [show lidx_main_v52 (ix2 r q) k = ix2 r k by idx2, show ridx_main_v52 (ix2 r q) k = ix2 k q by idx2, v51_at]

/-- The value head. -/
theorem v60_at (Wv : A2 128 1) (bv : A1 1) (r : Fin 8192) (q : Fin 1) :
    val_main_v60 (F := Ideal) st nz W1 b1 W2 b2 Wc bc Wg bg Wv bv (ix2 r q) = value (gnn st W1 b1 W2 b2 Wc bc Wg bg) nz Wv bv r q := by
  rw [val_main_v60_apply, val_main_v57_apply, val_main_v59_apply, val_main_v58_apply]
  unfold value
  show _ + _ = _ + _
  refine congrArg₂ (· + ·) (Finset.sum_congr rfl fun k _ => ?_) (congrArg bv (funext fun a => Fin.ext (by
    match a with
    | ⟨0, _⟩ => show (0 : Nat) = q.val; have := q.isLt; omega)))
  rw [show lidx_main_v57 (ix2 r q) k = ix2 r k by idx2, show ridx_main_v57 (ix2 r q) k = ix2 k q by idx2, v51_at]

end

end Cert.RefSide

end
-- ==== Proof.RefD.lean ====
/-
  The role head of the reference, read at an index: the logits, their row maximum as a fold of max from minus infinity,
  and the softmax.
-/
import proofs.«104509_j22625887715845_2_alg».proof.Proof.RefC

noncomputable section

namespace Cert.RefSide

open Cert.ReferenceIdeal Cert.ReferenceIdeal.Gen Cert.ReferenceIdeal.Read Idealize.ShloMosaic Idealize.ShloMosaic.ValueIdx Cert.Spec

section
variable (st : A2 8192 64) (nz : A2 8192 128) (W1 : A2 96 128) (b1 : A1 128) (W2 : A2 128 128) (b2 : A1 128)
  (Wc : A2 128 32) (bc : A1 32) (Wg : A2 128 128) (bg : A1 128) (Wr : A2 128 3) (br : A1 3)

/-- The logits. -/
theorem v64_at (r : Fin 8192) (q : Fin 3) :
    val_main_v64 (F := Ideal) st nz W1 b1 W2 b2 Wc bc Wg bg Wr br (ix2 r q) = logit (gnn st W1 b1 W2 b2 Wc bc Wg bg) nz Wr br r q := by
  rw [val_main_v64_apply, val_main_v61_apply, val_main_v63_apply, val_main_v62_apply]
  unfold logit
  show _ + _ = _ + _
  refine congrArg₂ (· + ·) (Finset.sum_congr rfl fun k _ => ?_) (congrArg br (by idx1))
  rw [show lidx_main_v61 (ix2 r q) k = ix2 r k by idx2, show ridx_main_v61 (ix2 r q) k = ix2 k q by idx2, v51_at]

/-- A row index with the dropped column coordinate put back. -/
theorem lift_row (h : S8192x3.Reduces [1] S8192) (r : Fin 8192) (k : Fin (S8192x3.size 1)) :
    h.lift (ix1 r) k = ix2 r (⟨k.val, k.isLt⟩ : Fin 3) := by
  funext c; apply Fin.ext
  fin_cases c <;> rfl

/-- The max-reduce over the three columns, from minus infinity, is the row maximum. -/
theorem v65_at (r : Fin 8192) :
    val_main_v65 (F := Ideal) st nz W1 b1 W2 b2 Wc bc Wg bg Wr br (ix1 r) = rowMax (gnn st W1 b1 W2 b2 Wc bc Wg bg) nz Wr br r := by
  unfold val_main_v65
  rw [Host.reduce_eq_fold_single FloatOps.maximumf _ _ reducesTo_S8192x3_S8192_d1 (by decide) h_S_]
  show Finset.fold max (Ideal.ofBits .f32 0xFF800000#32) _ (Finset.univ : Finset (Fin 3)) = _
  rw [ofBits_neg_inf]
  unfold rowMax
  refine congrArg (fun f => Finset.fold max ⊥ f (Finset.univ : Finset (Fin 3))) (funext fun q => ?_)
  show val_main_v64 (F := Ideal) st nz W1 b1 W2 b2 Wc bc Wg bg Wr br (Shape.Reduces.lift _ (ix1 r) q) = _
  rw [lift_row, v64_at]
  rfl

theorem v67_at (r : Fin 8192) :
    val_main_v67 (F := Ideal) st nz W1 b1 W2 b2 Wc bc Wg bg Wr br (ix1 r) = rowMax (gnn st W1 b1 W2 b2 Wc bc Wg bg) nz Wr br r := by
  rw [val_main_v67_apply, val_main_v66_apply, val_main_cst_8_apply, v65_at]
  show max (Ideal.ofBits .f32 0xFF800000#32) _ = _
  rw [ofBits_neg_inf, max_bot_left]

/-- The exponentials of the shifted logits. -/
theorem v71_at (r : Fin 8192) (q : Fin 3) :
    val_main_v71 (F := Ideal) st nz W1 b1 W2 b2 Wc bc Wg bg Wr br (ix2 r q)
      = Ideal.exp (logit (gnn st W1 b1 W2 b2 Wc bc Wg bg) nz Wr br r q - rowMax (gnn st W1 b1 W2 b2 Wc bc Wg bg) nz Wr br r) := by
  rw [val_main_v71_apply, val_main_v70_apply, v64_at, val_main_v69_apply, val_main_v68_apply,
    show idx_main_v68 (idx_main_v69 (ix2 r q)) = ix1 r by idx1, v67_at] <;> rfl

/-- The role probabilities. -/
theorem v75_at (r : Fin 8192) (q : Fin 3) :
    val_main_v75 (F := Ideal) st nz W1 b1 W2 b2 Wc bc Wg bg Wr br (ix2 r q) = role (gnn st W1 b1 W2 b2 Wc bc Wg bg) nz Wr br r q := by
  rw [val_main_v75_apply, v71_at, val_main_v74_apply, val_main_v73_apply, val_main_v72_apply, val_main_cst_9_apply]
  unfold role
  show Ideal.div _ (Ideal.ofBits .f32 0x00000000#32 + _) = _
  rw [Ideal.ofBits_zero_f32, zero_add]
  refine congrArg (Ideal.div _) (Finset.sum_congr rfl fun q' _ => ?_)
  rw [show idx_main_v72 (idx_main_v73 (idx_main_v74 (ix2 r q))) q' = ix2 r q' by idx2, v71_at]

end

end Cert.RefSide

end
-- ==== Proof.RefSide.lean ====
/-
  The reference program's four results are the specification's four functions of the sixteen argument arrays.
-/
import proofs.«104509_j22625887715845_2_alg».proof.Proof.RefD

noncomputable section

namespace Cert.RefSide

open Cert.ReferenceIdeal Cert.ReferenceIdeal.Gen Cert.ReferenceIdeal.Read Cert.ReferenceIdeal.Value Idealize.ShloMosaic
  Idealize.ShloMosaic.TcCoe Idealize.SL.Sem Idealize.ShloMosaic.StableHlo Idealize.ShloMosaic.ValueIdx

variable (m : (ℓ : Loc nD τ sig) → Buf (Elt Ideal) ℓ) (c : Dev nD)

/-- The first result is the normalised perturbed row of the graph layer. -/
theorem res0_eq :
    res_main_v51 m c = Cert.Spec.R0 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  rw [val_main_v51_eq]
  funext i
  obtain ⟨r, j, rfl⟩ : ∃ (r : Fin 8192) (j : Fin 128), i = ix2 r j := ⟨i 0, i 1, eq_ix2 i⟩
  exact v51_at _ _ _ _ _ _ _ _ _ _ r j

/-- The second result is the policy head. -/
theorem res1_eq :
    res_main_v56 m c = Cert.Spec.R1 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11)) := by
  rw [val_main_v56_eq]
  funext i
  obtain ⟨r, q, rfl⟩ : ∃ (r : Fin 8192) (q : Fin 8), i = ix2 r q := ⟨i 0, i 1, eq_ix2 i⟩
  exact v56_at _ _ _ _ _ _ _ _ _ _ _ _ r q

/-- The third result is the value head. -/
theorem res2_eq :
    res_main_v60 m c = Cert.Spec.R2 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg12)) (m ((c.tc : Thread nD τ).loc main_arg13)) := by
  rw [val_main_v60_eq]
  funext i
  obtain ⟨r, q, rfl⟩ : ∃ (r : Fin 8192) (q : Fin 1), i = ix2 r q := ⟨i 0, i 1, eq_ix2 i⟩
  exact v60_at _ _ _ _ _ _ _ _ _ _ _ _ r q

/-- The fourth result is the softmax over the three roles. -/
theorem res3_eq :
    res_main_v75 m c = Cert.Spec.R3 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg14)) (m ((c.tc : Thread nD τ).loc main_arg15)) := by
  rw [val_main_v75_eq]
  funext i
  obtain ⟨r, q, rfl⟩ : ∃ (r : Fin 8192) (q : Fin 3), i = ix2 r q := ⟨i 0, i 1, eq_ix2 i⟩
  exact v75_at _ _ _ _ _ _ _ _ _ _ _ _ r q

end Cert.RefSide

end
-- ==== Proof.lean ====
/-
  The certificate's claims.

  Both programs compute, on the extended reals, one function of the sixteen argument arrays (Proof/Spec.lean): the kernel's two
  pipelined regions are run point by point — the first carries a message sum, a communication bias and a hidden-row sum in three
  buffers across its eight grid points, the second maps independent row blocks — and their write-backs assemble the four result
  arrays (Proof/KernelRun.lean, Proof/KernelValue.lean, Proof/GnnChain.lean, Proof/KernelFinal.lean); the reference's host operations are read index by
  index (Proof/RefSide.lean).  The mean over the 8192 agents is a product with 2⁻¹³ in the kernel and a quotient by 8192 in the
  reference, the same extended real; the reference's dense uniform adjacency times the hidden rows is the column mean, a
  nonnegative constant passing through a finite sum; sums over tiles regroup to sums over all rows.  The frames of both kernel
  programs are the same run with the results forgotten; the reference's is its generated run.
-/
import proofs.«104509_j22625887715845_2_alg».proof.Defs
import proofs.«104509_j22625887715845_2_alg».proof.Proof.Gen.Kernel
import proofs.«104509_j22625887715845_2_alg».proof.Proof.Gen.KernelIdeal
import proofs.«104509_j22625887715845_2_alg».proof.Proof.Gen.ReferenceIdeal
import proofs.«104509_j22625887715845_2_alg».proof.Proof.Gen.Pre_finite_inputs
import proofs.«104509_j22625887715845_2_alg».proof.Proof.BitsKernelRun
import proofs.«104509_j22625887715845_2_alg».proof.Proof.KernelFinal
import proofs.«104509_j22625887715845_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun r h c =>
    ⟨(h c Cert.Kernel.main_arg0 (by decide)).trans (Cert.Kernel.Hand.B4_main_arg0 m c),
      (h c Cert.Kernel.main_arg1 (by decide)).trans (Cert.Kernel.Hand.B4_main_arg1 m c),
      (h c Cert.Kernel.main_arg2 (by decide)).trans (Cert.Kernel.Hand.B4_main_arg2 m c),
      (h c Cert.Kernel.main_arg3 (by decide)).trans (Cert.Kernel.Hand.B4_main_arg3 m c),
      (h c Cert.Kernel.main_arg4 (by decide)).trans (Cert.Kernel.Hand.B4_main_arg4 m c),
      (h c Cert.Kernel.main_arg5 (by decide)).trans (Cert.Kernel.Hand.B4_main_arg5 m c),
      (h c Cert.Kernel.main_arg6 (by decide)).trans (Cert.Kernel.Hand.B4_main_arg6 m c),
      (h c Cert.Kernel.main_arg7 (by decide)).trans (Cert.Kernel.Hand.B4_main_arg7 m c),
      (h c Cert.Kernel.main_arg8 (by decide)).trans (Cert.Kernel.Hand.B4_main_arg8 m c),
      (h c Cert.Kernel.main_arg9 (by decide)).trans (Cert.Kernel.Hand.B4_main_arg9 m c),
      (h c Cert.Kernel.main_arg10 (by decide)).trans (Cert.Kernel.Hand.B4_main_arg10 m c),
      (h c Cert.Kernel.main_arg11 (by decide)).trans (Cert.Kernel.Hand.B4_main_arg11 m c),
      (h c Cert.Kernel.main_arg12 (by decide)).trans (Cert.Kernel.Hand.B4_main_arg12 m c),
      (h c Cert.Kernel.main_arg13 (by decide)).trans (Cert.Kernel.Hand.B4_main_arg13 m c),
      (h c Cert.Kernel.main_arg14 (by decide)).trans (Cert.Kernel.Hand.B4_main_arg14 m c),
      (h c Cert.Kernel.main_arg15 (by decide)).trans (Cert.Kernel.Hand.B4_main_arg15 m c)⟩)
    (Cert.Kernel.Hand.run_all (F := Bits) m ρ)

theorem frame_ki : Cert.frame_KernelIdeal := fun m ρ _ =>
  (θ_run Cert.KernelIdeal.defs _ _).mono (fun r h c =>
    ⟨(h c Cert.KernelIdeal.main_arg0 (by decide)).trans (Cert.KernelIdeal.Hand.B4_main_arg0 m c),
      (h c Cert.KernelIdeal.main_arg1 (by decide)).trans (Cert.KernelIdeal.Hand.B4_main_arg1 m c),
      (h c Cert.KernelIdeal.main_arg2 (by decide)).trans (Cert.KernelIdeal.Hand.B4_main_arg2 m c),
      (h c Cert.KernelIdeal.main_arg3 (by decide)).trans (Cert.KernelIdeal.Hand.B4_main_arg3 m c),
      (h c Cert.KernelIdeal.main_arg4 (by decide)).trans (Cert.KernelIdeal.Hand.B4_main_arg4 m c),
      (h c Cert.KernelIdeal.main_arg5 (by decide)).trans (Cert.KernelIdeal.Hand.B4_main_arg5 m c),
      (h c Cert.KernelIdeal.main_arg6 (by decide)).trans (Cert.KernelIdeal.Hand.B4_main_arg6 m c),
      (h c Cert.KernelIdeal.main_arg7 (by decide)).trans (Cert.KernelIdeal.Hand.B4_main_arg7 m c),
      (h c Cert.KernelIdeal.main_arg8 (by decide)).trans (Cert.KernelIdeal.Hand.B4_main_arg8 m c),
      (h c Cert.KernelIdeal.main_arg9 (by decide)).trans (Cert.KernelIdeal.Hand.B4_main_arg9 m c),
      (h c Cert.KernelIdeal.main_arg10 (by decide)).trans (Cert.KernelIdeal.Hand.B4_main_arg10 m c),
      (h c Cert.KernelIdeal.main_arg11 (by decide)).trans (Cert.KernelIdeal.Hand.B4_main_arg11 m c),
      (h c Cert.KernelIdeal.main_arg12 (by decide)).trans (Cert.KernelIdeal.Hand.B4_main_arg12 m c),
      (h c Cert.KernelIdeal.main_arg13 (by decide)).trans (Cert.KernelIdeal.Hand.B4_main_arg13 m c),
      (h c Cert.KernelIdeal.main_arg14 (by decide)).trans (Cert.KernelIdeal.Hand.B4_main_arg14 m c),
      (h c Cert.KernelIdeal.main_arg15 (by decide)).trans (Cert.KernelIdeal.Hand.B4_main_arg15 m c)⟩)
    (Cert.KernelIdeal.Hand.run_all (F := Ideal) m ρ)

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Run from memories that agree on the arguments, both idealized programs end with the specification's four arrays. -/
theorem algebraic : Cert.algebraic_KernelIdeal_ReferenceIdeal := by
  intro m ρ m' ρ' _ hagree
  refine ⟨Cert.KernelIdeal.Hand.v0 m, Cert.KernelIdeal.Hand.v1 m, Cert.KernelIdeal.Hand.v2 m, Cert.KernelIdeal.Hand.v3 m,
    Cert.KernelIdeal.Hand.run_values m ρ, ?_⟩
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15⟩ := hagree c
    refine ⟨(h c).1.trans ?_, (h c).2.1.trans ?_, (h c).2.2.1.trans ?_, (h c).2.2.2.1.trans ?_, (h c).2.2.2.2⟩
    · rw [Cert.RefSide.res0_eq m' c, h0, h1, h2, h3, h4, h5, h6, h7, h8, h9]; rfl
    · rw [Cert.RefSide.res1_eq m' c, h0, h1, h2, h3, h4, h5, h6, h7, h8, h9, h10, h11]; rfl
    · rw [Cert.RefSide.res2_eq m' c, h0, h1, h2, h3, h4, h5, h6, h7, h8, h9, h12, h13]; rfl
    · rw [Cert.RefSide.res3_eq m' c, h0, h1, h2, h3, h4, h5, h6, h7, h8, h9, h14, h15]; rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
